-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000 : Shape := ⟨1, ![40000]⟩
abbrev S4096 : Shape := ⟨1, ![4096]⟩
abbrev S4096x40000 : Shape := ⟨2, ![4096, 40000]⟩
abbrev S1024 : Shape := ⟨1, ![1024]⟩
abbrev S1024x4096 : Shape := ⟨2, ![1024, 4096]⟩
abbrev S100000x128 : Shape := ⟨2, ![100000, 128]⟩
abbrev S256x128 : Shape := ⟨2, ![256, 128]⟩
abbrev S128x2 : Shape := ⟨2, ![128, 2]⟩
abbrev S_ : Shape := ⟨0, ![]⟩

class Facts : Prop where
  bcast_S_S4096x40000 : S_.BroadcastsInDim S4096x40000 (![] : Fin 0 → Fin S4096x40000.rank)
  reducesTo_S4096x40000_S_d0_1 : S4096x40000.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_arg9 : FVec F S256x128 .f32) (main_arg10 : FVec F S128x2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg9
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x2 .f32 := Host.absf main_arg10
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  main_v28

def fn {F : FTy → Type} [FloatOps F] (main_arg0 : IVec S40000 32) (main_arg1 : IVec S40000 32) (main_arg2 : IVec S4096 32) (main_arg3 : FVec F S4096x40000 .f32) (main_arg4 : IVec S4096 32) (main_arg5 : IVec S1024 32) (main_arg6 : FVec F S1024x4096 .f32) (main_arg7 : FVec F S100000x128 .f32) (main_arg8 : FVec F S256x128 .f32) (main_arg9 : FVec F S256x128 .f32) (main_arg10 : FVec F S128x2 .f32) : IVec S_ 1 :=
  let main_v0 : FVec F S4096x40000 .f32 := Host.absf main_arg3
  let main_cst : FVec F S_ .f32 := constant S_ .f32 0x7F800000#32
  let main_v1 : FVec F S4096x40000 .f32 := broadcastInDim S4096x40000 ![] bcast_S_S4096x40000 main_cst
  let main_v2 : IVec S4096x40000 1 := cmpf .olt main_v0 main_v1
  let main_c : IVec S_ 1 := constantI S_ 1 1#1
  let main_v3 : IVec S_ 1 := (fun x v => Host.reduce IntOp.andi x v reducesTo_S4096x40000_S_d0_1 h_S_) main_v2 main_c
  let main_v4 : FVec F S1024x4096 .f32 := Host.absf main_arg6
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S100000x128 .f32 := Host.absf main_arg7
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S256x128 .f32 := Host.absf main_arg8
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg9 main_arg10 main_v13 main_v16
-- ==== Kernel.lean ====
abbrev S40000 : Shape := ⟨1, ![40000]⟩
abbrev S4096 : Shape := ⟨1, ![4096]⟩
abbrev S4096x40000 : Shape := ⟨2, ![4096, 40000]⟩
abbrev S1024 : Shape := ⟨1, ![1024]⟩
abbrev S1024x4096 : Shape := ⟨2, ![1024, 4096]⟩
abbrev S100000x128 : Shape := ⟨2, ![100000, 128]⟩
abbrev S256x128 : Shape := ⟨2, ![256, 128]⟩
abbrev S128x2 : Shape := ⟨2, ![128, 2]⟩
abbrev S_ : Shape := ⟨0, ![]⟩
abbrev S40000x1 : Shape := ⟨2, ![40000, 1]⟩
abbrev S40000x128 : Shape := ⟨2, ![40000, 128]⟩
abbrev S4096x1 : Shape := ⟨2, ![4096, 1]⟩
abbrev S4096x128 : Shape := ⟨2, ![4096, 128]⟩
abbrev S40960x128 : Shape := ⟨2, ![40960, 128]⟩
abbrev S256x4096 : Shape := ⟨2, ![256, 4096]⟩
abbrev S4096x256 : Shape := ⟨2, ![4096, 256]⟩
abbrev S1024x1 : Shape := ⟨2, ![1024, 1]⟩
abbrev S1024x128 : Shape := ⟨2, ![1024, 128]⟩
abbrev S1024x256 : Shape := ⟨2, ![1024, 256]⟩
abbrev S1024x2 : Shape := ⟨2, ![1024, 2]⟩

abbrev nBuf : Space → Nat
  | .hbm => 91
  | .vmem => 10
  | .smem => 0
  | _ => 0

abbrev bufTy : (tb : Table) → Fin (tcTables nBuf tb) → BufTy
  | .hbm, ⟨0, _⟩ => ⟨S40000, .i32⟩
  | .hbm, ⟨1, _⟩ => ⟨S40000, .i32⟩
  | .hbm, ⟨2, _⟩ => ⟨S4096, .i32⟩
  | .hbm, ⟨3, _⟩ => ⟨S4096x40000, .f32⟩
  | .hbm, ⟨4, _⟩ => ⟨S4096, .i32⟩
  | .hbm, ⟨5, _⟩ => ⟨S1024, .i32⟩
  | .hbm, ⟨6, _⟩ => ⟨S1024x4096, .f32⟩
  | .hbm, ⟨7, _⟩ => ⟨S100000x128, .f32⟩
  | .hbm, ⟨8, _⟩ => ⟨S256x128, .f32⟩
  | .hbm, ⟨9, _⟩ => ⟨S256x128, .f32⟩
  | .hbm, ⟨10, _⟩ => ⟨S128x2, .f32⟩
  | .hbm, ⟨11, _⟩ => ⟨S_, .i32⟩
  | .hbm, ⟨12, _⟩ => ⟨S40000, .i32⟩
  | .hbm, ⟨13, _⟩ => ⟨S40000, .i1⟩
  | .hbm, ⟨14, _⟩ => ⟨S_, .i32⟩
  | .hbm, ⟨15, _⟩ => ⟨S40000, .i32⟩
  | .hbm, ⟨16, _⟩ => ⟨S40000, .i32⟩
  | .hbm, ⟨17, _⟩ => ⟨S40000, .i32⟩
  | .hbm, ⟨18, _⟩ => ⟨S40000x1, .i32⟩
  | .hbm, ⟨19, _⟩ => ⟨S40000x128, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x128, .f32⟩
  | .hbm, ⟨29, _⟩ => ⟨S_, .i32⟩
  | .hbm, ⟨30, _⟩ => ⟨S40000, .i32⟩
  | .hbm, ⟨31, _⟩ => ⟨S40000, .i1⟩
  | .hbm, ⟨32, _⟩ => ⟨S_, .i32⟩
  | .hbm, ⟨33, _⟩ => ⟨S40000, .i32⟩
  | .hbm, ⟨34, _⟩ => ⟨S40000, .i32⟩
  | .hbm, ⟨35, _⟩ => ⟨S40000, .i32⟩
  | .hbm, ⟨36, _⟩ => ⟨S40000x1, .i32⟩
  | .hbm, ⟨37, _⟩ => ⟨S40000x128, .f32⟩
  | .hbm, ⟨38, _⟩ => ⟨S_, .i32⟩
  | .hbm, ⟨39, _⟩ => ⟨S_, .f32⟩
  | .hbm, ⟨40, _⟩ => ⟨S40960x128, .f32⟩
  | .hbm, ⟨41, _⟩ => ⟨S40960x128, .bf16⟩
  | .hbm, ⟨42, _⟩ => ⟨S4096x128, .f32⟩
  | .hbm, ⟨43, _⟩ => ⟨S4096x256, .f32⟩
  | .hbm, ⟨44, _⟩ => ⟨S4096x128, .f32⟩
  | .hbm, ⟨45, _⟩ => ⟨S_, .f32⟩
  | .hbm, ⟨46, _⟩ => ⟨S4096x128, .f32⟩
  | .hbm, ⟨47, _⟩ => ⟨S4096x128, .f32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S1024x1, .i32⟩
  | .hbm, ⟨56, _⟩ => ⟨S1024x128, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x128, .f32⟩
  | .hbm, ⟨66, _⟩ => ⟨S_, .i32⟩
  | .hbm, ⟨67, _⟩ => ⟨S_, .f32⟩
  | .hbm, ⟨68, _⟩ => ⟨S4096x128, .f32⟩
  | .hbm, ⟨69, _⟩ => ⟨S4096x128, .bf16⟩
  | .hbm, ⟨70, _⟩ => ⟨S1024x128, .f32⟩
  | .hbm, ⟨71, _⟩ => ⟨S1024x256, .f32⟩
  | .hbm, ⟨72, _⟩ => ⟨S1024x128, .f32⟩
  | .hbm, ⟨73, _⟩ => ⟨S_, .f32⟩
  | .hbm, ⟨74, _⟩ => ⟨S1024x128, .f32⟩
  | .hbm, ⟨75, _⟩ => ⟨S1024x128, .f32⟩
  | .hbm, ⟨76, _⟩ => ⟨S1024x2, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1024x1, .f32⟩
  | .hbm, ⟨83, _⟩ => ⟨S1024x2, .f32⟩
  | .hbm, ⟨84, _⟩ => ⟨S1024x2, .f32⟩
  | .hbm, ⟨85, _⟩ => ⟨S1024x2, .f32⟩
  | .hbm, ⟨86, _⟩ => ⟨S_, .f32⟩
  | .hbm, ⟨87, _⟩ => ⟨S1024, .f32⟩
  | .hbm, ⟨88, _⟩ => ⟨S1024x1, .f32⟩
  | .hbm, ⟨89, _⟩ => ⟨S1024x2, .f32⟩
  | .hbm, ⟨90, _⟩ => ⟨S1024x2, .f32⟩
  | .local _ .vmem, ⟨0, _⟩ => ⟨S256x4096, .f32⟩
  | .local _ .vmem, ⟨1, _⟩ => ⟨S256x4096, .f32⟩
  | .local _ .vmem, ⟨2, _⟩ => ⟨S40960x128, .bf16⟩
  | .local _ .vmem, ⟨3, _⟩ => ⟨S256x128, .f32⟩
  | .local _ .vmem, ⟨4, _⟩ => ⟨S256x128, .f32⟩
  | .local _ .vmem, ⟨5, _⟩ => ⟨S256x4096, .f32⟩
  | .local _ .vmem, ⟨6, _⟩ => ⟨S256x4096, .f32⟩
  | .local _ .vmem, ⟨7, _⟩ => ⟨S4096x128, .bf16⟩
  | .local _ .vmem, ⟨8, _⟩ => ⟨S256x128, .f32⟩
  | .local _ .vmem, ⟨9, _⟩ => ⟨S256x128, .f32⟩
  | _, _ => ⟨S40000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_cst : Ref sig .tc := ⟨.hbm, 45, rfl⟩
abbrev main_call1_v0 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_call2_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call3_cst : Ref sig .tc := ⟨.hbm, 73, rfl⟩
abbrev main_call3_v0 : Ref sig .tc := ⟨.hbm, 74, rfl⟩
abbrev main_v46 : Ref sig .tc := ⟨.hbm, 75, rfl⟩
abbrev main_v47 : Ref sig .tc := ⟨.hbm, 76, rfl⟩
abbrev main_cst : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![16, 10], ![false, false]⟩

def k0_mult1 (i : grid0.Coords) : BitVec 32 :=
  let arg1 : BitVec 32 := BitVec.ofNat 32 (i 1).val
  let c4096_i32_2 : BitVec 32 := 4096#32
  let v13 : BitVec 32 := Scalar.muli arg1 c4096_i32_2
  v13
def k0_off1 (i : grid0.Coords) : Fin 2 → Nat :=
  let arg1 : BitVec 32 := BitVec.ofNat 32 (i 1).val
  let c4096_i32_2 : BitVec 32 := 4096#32
  let v13 : BitVec 32 := Scalar.muli arg1 c4096_i32_2
  let v14 : BitVec 32 := v13
  let v15 : Index := Scalar.indexCast v14
  let c0_3 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S40960x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 1], ![false, false]⟩

def k1_mult1 (i : grid1.Coords) : BitVec 32 :=
  let arg1 : BitVec 32 := BitVec.ofNat 32 (i 1).val
  let c4096_i32_3 : BitVec 32 := 4096#32
  let v13 : BitVec 32 := Scalar.muli arg1 c4096_i32_3
  v13
def k1_off1 (i : grid1.Coords) : Fin 2 → Nat :=
  let arg1 : BitVec 32 := BitVec.ofNat 32 (i 1).val
  let c4096_i32_3 : BitVec 32 := 4096#32
  let v13 : BitVec 32 := Scalar.muli arg1 c4096_i32_3
  let v14 : BitVec 32 := v13
  let v15 : Index := Scalar.indexCast v14
  let c0_4 : Index := 0#32
  ![v15.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S40000 : S_.BroadcastsInDim S40000 (![] : Fin 0 → Fin S40000.rank)
  bcast_S40000_S40000x1_0 : S40000.BroadcastsInDim S40000x1 (![0] : Fin 1 → Fin S40000x1.rank)
  bcast_S_S4096 : S_.BroadcastsInDim S4096 (![] : Fin 0 → Fin S4096.rank)
  bcast_S4096_S4096x1_0 : S4096.BroadcastsInDim S4096x1 (![0] : Fin 1 → Fin S4096x1.rank)
  pads_S40000x128_S40960x128_09600_000 : S40000x128.Pads (![0, 0] : Fin 2 → Nat) ![960, 0] ![0, 0] S40960x128
  h_S_ : 0 < S_.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S256x4096_S256x4096_0_0 : ∀ a, (![0, 0] : Fin 2 → Nat) a + S256x4096.size a ≤ S256x4096.size a
  h_S256x4096 : 0 < S256x4096.numel
  iota_S256x4096_d1_w32 : S256x4096.Iotas .tc 32 [1]
  h_S4096x128 : 0 < S4096x128.numel
  shapeCasts_S4096x128_S4096x128 : S4096x128.ShapeCasts S4096x128
  shapeCasts_S256x128_S256x128 : S256x128.ShapeCasts S256x128
  concatenates_S4096x128_S4096x128_S4096x256_d1 : Shape.Concatenates [S4096x128, S4096x128] S4096x256 1
  bcast_S_S4096x128 : S_.BroadcastsInDim S4096x128 (![] : Fin 0 → Fin S4096x128.rank)
  bcast_S_S1024 : S_.BroadcastsInDim S1024 (![] : Fin 0 → Fin S1024.rank)
  bcast_S1024_S1024x1_0 : S1024.BroadcastsInDim S1024x1 (![0] : Fin 1 → Fin S1024x1.rank)
  pads_S4096x128_S4096x128_000_000 : S4096x128.Pads (![0, 0] : Fin 2 → Nat) ![0, 0] ![0, 0] S4096x128
  concatenates_S1024x128_S1024x128_S1024x256_d1 : Shape.Concatenates [S1024x128, S1024x128] S1024x256 1
  bcast_S_S1024x128 : S_.BroadcastsInDim S1024x128 (![] : Fin 0 → Fin S1024x128.rank)
  reducesTo_S1024x2_S1024_d1 : S1024x2.ReducesTo [1] S1024
  bcast_S1024x1_S1024x2_0_1 : S1024x1.BroadcastsInDim S1024x2 (![0, 1] : Fin 2 → Fin S1024x2.rank)
  gather_S100000x128_S40000x1_S40000x128_1_0_n_n_0_1_1128_wf : GatherDims.WF S100000x128 S40000x1 S40000x128 [1] [0] [] [0] [] 1 ![1, 128]
  gather_S40000x128_S4096x1_S4096x128_1_0_n_n_0_1_1128_wf : GatherDims.WF S40000x128 S4096x1 S4096x128 [1] [0] [] [0] [] 1 ![1, 128]
  gather_S40000x128_S40000x1_S40000x128_1_0_n_n_0_1_1128_wf : GatherDims.WF S40000x128 S40000x1 S40000x128 [1] [0] [] [0] [] 1 ![1, 128]
  dot_S256x4096_S4096x128_S256x128_1_0_0_1_n_n_wf : DotDims.WF S256x4096 S4096x128 S256x128 [1] [0] [0] [1] [] []
  dot_S4096x256_S256x128_S4096x128_1_0_0_1_n_n_wf : DotDims.WF S4096x256 S256x128 S4096x128 [1] [0] [0] [1] [] []
  gather_S4096x128_S1024x1_S1024x128_1_0_n_n_0_1_1128_wf : GatherDims.WF S4096x128 S1024x1 S1024x128 [1] [0] [] [0] [] 1 ![1, 128]
  gather_S4096x128_S4096x1_S4096x128_1_0_n_n_0_1_1128_wf : GatherDims.WF S4096x128 S4096x1 S4096x128 [1] [0] [] [0] [] 1 ![1, 128]
  dot_S1024x256_S256x128_S1024x128_1_0_0_1_n_n_wf : DotDims.WF S1024x256 S256x128 S1024x128 [1] [0] [0] [1] [] []
  dot_S1024x128_S128x2_S1024x2_1_0_0_1_n_n_wf : DotDims.WF S1024x128 S128x2 S1024x2 [1] [0] [0] [1] [] []
  hrank0 : 0 < grid0.rank
  k0_mult1_dvd : ∀ i : grid0.Coords, 4096 ∣ (k0_mult1 i).toNat
  k0_off1_inb : ∀ i : grid0.Coords, ∀ a, (k0_off1 i) a + S4096x128.size a ≤ S40960x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x4096.size a < S4096x40000.size a
  hwx0_0 : ∀ i : grid0.Coords, EltTy.bits .f32 = 32 ∨ (Rect.unit (s := S4096x40000) (fun a => cc0_transform_0 i a * S256x4096.size a) (fun a => (Pipeline.Clip.of (cc0_transform_0 i a) (S256x4096.size a) (S4096x40000.size a)).extent (S256x4096.size a)) fun a => Pipeline.Clip.inb (Pipeline.Clip.ok_of (hstart0_0 i a))).WholeWords (EltTy.packing .f32)
  hwxs0_0 : ∀ i : grid0.Coords, EltTy.bits .f32 = 32 ∨ (Rect.unit (s := S256x4096) (fun _ => 0) (fun a => (Pipeline.Clip.of (cc0_transform_0 i a) (S256x4096.size a) (S4096x40000.size a)).extent (S256x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40960x128.size a ≤ S40960x128.size a
  hwx0_1 : ∀ i : grid0.Coords, EltTy.bits .bf16 = 32 ∨ (Rect.block (s := S40960x128) S40960x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)
  hrank1 : 0 < grid1.rank
  k1_mult1_dvd : ∀ i : grid1.Coords, 4096 ∣ (k1_mult1 i).toNat
  k1_off1_inb : ∀ i : grid1.Coords, ∀ a, (k1_off1 i) a + S4096x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S1024x4096.size a
  hwx1_0 : ∀ i : grid1.Coords, EltTy.bits .f32 = 32 ∨ (Rect.block (s := S1024x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .bf16 = 32 ∨ (Rect.block (s := S4096x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S1024x128.size a
  hwx1_2 : ∀ i : grid1.Coords, EltTy.bits .f32 = 32 ∨ (Rect.block (s := S1024x128) S256x128.size (cc1_transform_2 i) (hinb1_2 i)).WholeWords (EltTy.packing .f32)

variable [Facts₀]

def gather_S100000x128_S40000x1_S40000x128_1_0_n_n_0_1_1128 : GatherDims S100000x128 S40000x1 S40000x128 where
  offsetDims := [1]
  collapsedSliceDims := [0]
  operandBatchingDims := []
  startIndicesBatchingDims := []
  startIndexMap := [0]
  indexVectorDim := 1
  sliceSizes := ![1, 128]
  wf := gather_S100000x128_S40000x1_S40000x128_1_0_n_n_0_1_1128_wf
def gather_S40000x128_S4096x1_S4096x128_1_0_n_n_0_1_1128 : GatherDims S40000x128 S4096x1 S4096x128 where
  offsetDims := [1]
  collapsedSliceDims := [0]
  operandBatchingDims := []
  startIndicesBatchingDims := []
  startIndexMap := [0]
  indexVectorDim := 1
  sliceSizes := ![1, 128]
  wf := gather_S40000x128_S4096x1_S4096x128_1_0_n_n_0_1_1128_wf
def gather_S40000x128_S40000x1_S40000x128_1_0_n_n_0_1_1128 : GatherDims S40000x128 S40000x1 S40000x128 where
  offsetDims := [1]
  collapsedSliceDims := [0]
  operandBatchingDims := []
  startIndicesBatchingDims := []
  startIndexMap := [0]
  indexVectorDim := 1
  sliceSizes := ![1, 128]
  wf := gather_S40000x128_S40000x1_S40000x128_1_0_n_n_0_1_1128_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf
def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpecClip (Memref.whole main_arg3) S256x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v22) S40960x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg6) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S40000 : Shape := ⟨1, ![40000]⟩
abbrev S4096 : Shape := ⟨1, ![4096]⟩
abbrev S4096x40000 : Shape := ⟨2, ![4096, 40000]⟩
abbrev S1024 : Shape := ⟨1, ![1024]⟩
abbrev S1024x4096 : Shape := ⟨2, ![1024, 4096]⟩
abbrev S100000x128 : Shape := ⟨2, ![100000, 128]⟩
abbrev S256x128 : Shape := ⟨2, ![256, 128]⟩
abbrev S128x2 : Shape := ⟨2, ![128, 2]⟩
abbrev S_ : Shape := ⟨0, ![]⟩
abbrev S40000x1 : Shape := ⟨2, ![40000, 1]⟩
abbrev S40000x128 : Shape := ⟨2, ![40000, 128]⟩
abbrev S4096x1 : Shape := ⟨2, ![4096, 1]⟩
abbrev S4096x128 : Shape := ⟨2, ![4096, 128]⟩
abbrev S4096x256 : Shape := ⟨2, ![4096, 256]⟩
abbrev S1024x1 : Shape := ⟨2, ![1024, 1]⟩
abbrev S1024x128 : Shape := ⟨2, ![1024, 128]⟩
abbrev S1024x256 : Shape := ⟨2, ![1024, 256]⟩
abbrev S1024x2 : Shape := ⟨2, ![1024, 2]⟩

abbrev nBuf : Space → Nat
  | .hbm => 83
  | .vmem => 0
  | .smem => 0
  | _ => 0

abbrev bufTy : (tb : Table) → Fin (tcTables nBuf tb) → BufTy
  | .hbm, ⟨0, _⟩ => ⟨S40000, .i32⟩
  | .hbm, ⟨1, _⟩ => ⟨S40000, .i32⟩
  | .hbm, ⟨2, _⟩ => ⟨S4096, .i32⟩
  | .hbm, ⟨3, _⟩ => ⟨S4096x40000, .f32⟩
  | .hbm, ⟨4, _⟩ => ⟨S4096, .i32⟩
  | .hbm, ⟨5, _⟩ => ⟨S1024, .i32⟩
  | .hbm, ⟨6, _⟩ => ⟨S1024x4096, .f32⟩
  | .hbm, ⟨7, _⟩ => ⟨S100000x128, .f32⟩
  | .hbm, ⟨8, _⟩ => ⟨S256x128, .f32⟩
  | .hbm, ⟨9, _⟩ => ⟨S256x128, .f32⟩
  | .hbm, ⟨10, _⟩ => ⟨S128x2, .f32⟩
  | .hbm, ⟨11, _⟩ => ⟨S_, .i32⟩
  | .hbm, ⟨12, _⟩ => ⟨S40000, .i32⟩
  | .hbm, ⟨13, _⟩ => ⟨S40000, .i1⟩
  | .hbm, ⟨14, _⟩ => ⟨S_, .i32⟩
  | .hbm, ⟨15, _⟩ => ⟨S40000, .i32⟩
  | .hbm, ⟨16, _⟩ => ⟨S40000, .i32⟩
  | .hbm, ⟨17, _⟩ => ⟨S40000, .i32⟩
  | .hbm, ⟨18, _⟩ => ⟨S40000x1, .i32⟩
  | .hbm, ⟨19, _⟩ => ⟨S40000x128, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x128, .f32⟩
  | .hbm, ⟨29, _⟩ => ⟨S_, .i32⟩
  | .hbm, ⟨30, _⟩ => ⟨S40000, .i32⟩
  | .hbm, ⟨31, _⟩ => ⟨S40000, .i1⟩
  | .hbm, ⟨32, _⟩ => ⟨S_, .i32⟩
  | .hbm, ⟨33, _⟩ => ⟨S40000, .i32⟩
  | .hbm, ⟨34, _⟩ => ⟨S40000, .i32⟩
  | .hbm, ⟨35, _⟩ => ⟨S40000, .i32⟩
  | .hbm, ⟨36, _⟩ => ⟨S40000x1, .i32⟩
  | .hbm, ⟨37, _⟩ => ⟨S40000x128, .f32⟩
  | .hbm, ⟨38, _⟩ => ⟨S4096x128, .f32⟩
  | .hbm, ⟨39, _⟩ => ⟨S4096x256, .f32⟩
  | .hbm, ⟨40, _⟩ => ⟨S4096x128, .f32⟩
  | .hbm, ⟨41, _⟩ => ⟨S_, .f32⟩
  | .hbm, ⟨42, _⟩ => ⟨S4096x128, .f32⟩
  | .hbm, ⟨43, _⟩ => ⟨S4096x128, .f32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S1024x128, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x128, .f32⟩
  | .hbm, ⟨62, _⟩ => ⟨S1024x128, .f32⟩
  | .hbm, ⟨63, _⟩ => ⟨S1024x256, .f32⟩
  | .hbm, ⟨64, _⟩ => ⟨S1024x128, .f32⟩
  | .hbm, ⟨65, _⟩ => ⟨S_, .f32⟩
  | .hbm, ⟨66, _⟩ => ⟨S1024x128, .f32⟩
  | .hbm, ⟨67, _⟩ => ⟨S1024x128, .f32⟩
  | .hbm, ⟨68, _⟩ => ⟨S1024x2, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S1024x1, .f32⟩
  | .hbm, ⟨75, _⟩ => ⟨S1024x2, .f32⟩
  | .hbm, ⟨76, _⟩ => ⟨S1024x2, .f32⟩
  | .hbm, ⟨77, _⟩ => ⟨S1024x2, .f32⟩
  | .hbm, ⟨78, _⟩ => ⟨S_, .f32⟩
  | .hbm, ⟨79, _⟩ => ⟨S1024, .f32⟩
  | .hbm, ⟨80, _⟩ => ⟨S1024x1, .f32⟩
  | .hbm, ⟨81, _⟩ => ⟨S1024x2, .f32⟩
  | .hbm, ⟨82, _⟩ => ⟨S1024x2, .f32⟩
  | _, _ => ⟨S40000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_v43 : Ref sig .tc := ⟨.hbm, 68, rfl⟩
abbrev main_cst : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  bcast_S_S40000 : S_.BroadcastsInDim S40000 (![] : Fin 0 → Fin S40000.rank)
  bcast_S40000_S40000x1_0 : S40000.BroadcastsInDim S40000x1 (![0] : Fin 1 → Fin S40000x1.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  bcast_S_S4096x128 : S_.BroadcastsInDim S4096x128 (![] : Fin 0 → Fin S4096x128.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x128_S1024x128_S1024x256_d1 : Shape.Concatenates [S1024x128, S1024x128] S1024x256 1
  bcast_S_S1024x128 : S_.BroadcastsInDim S1024x128 (![] : Fin 0 → Fin S1024x128.rank)
  reducesTo_S1024x2_S1024_d1 : S1024x2.ReducesTo [1] S1024
  h_S_ : 0 < S_.numel
  bcast_S1024x1_S1024x2_0_1 : S1024x1.BroadcastsInDim S1024x2 (![0, 1] : Fin 2 → Fin S1024x2.rank)
  gather_S100000x128_S40000x1_S40000x128_1_0_n_n_0_1_1128_wf : GatherDims.WF S100000x128 S40000x1 S40000x128 [1] [0] [] [0] [] 1 ![1, 128]
  gather_S40000x128_S4096x1_S4096x128_1_0_n_n_0_1_1128_wf : GatherDims.WF S40000x128 S4096x1 S4096x128 [1] [0] [] [0] [] 1 ![1, 128]
  gather_S40000x128_S40000x1_S40000x128_1_0_n_n_0_1_1128_wf : GatherDims.WF S40000x128 S40000x1 S40000x128 [1] [0] [] [0] [] 1 ![1, 128]
  dot_S4096x40000_S40000x128_S4096x128_1_0_0_1_n_n_wf : DotDims.WF S4096x40000 S40000x128 S4096x128 [1] [0] [0] [1] [] []
  dot_S4096x256_S256x128_S4096x128_1_0_0_1_n_n_wf : DotDims.WF S4096x256 S256x128 S4096x128 [1] [0] [0] [1] [] []
  gather_S4096x128_S1024x1_S1024x128_1_0_n_n_0_1_1128_wf : GatherDims.WF S4096x128 S1024x1 S1024x128 [1] [0] [] [0] [] 1 ![1, 128]
  gather_S4096x128_S4096x1_S4096x128_1_0_n_n_0_1_1128_wf : GatherDims.WF S4096x128 S4096x1 S4096x128 [1] [0] [] [0] [] 1 ![1, 128]
  dot_S1024x4096_S4096x128_S1024x128_1_0_0_1_n_n_wf : DotDims.WF S1024x4096 S4096x128 S1024x128 [1] [0] [0] [1] [] []
  dot_S1024x256_S256x128_S1024x128_1_0_0_1_n_n_wf : DotDims.WF S1024x256 S256x128 S1024x128 [1] [0] [0] [1] [] []
  dot_S1024x128_S128x2_S1024x2_1_0_0_1_n_n_wf : DotDims.WF S1024x128 S128x2 S1024x2 [1] [0] [0] [1] [] []

variable [Facts₀]

def gather_S100000x128_S40000x1_S40000x128_1_0_n_n_0_1_1128 : GatherDims S100000x128 S40000x1 S40000x128 where
  offsetDims := [1]
  collapsedSliceDims := [0]
  operandBatchingDims := []
  startIndicesBatchingDims := []
  startIndexMap := [0]
  indexVectorDim := 1
  sliceSizes := ![1, 128]
  wf := gather_S100000x128_S40000x1_S40000x128_1_0_n_n_0_1_1128_wf
def gather_S40000x128_S4096x1_S4096x128_1_0_n_n_0_1_1128 : GatherDims S40000x128 S4096x1 S4096x128 where
  offsetDims := [1]
  collapsedSliceDims := [0]
  operandBatchingDims := []
  startIndicesBatchingDims := []
  startIndexMap := [0]
  indexVectorDim := 1
  sliceSizes := ![1, 128]
  wf := gather_S40000x128_S4096x1_S4096x128_1_0_n_n_0_1_1128_wf
def gather_S40000x128_S40000x1_S40000x128_1_0_n_n_0_1_1128 : GatherDims S40000x128 S40000x1 S40000x128 where
  offsetDims := [1]
  collapsedSliceDims := [0]
  operandBatchingDims := []
  startIndicesBatchingDims := []
  startIndexMap := [0]
  indexVectorDim := 1
  sliceSizes := ![1, 128]
  wf := gather_S40000x128_S40000x1_S40000x128_1_0_n_n_0_1_1128_wf
def dot_S4096x40000_S40000x128_S4096x128_1_0_0_1_n_n : DotDims S4096x40000 S40000x128 S4096x128 where
  lhsContracting := [1]
  rhsContracting := [0]
  lhsNonContracting := [0]
  rhsNonContracting := [1]
  lhsBatch := []
  rhsBatch := []
  wf := dot_S4096x40000_S40000x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf
def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

class Facts : Prop extends Facts₀ where

variable [Facts]
-- ==== Proof.BitsRegion0Runs.lean ====
/-
  The first matrix product of the program, dif_mat_1 · src_1 with dif_mat_1 : [4096, 40000] and src_1 : [40000, 128]
  (padded with 960 zero rows to [40960, 128]), as one kernel region on a grid of 16 × 10 points: point (i, k) takes the
  block of 256 rows i·256 … and 4096 columns k·4096 … of dif_mat_1 — the tenth block of columns overhangs the array by
  960 columns, which hold words nothing names —, replaces every entry whose column is 40000 or more by zero, multiplies
  by the 4096 rows k·4096 … of the padded src_1, and adds the product to the block of 256 rows of the result, which it
  first sets to zero when k = 0. The result block is written back after k = 9.

  Here: the windows' blocks, the body's one branch, and the body's run on any three whole buffers in each of the two
  cases (k = 0: the result's buffer at anything; k > 0: at what the point before left), for any interpretation of the
  floating-point operations.
-/
import proofs.«107894_j60490319397131_2_alg».proof.Proof.Gen.Kernel.Launch
import proofs.«107894_j60490319397131_2_alg».proof.Proof.Gen.Kernel.Skeleton
import proofs.«107894_j60490319397131_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the core's buffers when the region is entered
variable (V : (c : Dev nD) → (b : Ref sig .tc) → Buf (Elt F) ((c : Thread nD τ).loc b))

/-- Window w's block at point t, read off its array as the region finds it: for the first window its part inside
    the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's one branch: is the second grid coordinate zero? -/
abbrev cond0 (i : grid0.Coords) : Prop := (Scalar.cmpi .ne (Scalar.extui (Scalar.cmpi .eq (BitVec.ofNat 32 (i 1).val) 0#32)) 0#32) = 1#1
/-- It is at every tenth point, the first of each sweep over the columns. -/
theorem hcond0 : ∀ t : Fin cfg0.N, cond0 (grid0.coords t) ↔ t.val % 10 = 0 :=
  (by decide +kernel : ∀ t : Fin grid0.N, cond0 (grid0.coords t) ↔ t.val % 10 = 0)

/-- One staging buffer of the result window, through which its contents are stated. -/
abbrev VO0 : View sig .tc .vmem S256x128 .f32 := (Memref.whole cc0_stg2_0 : Memref sig .tc .vmem S256x128 .f32).view
/-- Each window's current staging buffer at point t, as the pipeline passes it to the body. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40960x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)

set_option maxHeartbeats 4000000 in
/-- The body when k = 0, on any three whole buffers, the inputs' at contents x0 and x1 and the result's at anything:
    it runs to the end, leaves the inputs' buffers as they were and the result's with the pieces L written — the zero
    block, then the sum of what the buffer then holds and the product. -/
noncomputable def kernelRun0_A (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : cond0 i) (x0 : Vec F S256x4096 .f32) (x1 : Vec F S40960x128 .bf16) :
    { L : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__diffusion_matmul_kernel i arg2 harg2 arg3 harg3 arg4 harg4) K } := by
  refine ⟨?_, fun E K => ?run⟩
  case run =>
    simp only [cc0__diffusion_matmul_kernel_eq_skeleton]; unfold cc0__diffusion_matmul_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The body when k > 0, the result's buffer at the running contents xo: it leaves the inputs' buffers as they were
    and the result's with the one piece L written — the sum of xo and the product. -/
noncomputable def kernelRun0_B (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : ¬cond0 i) (x0 : Vec F S256x4096 .f32) (x1 : Vec F S40960x128 .bf16) (xo : Vec F S256x128 .f32) :
    { L : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__diffusion_matmul_kernel i arg2 harg2 arg3 harg3 arg4 harg4) K } := by
  refine ⟨?_, fun E K => ?run⟩
  case run =>
    simp only [cc0__diffusion_matmul_kernel_eq_skeleton]; unfold cc0__diffusion_matmul_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- In either case the pieces tile the result block, so they cover it. -/
theorem cover0_A (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : cond0 i) (x0 : Vec F S256x4096 .f32) (x1 : Vec F S40960x128 .bf16) (y : S256x128.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S256x128.size (by sl_kernel_rfl) y
theorem cover0_B (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : ¬cond0 i) (x0 : Vec F S256x4096 .f32) (x1 : Vec F S40960x128 .bf16) (xo : Vec F S256x128 .f32) (y : S256x128.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S256x128.size (by sl_kernel_rfl) y

/-- What each case leaves in the result window's buffer: its pieces read back. -/
def out0_A (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : cond0 i) (x0 : Vec F S256x4096 .f32) (x1 : Vec F S40960x128 .bf16) : Vec F S256x128 .f32 :=
  VO0.read (Elt F) (VO0.writes (Elt F) VO0.junk (kernelRun0_A c i arg2 harg2 arg3 harg3 arg4 harg4 hc0 x0 x1).1)
def out0_B (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : ¬cond0 i) (x0 : Vec F S256x4096 .f32) (x1 : Vec F S40960x128 .bf16) (xo : Vec F S256x128 .f32) : Vec F S256x128 .f32 :=
  VO0.read (Elt F) (VO0.writes (Elt F) VO0.junk (kernelRun0_B c i arg2 harg2 arg3 harg3 arg4 harg4 hc0 x0 x1 xo).1)

end Region0

end Cert.Kernel.Hand

end
-- ==== Proof.BitsRegion0Pieces.lean ====
/-
  What the result window's buffer holds after the body of the first matrix product's kernel, in closed form: the
  body's stores read back are the payload of its loads — the sum of what the buffer held (zero at the first block
  of columns) and the product of the masked left block with the 4096 rows of the right operand at the block's
  offset.
-/
import proofs.«107894_j60490319397131_2_alg».proof.Proof.BitsRegion0Runs
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/-! ## What each case's pieces read back to: the payload of the body's loads -/

/-- The rows of the padded right operand the body loads at point i: 4096 rows from row k·4096. -/
abbrev srcRows0 (i : grid0.Coords) (x1 : Vec F S40960x128 .bf16) : Vec F S4096x128 .bf16 :=
  View.ld x1 (Rect.unit (s := S40960x128) (k0_off1 i) S4096x128.size (k0_off1_inb i))

/-- When k = 0 the result's buffer ends at the payload of the two input blocks over the zero block. -/
theorem out0_A_eq (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : cond0 i) (x0 : Vec F S256x4096 .f32) (x1 : Vec F S40960x128 .bf16) :
    out0_A c i arg2 harg2 arg3 harg3 arg4 harg4 hc0 x0 x1 = k0_pay2 i x0 (srcRows0 i x1) k0_pay1 := by
  unfold out0_A
  rw [View.read_writes_eq_canon _ _ _ (cover0_A c i arg2 harg2 arg3 harg3 arg4 harg4 hc0 x0 x1)]
  unfold kernelRun0_A
  dsimp only
  sl_unfold_words
  have hz : (![0, 0] : Fin 2 → Nat) = fun _ => 0 := funext fun a => by fin_cases a <;> rfl
  simp only [View.readAt_eq_ld, harg2.read_unread, harg3.read_unread]
  refine (View.canon_cons_unit_zero (S := S256x128) hz _ _ _).trans ?_
  rw [View.readCov_unit_zero (S := S256x128) _ hz, View.ld_unit_zero (S := S256x4096) hz]
  rfl

/-- When k > 0 it ends at the payload of the two input blocks over what it held. -/
theorem out0_B_eq (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : ¬cond0 i) (x0 : Vec F S256x4096 .f32) (x1 : Vec F S40960x128 .bf16) (xo : Vec F S256x128 .f32) :
    out0_B c i arg2 harg2 arg3 harg3 arg4 harg4 hc0 x0 x1 xo = k0_pay2 i x0 (srcRows0 i x1) xo := by
  unfold out0_B
  rw [View.read_writes_eq_canon _ _ _ (cover0_B c i arg2 harg2 arg3 harg3 arg4 harg4 hc0 x0 x1 xo)]
  unfold kernelRun0_B
  dsimp only
  sl_unfold_words
  have hz : (![0, 0] : Fin 2 → Nat) = fun _ => 0 := funext fun a => by fin_cases a <;> rfl
  simp only [View.readAt_eq_ld, harg2.read_unread, harg3.read_unread, harg4.read_unread]
  refine (View.canon_unit_zero (S := S256x128) hz _ _).trans ?_
  rw [View.ld_unit_zero (S := S256x4096) hz, View.ld_unit_zero (S := S256x128) hz]
  rfl

end Region0

end Cert.Kernel.Hand

end
-- ==== Proof.BitsPayloadMask.lean ====
/-
  The first kernel region's body multiplies a [256, 4096] block of the left matrix, whose columns are the 4096
  columns i1·4096 … of a [4096, 40000] array, by 4096 rows of the right matrix. Ten blocks of 4096 columns cover
  40960 > 40000 columns, so in the last block (i1 = 9) the columns j with 9·4096 + j ≥ 40000 lie outside the array:
  the fetch moves nothing into them, and they hold whatever words were there before. The body replaces exactly those
  columns by zero before the product: it selects, by the mask  i1·4096 + j <ₛ 40000  (a signed comparison of 32-bit
  words), between the block and the zero block.

  Here: the mask word at a column is 1 exactly when the column lies inside the array (all the numbers involved are
  below 2³¹, so the wrapping product and sum and the signed comparison are those of the naturals); a column the mask
  keeps is one the fetch moved; hence two blocks that agree on the part the fetch moved give the same stored value.
  For any interpretation of the floating-point operations.
-/
import proofs.«107894_j60490319397131_2_alg».proof.Proof.Gen.Kernel.Skeleton
import Idealize.ShloMosaic.Lib.Pipeline.Value

noncomputable section

namespace Cert.Kernel.Hand

open Cert.Kernel Cert.Kernel.Gen Idealize.ShloMosaic

variable {F : FTy → Type} [FloatOps F]

/-! ## The mask word -/

/-- The one-bit word of a Boolean is 1 exactly when the Boolean is true. -/
theorem ofBool_eq_one_iff (b : Bool) : BitVec.ofBool b = 1#1 ↔ b = true := by cases b <;> decide

/-- Two naturals below 2³¹, as 32-bit words, compare as signed integers the way they compare as naturals: neither
    word has its sign bit set, so each word's signed value is the natural itself. -/
theorem slt_ofNat_iff (n m : Nat) (hn : n < 2147483648) (hm : m < 2147483648) :
    (BitVec.ofNat 32 n).slt (BitVec.ofNat 32 m) = true ↔ n < m := by
  rw [BitVec.slt, decide_eq_true_iff, BitVec.toInt_eq_toNat_cond, BitVec.toInt_eq_toNat_cond,
    BitVec.toNat_ofNat, BitVec.toNat_ofNat]
  have h1 : n % 2 ^ 32 = n := Nat.mod_eq_of_lt (by omega)
  have h2 : m % 2 ^ 32 = m := Nat.mod_eq_of_lt (by omega)
  rw [h1, h2, if_pos (by omega), if_pos (by omega)]
  omega

/-- The mask word  a·4096 + b <ₛ thr  computed on 32-bit words, for a block index a < 10, a column b < 4096 and a
    threshold below 2³¹, is 1 exactly when a·4096 + b < thr as naturals: a·4096 + b < 40960 < 2³², so the product
    and the sum do not wrap, and both sides of the comparison are below 2³¹. -/
theorem mask_word_iff (a b thr : Nat) (ha : a < 10) (hb : b < 4096) (ht : thr < 2147483648) :
    IntOp.cmpi .slt (IntOp.addi (Scalar.muli (BitVec.ofNat 32 a) 4096#32) (BitVec.ofNat 32 b)) (BitVec.ofNat 32 thr) = 1#1
      ↔ a * 4096 + b < thr := by
  have hx : IntOp.addi (Scalar.muli (BitVec.ofNat 32 a) 4096#32) (BitVec.ofNat 32 b) = BitVec.ofNat 32 (a * 4096 + b) := by
    unfold IntOp.addi Scalar.muli IntOp.muli
    apply BitVec.eq_of_toNat_eq
    simp only [BitVec.toNat_add, BitVec.toNat_mul, BitVec.toNat_ofNat]
    omega
  rw [hx]
  unfold IntOp.cmpi
  show BitVec.ofBool ((BitVec.ofNat 32 (a * 4096 + b)).slt (BitVec.ofNat 32 thr)) = 1#1 ↔ _
  rw [ofBool_eq_one_iff, slt_ofNat_iff _ _ (by omega) ht]

/-! ## A column the mask keeps is a column the fetch moved -/

/-- The left operand's block index at grid point i is i itself on both axes (the grid's coordinates, below 16 and
    below 10, are unchanged by the passage through 32-bit words). -/
theorem transform0_val (i : grid0.Coords) (a : Fin 2) : cc0_transform_0 i a = (i a).val := by
  have h1 : (i 1).val < 10 := (i 1).isLt
  have h0 : (i 0).val < 16 := (i 0).isLt
  match a with
  | ⟨0, _⟩ =>
    show (BitVec.ofNat 32 (i 0).val).toNat = _
    rw [BitVec.toNat_ofNat]; exact Nat.mod_eq_of_lt (by omega)
  | ⟨1, _⟩ =>
    show (BitVec.ofNat 32 (i 1).val).toNat = _
    rw [BitVec.toNat_ofNat]; exact Nat.mod_eq_of_lt (by omega)

/-- A column of the block that lies inside the array, i1·4096 + j1 < 40000, is one the fetch at i moves: on the rows
    every block lies inside the array ((i0 + 1)·256 ≤ 4096), and on the columns the block is either whole inside the
    array or cut to its first 40000 − i1·4096 columns, among which j1 is. -/
theorem moved_of_lt (i : grid0.Coords) (j : S256x4096.Idx) (h : (i 1).val * 4096 + (j 1).val < 40000) : win0_0.moved i j = true := by
  have h1 : (i 1).val < 10 := (i 1).isLt
  have h0 : (i 0).val < 16 := (i 0).isLt
  have hj1 : (j 1).val < 4096 := (j 1).isLt
  have hj0 : (j 0).val < 256 := (j 0).isLt
  rw [Pipeline.Window.moved_iff]
  intro a
  match a with
  | ⟨0, _⟩ =>
    show (j 0).val < (Pipeline.Clip.of (cc0_transform_0 i 0) 256 4096).extent 256
    rw [transform0_val]; unfold Pipeline.Clip.of; split
    · exact hj0
    · omega
  | ⟨1, _⟩ =>
    show (j 1).val < (Pipeline.Clip.of (cc0_transform_0 i 1) 4096 40000).extent 4096
    rw [transform0_val]; unfold Pipeline.Clip.of; split
    · exact hj1
    · show (j 1).val < 40000 - (i 1).val * 4096
      omega

/-- If the mask word at (i, j) is 1, that is i1·4096 + j1 < 40000, the fetch at i moves the block's element j. -/
theorem moved_of_mask (i : grid0.Coords) (j : S256x4096.Idx)
    (h : IntOp.cmpi .slt (IntOp.addi (Scalar.muli (BitVec.ofNat 32 (i 1).val) 4096#32) (BitVec.ofNat 32 (j 1).val)) 40000#32 = 1#1) :
    win0_0.moved i j = true :=
  moved_of_lt i j ((mask_word_iff _ _ 40000 (i 1).isLt (j 1).isLt (by omega)).mp h)

/-! ## The stored value reads the block only where the fetch moved it -/

/-- The payload reads its left operand only where the fetch moved it: two blocks that agree on the part of the
    block inside the array give the same payload. The two payloads differ only in the masked left operand, and the
    masked blocks are equal element by element: where the mask word is 1 the element was moved, so the blocks
    agree there; where it is not, both masked blocks hold the zero. -/
theorem k0_pay2_congr (i : grid0.Coords) (x x' : Vec F S256x4096 .f32) (v16 : Vec F S4096x128 .bf16) (v18 : Vec F S256x128 .f32)
    (hx : ∀ j : S256x4096.Idx, win0_0.moved i j = true → x j = x' j) : k0_pay2 i x v16 v18 = k0_pay2 i x' v16 v18 := by
  unfold k0_pay2
  dsimp only
  refine congrArg (fun z => addf _ (matmul dot_S256x4096_S4096x128_S256x128_1_0_0_1_n_n none (truncf FTy.bf16 z bitsLt_bf16_f32) _ _)) ?_
  funext j
  show Scalar.select (IntOp.cmpi .slt (IntOp.addi (Scalar.muli (BitVec.ofNat 32 (i 1).val) 4096#32)
      (iota Kind.tc S256x4096 32 [1] iota_S256x4096_d1_w32 j)) 40000#32) (x j) _
    = Scalar.select (IntOp.cmpi .slt (IntOp.addi (Scalar.muli (BitVec.ofNat 32 (i 1).val) 4096#32)
      (iota Kind.tc S256x4096 32 [1] iota_S256x4096_d1_w32 j)) 40000#32) (x' j) _
  rw [iota_single_apply]
  unfold Scalar.select
  split
  · next h => exact hx j (moved_of_mask i j h)
  · rfl

end Cert.Kernel.Hand

end
-- ==== Proof.BitsRegion0.lean ====
/-
  The first matrix product's kernel region: what each window's staging buffer holds point by point, and the body's
  obligation at every point. The first window's last block of columns overhangs the array; past the array's end its
  buffer holds words nothing names, and the obligation hands that buffer back stated on the part inside the array
  only. The result window's buffer carries the running sum across the ten blocks of columns of a sweep.
-/
import proofs.«107894_j60490319397131_2_alg».proof.Proof.BitsRegion0Pieces
import proofs.«107894_j60490319397131_2_alg».proof.Proof.BitsPayloadMask

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the core's buffers when the region is entered
variable (V : (c : Dev nD) → (b : Ref sig .tc) → Buf (Elt F) ((c : Thread nD τ).loc b))

/-! ## The proof data: what each window's staging buffer holds, point by point -/

/-- A filler for the part of the first window's buffer past the array's end, which nothing reads. -/
def zfill : S256x4096.Idx → Elt F .f32 := fun _ => Scalar.ofBits .f32 0#32

/-- The first window's buffer at point t as the proof names it: its block inside the array, the filler outside. -/
def x0At (c : Dev nD) (t : Fin cfg0.N) : Vec F S256x4096 .f32 :=
  win0_0.fill (grid0.coords t) zfill (iblk0 V c 0 t)

/-- THE ACCUMULATION. What the result window's buffer holds after the body at position n: at the first point of a
    sweep over the columns the payload over the zero block, at a later one the payload over what the point before
    left. -/
def outsAt0 (c : Dev nD) : (n : ℕ) → n < cfg0.N → Vec F S256x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0 ⟨0, hn⟩).mpr (Nat.zero_mod _)) (x0At V c ⟨0, hn⟩) (iblk0 V c 1 ⟨0, hn⟩)
  | n + 1, hn =>
    if h0 : (n + 1) % 10 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hcond0 ⟨n + 1, hn⟩).mpr h0) (x0At V c ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0 ⟨n + 1, hn⟩).mp h)) (x0At V c ⟨n + 1, hn⟩) (iblk0 V c 1 ⟨n + 1, hn⟩) (outsAt0 c n (Nat.lt_of_succ_lt hn))

theorem outsAt0_A (c : Dev nD) (t : Fin cfg0.N) (h0 : t.val % 10 = 0) :
    outsAt0 V c t.val t.isLt = out0_A c (grid0.coords t) (ms0_0 t) (hs0_0 t) (ms0_1 t) (hs0_1 t) (ms0_2 t) (hs0_2 t) ((hcond0 t).mpr h0) (x0At V c t) (iblk0 V c 1 t) := by
  obtain ⟨n, hn⟩ := t
  cases n with
  | zero => exact rfl
  | succ n => exact (dif_pos h0).trans rfl

theorem outsAt0_B (c : Dev nD) (t : Fin cfg0.N) (h0 : ¬t.val % 10 = 0) :
    outsAt0 V c t.val t.isLt = out0_B c (grid0.coords t) (ms0_0 t) (hs0_0 t) (ms0_1 t) (hs0_1 t) (ms0_2 t) (hs0_2 t) (fun h => h0 ((hcond0 t).mp h)) (x0At V c t) (iblk0 V c 1 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body at point t the first
    window's buffer at its block filled out, the second's at its block, the result's at the accumulation; no invariant
    beyond the scoped rest; nothing owed. -/
def dat0 (c : Dev nD) : Dat τ (Elt F) Unit ℕ (UR sig nD τ) ℕ cfg0 c where
  A w := V c (Pipeline.arrRef spec0 w)
  after w t := match w with
    | ⟨0, _⟩ => x0At V c t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = x0At V c t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

/-- The first window is fetched at every point: its buffer holds the block inside the array and, past the array's
    end, contents d nothing names. -/
theorem before0_0 (c : Dev nD) (t : Fin cfg0.N) (d) :
    (dat0 V c).before 0 t d = win0_0.fill (grid0.coords t) d (iblk0 V c 0 t) := by
  unfold Dat.before; rw [if_pos (fetch0_0 t)]; rfl

/-- The second window, fetched once, holds its block (the whole padded operand) at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Inside a sweep the result window's buffer holds what the body left at the point before: it is written back only
    after the sweep's last point. -/
theorem before0_2_B (c : Dev nD) (t : Fin cfg0.N) (h0 : ¬t.val % 10 = 0) (d) :
    (dat0 V c).before 2 t d = outsAt0 V c (t.val - 1) (Nat.lt_of_le_of_lt (Nat.sub_le _ _) t.isLt) := by
  have hN : t.val < 160 := lt_of_lt_of_eq t.isLt (show cfg0.N = 160 from N_0)
  rw [Dat.before_out_kept _ 2 rfl t (by omega) (Bool.eq_false_iff.mpr fun h => by have := (flush0_2 _).mp h; dsimp only at this; omega)
    (fun _ => rfl) (fun _ _ => rfl)]
  dsimp only [dat0]

/-- Two fillings of the first window's block agree where the fetch moved it. -/
theorem fill_agree (i : grid0.Coords) (d d' : S256x4096.Idx → Elt F .f32) (g : (win0_0.xblock i).Idx → Elt F .f32)
    (j : S256x4096.Idx) (hj : win0_0.moved i j = true) : win0_0.fill i d g j = win0_0.fill i d' g j := by
  unfold Window.fill; rw [dif_pos hj, dif_pos hj]

/-! ## The body's obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns: the first window's buffer stated on the part inside the array only. -/
def bodyPost0 (c : Dev nD) (t : Fin cfg0.N) : sProp 𝕄 :=
  iprop((dat0 V c).Φ t.succ ∗ (dat0 V c).owesAt () t.succ
    ∗ (∃ d, owns (c : Thread nD τ) (ms0_0 t) fullShare (win0_0.fill (grid0.coords t) d (win0_0.cut (grid0.coords t) ((dat0 V c).after 0 t))))
    ∗ owns (c : Thread nD τ) (ms0_1 t) fullShare ((dat0 V c).after 1 t)
    ∗ owns (c : Thread nD τ) (ms0_2 t) fullShare ((dat0 V c).after 2 t))

set_option maxHeartbeats 1600000 in
/-- The body at any point. The first window's buffer holds its block and, past the array's end, anything; the body
    masks those columns before it multiplies, so what it leaves in the result's buffer does not depend on them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2,
    show win0_0.cut (grid0.coords t) (x0At V c t) = iblk0 V c 0 t from win0_0.cut_fill _ _ _]
  have hN : t.val < 160 := lt_of_lt_of_eq t.isLt (show cfg0.N = 160 from N_0)
  by_cases h0 : t.val % 10 = 0
  · rw [outsAt0_A V c t h0]
    iintro ⟨HΦ, Ho, ⟨%d0, H0⟩, ⟨%d1, H1⟩, ⟨%d2, H2⟩⟩
    rw [show out0_A c (grid0.coords t) (ms0_0 t) (hs0_0 t) (ms0_1 t) (hs0_1 t) (ms0_2 t) (hs0_2 t) ((hcond0 t).mpr h0) (x0At V c t) (iblk0 V c 1 t)
        = out0_A c (grid0.coords t) (ms0_0 t) (hs0_0 t) (ms0_1 t) (hs0_1 t) (ms0_2 t) (hs0_2 t) ((hcond0 t).mpr h0)
            (win0_0.fill (grid0.coords t) d0 (iblk0 V c 0 t)) (iblk0 V c 1 t) from by
      rw [out0_A_eq, out0_A_eq]
      exact k0_pay2_congr _ _ _ _ _ (fill_agree _ _ _ _)]
    unfold out0_A
    iapply ((kernelRun0_A c (grid0.coords t) _ _ _ _ _ _ ((hcond0 t).mpr h0) (win0_0.fill (grid0.coords t) d0 (iblk0 V c 0 t)) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexists d0; iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    iintro ⟨HΦ, Ho, ⟨%d0, H0⟩, ⟨%d1, H1⟩, ⟨%d2, H2⟩⟩
    rw [show out0_B c (grid0.coords t) (ms0_0 t) (hs0_0 t) (ms0_1 t) (hs0_1 t) (ms0_2 t) (hs0_2 t) (fun h => h0 ((hcond0 t).mp h)) (x0At V c t) (iblk0 V c 1 t)
          (outsAt0 V c (t.val - 1) (Nat.lt_of_le_of_lt (Nat.sub_le _ _) t.isLt))
        = out0_B c (grid0.coords t) (ms0_0 t) (hs0_0 t) (ms0_1 t) (hs0_1 t) (ms0_2 t) (hs0_2 t) (fun h => h0 ((hcond0 t).mp h))
            (win0_0.fill (grid0.coords t) d0 (iblk0 V c 0 t)) (iblk0 V c 1 t)
            (outsAt0 V c (t.val - 1) (Nat.lt_of_le_of_lt (Nat.sub_le _ _) t.isLt)) from by
      rw [out0_B_eq, out0_B_eq]
      exact k0_pay2_congr _ _ _ _ _ (fill_agree _ _ _ _)]
    unfold out0_B
    iapply ((kernelRun0_B c (grid0.coords t) _ _ _ _ _ _ (fun h => h0 ((hcond0 t).mp h)) (win0_0.fill (grid0.coords t) d0 (iblk0 V c 0 t)) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexists d0; iexact H0
    isplitl [H1]; · iexact H1
    unfold owns; iexists _; isplitr
    swap; · iexact H2
    ipureintro; exact View.read_writes_of_cover _ _ _ _ _ (cover0_B c _ _ _ _ _ _ _ _ _ _ _)

/-- The body's obligation at every point, the first window's buffer handed back stated on the part inside the array. -/
theorem body_obligation0 (c : Dev nD) : Pipeline.BodyObligationLoose (dat0 (F := F) V c) (defs₀ (F := F)) Variants.none () Set.univ := fun t => by
  rw [bigSep_W0, bigSep_W0]
  exact sound_body0 V c t

end Region0

end Cert.Kernel.Hand

end
-- ==== Proof.BitsRegion1.lean ====
/-
  The second matrix product of the program, dif_mat_2 · src_2 with dif_mat_2 : [1024, 4096] and src_2 : [4096, 128],
  as one kernel region on a grid of 4 × 1 points: point (i, 0) takes the 256 rows i·256 … of dif_mat_2 and the whole
  of src_2, and stores their product into the 256 rows i·256 … of the result. The grid's second coordinate is always 0,
  so every point first sets its result block to zero and then adds the product to it.

  Here: what each window's staging buffer holds when the body runs and after it, the body's run on any three whole
  buffers, and the body's obligation at every point, for any interpretation of the floating-point operations.
-/
import proofs.«107894_j60490319397131_2_alg».proof.Proof.Gen.Kernel.Launch
import proofs.«107894_j60490319397131_2_alg».proof.Proof.Gen.Kernel.Skeleton
import proofs.«107894_j60490319397131_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the contents of the core's buffers when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether it was fetched there or not, when the
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: is the second grid coordinate zero? -/
abbrev cond1 (i : grid1.Coords) : Prop := (Scalar.cmpi .ne (Scalar.extui (Scalar.cmpi .eq (BitVec.ofNat 32 (i 1).val) 0#32)) 0#32) = 1#1
/-- It is, at every point of this grid. -/
theorem hcond1 : ∀ t : Fin cfg1.N, cond1 (grid1.coords t) :=
  (by decide +kernel : ∀ t : Fin grid1.N, cond1 (grid1.coords t))

/-- One staging buffer of the result window, through which its contents are stated. -/
abbrev VO1 : View sig .tc .vmem S256x128 .f32 := (Memref.whole cc1_stg2_0 : Memref sig .tc .vmem S256x128 .f32).view
/-- Each window's current staging buffer at point t, as the pipeline passes it to the body. -/
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)

set_option maxHeartbeats 4000000 in
/-- The body on any three whole buffers, the two inputs' at contents x0 and x1 and the result's at anything, when the
    branch is taken: it runs to the end, leaves the inputs' buffers as they were and the result's with the pieces
    L written — the zero block, then the sum of what the buffer then holds and the product. -/
noncomputable def kernelRun1 (c : Dev nD) (i : grid1.Coords) (arg2 : Memref sig .tc .vmem S256x4096 .f32) (harg2 : arg2.IsWhole)
    (arg3 : Memref sig .tc .vmem S4096x128 .bf16) (harg3 : arg3.IsWhole) (arg4 : Memref sig .tc .vmem S256x128 .f32) (harg4 : arg4.IsWhole)
    (hc0 : cond1 i) (x0 : Vec F S256x4096 .f32) (x1 : Vec F S4096x128 .bf16) :
    { L : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__diffusion_matmul_kernel i arg2 harg2 arg3 harg3 arg4 harg4) K } := by
  refine ⟨?_, fun E K => ?run⟩
  case run =>
    simp only [cc1__diffusion_matmul_kernel_eq_skeleton]; unfold cc1__diffusion_matmul_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The pieces tile the result block, so they cover it. -/
theorem cover1 (c : Dev nD) (i : grid1.Coords) (arg2 : Memref sig .tc .vmem S256x4096 .f32) (harg2 : arg2.IsWhole)
    (arg3 : Memref sig .tc .vmem S4096x128 .bf16) (harg3 : arg3.IsWhole) (arg4 : Memref sig .tc .vmem S256x128 .f32) (harg4 : arg4.IsWhole)
    (hc0 : cond1 i) (x0 : Vec F S256x4096 .f32) (x1 : Vec F S4096x128 .bf16) (y : S256x128.Idx) :
    ∃ pc ∈ (kernelRun1 c i arg2 harg2 arg3 harg3 arg4 harg4 hc0 x0 x1).1, y ∈ pc.1.set :=
  View.cover_of_tiledL (kernelRun1 c i arg2 harg2 arg3 harg3 arg4 harg4 hc0 x0 x1).1 S256x128.size (by sl_kernel_rfl) y

/-- What the body leaves in the result window's buffer: its pieces read back. -/
def out1 (c : Dev nD) (i : grid1.Coords) (arg2 : Memref sig .tc .vmem S256x4096 .f32) (harg2 : arg2.IsWhole)
    (arg3 : Memref sig .tc .vmem S4096x128 .bf16) (harg3 : arg3.IsWhole) (arg4 : Memref sig .tc .vmem S256x128 .f32) (harg4 : arg4.IsWhole)
    (hc0 : cond1 i) (x0 : Vec F S256x4096 .f32) (x1 : Vec F S4096x128 .bf16) : Vec F S256x128 .f32 :=
  VO1.read (Elt F) (VO1.writes (Elt F) VO1.junk (kernelRun1 c i arg2 harg2 arg3 harg3 arg4 harg4 hc0 x0 x1).1)

/-- What the result window's buffer holds after the body at point t. -/
def outAt1 (c : Dev nD) (t : Fin cfg1.N) : Vec F S256x128 .f32 :=
  out1 c (grid1.coords t) (ms1_0 t) (hs1_0 t) (ms1_1 t) (hs1_1 t) (ms1_2 t) (hs1_2 t) (hcond1 t) (iblk1 V c 0 t) (iblk1 V c 1 t)

/-- The region's proof data on core c: the arrays as the region finds them; after the body at point t the inputs'
    buffers at their blocks and the result's at outAt1; no invariant beyond the scoped rest; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' buffers hold their blocks, the run applies, the invariant passes through
    unread, the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1 out1
  iintro ⟨HΦ, Ho, ⟨%d0, H0⟩, ⟨%d1, H1⟩, ⟨%d2, H2⟩⟩
  iapply ((kernelRun1 c (grid1.coords t) _ _ _ _ _ _ (hcond1 t) (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _ _)

/-- The body's obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BitsRun.lean ====
/-
  The whole program's run. @main is thirteen items: host operations, the first matrix product's kernel region, host
  operations, the second product's region, host operations. Between two items each core holds every buffer whole at
  contents named by a fold from the launch memory: a stretch of host operations applies them; a region changes only
  its result array, to what its write-backs leave. Each region is entered from that state and left at the next one;
  so every weakly fair execution terminates, the result buffer ends at the last fold read at it, and every argument
  ends as launched (no item writes one).
-/
import proofs.«107894_j60490319397131_2_alg».proof.Proof.Gen.Kernel.Regions
import proofs.«107894_j60490319397131_2_alg».proof.Proof.BitsRegion0
import proofs.«107894_j60490319397131_2_alg».proof.Proof.BitsRegion1
import Idealize.ShloMosaic.Lib.Pipeline.Kit
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the two regions leave -/

/-- The buffers when the first region is entered, read at the core's references. -/
abbrev VR3 : (c : Dev nD) → (b : Ref sig .tc) → Buf (Elt F) ((c : Thread nD τ).loc b) := fun c b => V3 m c b
/-- What the first region leaves in its result array: its write-backs folded over the array. -/
def o4 (c : Dev nD) : Buf (Elt F) ((c : Thread nD τ).loc main_v23) := (dat0 (VR3 m) c).arrAt 2 cfg0.N
/-- The regions' outputs as far as the second region's entry needs them. -/
def outsA : Outs (F := F) := fun _ r c => if h : r = main_v23 then h ▸ o4 m c else V3 m c r
/-- The buffers when the second region is entered. -/
abbrev VR9 : (c : Dev nD) → (b : Ref sig .tc) → Buf (Elt F) ((c : Thread nD τ).loc b) := fun c b => V9 m (outsA m) c b
/-- What the second region leaves in its result array. -/
def o10 (c : Dev nD) : Buf (Elt F) ((c : Thread nD τ).loc main_v43) := (dat1 (VR9 m) c).arrAt 2 cfg1.N
/-- What the regions leave, array by array. -/
def outs : Outs (F := F) := fun _ r c =>
  if h : r = main_v23 then h ▸ o4 m c else if h' : r = main_v43 then h' ▸ o10 m c else V3 m c r

theorem outsA_4 (c : Dev nD) : outsA m 4 main_v23 c = o4 m c := by unfold outsA; rw [dif_pos rfl]
theorem outs_4 (c : Dev nD) : outs m 4 main_v23 c = o4 m c := by unfold outs; rw [dif_pos rfl]
theorem outs_10 (c : Dev nD) : outs m 10 main_v43 c = o10 m c := by
  unfold outs; rw [dif_neg (by decide), dif_pos rfl]
/-- The second region is entered from the same buffers whichever of the two families names the first's output. -/
theorem V9_outs (c : Dev nD) : V9 m (outs m) c = V9 m (outsA m) c := by
  show StableHlo.after hostOps1_4 (StableHlo.after hostOps1_3 (StableHlo.after hostOps1_2 (StableHlo.after hostOps1_1 (StableHlo.after hostOps1
      (Function.update (V3 m c) main_v23 (outs m 4 main_v23 c)))))) = StableHlo.after hostOps1_4 (StableHlo.after hostOps1_3 (StableHlo.after hostOps1_2
      (StableHlo.after hostOps1_1 (StableHlo.after hostOps1 (Function.update (V3 m c) main_v23 (outsA m 4 main_v23 c))))))
  rw [outs_4, outsA_4]

/-! ## The regions' exits against the folds -/

theorem hF0 (c : Dev nD) (w : Fin cfg0.W) : (dat0 (VR3 m) c).arrAt w cfg0.N = V4 m (outs m) c (Pipeline.arrRef spec0 w) :=
  match w with
  | ⟨0, _⟩ => ((dat0 (VR3 m) c).arrAt_in 0 rfl _).trans ((A_eq0 (VR3 m) c 0).trans (V4_of m (outs m) c main_arg3 (by decide)).symm)
  | ⟨1, _⟩ => ((dat0 (VR3 m) c).arrAt_in 1 rfl _).trans ((A_eq0 (VR3 m) c 1).trans (V4_of m (outs m) c main_v22 (by decide)).symm)
  | ⟨2, _⟩ => by
    rw [show V4 m (outs m) c (Pipeline.arrRef spec0 2) = outs m 4 main_v23 c from Function.update_self _ _ _, outs_4]; rfl
theorem hrest0 (c : Dev nD) : ∀ b, b ∉ Finset.univ.image (Pipeline.arrRef spec0) → V4 m (outs m) c b = VR3 m c b :=
  fun b hb => V4_of m (outs m) c b fun h => hb (Finset.mem_image.mpr ⟨2, Finset.mem_univ _, (List.mem_singleton.mp h).symm⟩)

theorem hF1 (c : Dev nD) (w : Fin cfg1.W) : (dat1 (VR9 m) c).arrAt w cfg1.N = V10 m (outs m) c (Pipeline.arrRef spec1 w) :=
  match w with
  | ⟨0, _⟩ => ((dat1 (VR9 m) c).arrAt_in 0 rfl _).trans ((A_eq1 (VR9 m) c 0).trans
      ((congrFun (V9_outs m c) _).symm.trans (V10_of m (outs m) c main_arg6 (by decide)).symm))
  | ⟨1, _⟩ => ((dat1 (VR9 m) c).arrAt_in 1 rfl _).trans ((A_eq1 (VR9 m) c 1).trans
      ((congrFun (V9_outs m c) _).symm.trans (V10_of m (outs m) c main_v42 (by decide)).symm))
  | ⟨2, _⟩ => by
    rw [show V10 m (outs m) c (Pipeline.arrRef spec1 2) = outs m 10 main_v43 c from Function.update_self _ _ _, outs_10]; rfl
theorem hrest1 (c : Dev nD) : ∀ b, b ∉ Finset.univ.image (Pipeline.arrRef spec1) → V10 m (outs m) c b = VR9 m c b :=
  fun b hb => (V10_of m (outs m) c b fun h => hb (Finset.mem_image.mpr ⟨2, Finset.mem_univ _, (List.mem_singleton.mp h).symm⟩)).trans
    (congrFun (V9_outs m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VR3 m) c
  | ⟨1, _⟩ => fun c => dat1 (VR9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)
def E : Fin 3 → Dev nD → sProp 𝕄 := fun _ c => R c

-- a library lemma stated over the pinned configuration unifies with the printed one only when unification may unfold
-- plain definitions in a metavariable's type
set_option backward.isDefEq.respectTransparency.types false in
/-- The first region over the thread state: entered from every buffer at the fold before it, left at the fold after
    it. Its arrays are split out of the buffers and put back at the exit contents; the generator register goes into
    the region's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (VR3 m) c
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR3 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region likewise. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR9 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR9 m c)
  hentry c := by
    rw [Pipeline.ownSems0_none, V9_outs m c]
    have hsplit := Pipeline.arrays_of_unscopedBufs (p := 1) (pcfgs (F := F)) adm (pdats m) launch1.win launch1.arr_whole c
      ((pdats m 1 c).share_full fun _ => rfl) (VR9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR9 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting; the
    result buffer ends at the last fold read at it and every argument as launched. -/
theorem run_all : θ_run defs (onTc (τ := τ) (main (F := F))) ⟨m, fun _ => 0, ρ⟩ (fun r => ∀ c : Dev nD,
      r.2.mem ((c.tc : Thread nD τ).loc main_v58) = V13 m (outs m) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl,
      sep_mono .rfl (by unfold E; iintro ⟨-, HO⟩; iexact HO)⟩)
    (hinit := ?_) (QY := fun c s => s.mem ((c.tc : Thread nD τ).loc main_v58) = V13 m (outs m) c main_v58
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the buffers are held at the launch contents; the rest makes the thread state's rider on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts L lv)
        ⊢ (|={Set.univ}=> bigSep Finset.univ (E (F := F) 0) : sProp 𝕄) :=
      Pipeline.initEach L lv fun c => by
        unfold E
        iintro ⟨⟨-, HO, -, Hp, -⟩, -⟩
        imodintro
        isplitl [Hp]; · iexists _; iexact Hp
        iexists ∅; iexact HO
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last fold
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v58) (mem_uc main_v58 (by decide)),
        (h (Proc.devRef .tc main_arg0) (mem_uc main_arg0 (by decide))).trans (V13_main_arg0 m (outs m) c),
        (h (Proc.devRef .tc main_arg1) (mem_uc main_arg1 (by decide))).trans (V13_main_arg1 m (outs m) c),
        (h (Proc.devRef .tc main_arg2) (mem_uc main_arg2 (by decide))).trans (V13_main_arg2 m (outs m) c),
        (h (Proc.devRef .tc main_arg3) (mem_uc main_arg3 (by decide))).trans (V13_main_arg3 m (outs m) c),
        (h (Proc.devRef .tc main_arg4) (mem_uc main_arg4 (by decide))).trans (V13_main_arg4 m (outs m) c),
        (h (Proc.devRef .tc main_arg5) (mem_uc main_arg5 (by decide))).trans (V13_main_arg5 m (outs m) c),
        (h (Proc.devRef .tc main_arg6) (mem_uc main_arg6 (by decide))).trans (V13_main_arg6 m (outs m) c),
        (h (Proc.devRef .tc main_arg7) (mem_uc main_arg7 (by decide))).trans (V13_main_arg7 m (outs m) c),
        (h (Proc.devRef .tc main_arg8) (mem_uc main_arg8 (by decide))).trans (V13_main_arg8 m (outs m) c),
        (h (Proc.devRef .tc main_arg9) (mem_uc main_arg9 (by decide))).trans (V13_main_arg9 m (outs m) c),
        (h (Proc.devRef .tc main_arg10) (mem_uc main_arg10 (by decide))).trans (V13_main_arg10 m (outs m) c)⟩
    · iexact HSI

end Cert.Kernel.Hand

end
-- ==== Proof.Region0Runs.lean ====
/-
  The first matrix product of the program, dif_mat_1 · src_1 with dif_mat_1 : [4096, 40000] and src_1 : [40000, 128]
  (padded with 960 zero rows to [40960, 128]), as one kernel region on a grid of 16 × 10 points: point (i, k) takes the
  block of 256 rows i·256 … and 4096 columns k·4096 … of dif_mat_1 — the tenth block of columns overhangs the array by
  960 columns, which hold words nothing names —, replaces every entry whose column is 40000 or more by zero, multiplies
  by the 4096 rows k·4096 … of the padded src_1, and adds the product to the block of 256 rows of the result, which it
  first sets to zero when k = 0. The result block is written back after k = 9.

  Here: the windows' blocks, the body's one branch, and the body's run on any three whole buffers in each of the two
  cases (k = 0: the result's buffer at anything; k > 0: at what the point before left), for any interpretation of the
  floating-point operations.
-/
import proofs.«107894_j60490319397131_2_alg».proof.Proof.Gen.KernelIdeal.Launch
import proofs.«107894_j60490319397131_2_alg».proof.Proof.Gen.KernelIdeal.Skeleton
import proofs.«107894_j60490319397131_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the core's buffers when the region is entered
variable (V : (c : Dev nD) → (b : Ref sig .tc) → Buf (Elt F) ((c : Thread nD τ).loc b))

/-- Window w's block at point t, read off its array as the region finds it: for the first window its part inside
    the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's one branch: is the second grid coordinate zero? -/
abbrev cond0 (i : grid0.Coords) : Prop := (Scalar.cmpi .ne (Scalar.extui (Scalar.cmpi .eq (BitVec.ofNat 32 (i 1).val) 0#32)) 0#32) = 1#1
/-- It is at every tenth point, the first of each sweep over the columns. -/
theorem hcond0 : ∀ t : Fin cfg0.N, cond0 (grid0.coords t) ↔ t.val % 10 = 0 :=
  (by decide +kernel : ∀ t : Fin grid0.N, cond0 (grid0.coords t) ↔ t.val % 10 = 0)

/-- One staging buffer of the result window, through which its contents are stated. -/
abbrev VO0 : View sig .tc .vmem S256x128 .f32 := (Memref.whole cc0_stg2_0 : Memref sig .tc .vmem S256x128 .f32).view
/-- Each window's current staging buffer at point t, as the pipeline passes it to the body. -/
abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40960x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)

set_option maxHeartbeats 4000000 in
/-- The body when k = 0, on any three whole buffers, the inputs' at contents x0 and x1 and the result's at anything:
    it runs to the end, leaves the inputs' buffers as they were and the result's with the pieces L written — the zero
    block, then the sum of what the buffer then holds and the product. -/
noncomputable def kernelRun0_A (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : cond0 i) (x0 : Vec F S256x4096 .f32) (x1 : Vec F S40960x128 .bf16) :
    { L : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__diffusion_matmul_kernel i arg2 harg2 arg3 harg3 arg4 harg4) K } := by
  refine ⟨?_, fun E K => ?run⟩
  case run =>
    simp only [cc0__diffusion_matmul_kernel_eq_skeleton]; unfold cc0__diffusion_matmul_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The body when k > 0, the result's buffer at the running contents xo: it leaves the inputs' buffers as they were
    and the result's with the one piece L written — the sum of xo and the product. -/
noncomputable def kernelRun0_B (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : ¬cond0 i) (x0 : Vec F S256x4096 .f32) (x1 : Vec F S40960x128 .bf16) (xo : Vec F S256x128 .f32) :
    { L : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__diffusion_matmul_kernel i arg2 harg2 arg3 harg3 arg4 harg4) K } := by
  refine ⟨?_, fun E K => ?run⟩
  case run =>
    simp only [cc0__diffusion_matmul_kernel_eq_skeleton]; unfold cc0__diffusion_matmul_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- In either case the pieces tile the result block, so they cover it. -/
theorem cover0_A (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : cond0 i) (x0 : Vec F S256x4096 .f32) (x1 : Vec F S40960x128 .bf16) (y : S256x128.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S256x128.size (by sl_kernel_rfl) y
theorem cover0_B (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : ¬cond0 i) (x0 : Vec F S256x4096 .f32) (x1 : Vec F S40960x128 .bf16) (xo : Vec F S256x128 .f32) (y : S256x128.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S256x128.size (by sl_kernel_rfl) y

/-- What each case leaves in the result window's buffer: its pieces read back. -/
def out0_A (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : cond0 i) (x0 : Vec F S256x4096 .f32) (x1 : Vec F S40960x128 .bf16) : Vec F S256x128 .f32 :=
  VO0.read (Elt F) (VO0.writes (Elt F) VO0.junk (kernelRun0_A c i arg2 harg2 arg3 harg3 arg4 harg4 hc0 x0 x1).1)
def out0_B (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : ¬cond0 i) (x0 : Vec F S256x4096 .f32) (x1 : Vec F S40960x128 .bf16) (xo : Vec F S256x128 .f32) : Vec F S256x128 .f32 :=
  VO0.read (Elt F) (VO0.writes (Elt F) VO0.junk (kernelRun0_B c i arg2 harg2 arg3 harg3 arg4 harg4 hc0 x0 x1 xo).1)

end Region0

end Cert.KernelIdeal.Hand

end
-- ==== Proof.Region0Pieces.lean ====
/-
  What the result window's buffer holds after the body of the first matrix product's kernel, in closed form: the
  body's stores read back are the payload of its loads — the sum of what the buffer held (zero at the first block
  of columns) and the product of the masked left block with the 4096 rows of the right operand at the block's
  offset.
-/
import proofs.«107894_j60490319397131_2_alg».proof.Proof.Region0Runs
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/-! ## What each case's pieces read back to: the payload of the body's loads -/

/-- The rows of the padded right operand the body loads at point i: 4096 rows from row k·4096. -/
abbrev srcRows0 (i : grid0.Coords) (x1 : Vec F S40960x128 .bf16) : Vec F S4096x128 .bf16 :=
  View.ld x1 (Rect.unit (s := S40960x128) (k0_off1 i) S4096x128.size (k0_off1_inb i))

/-- When k = 0 the result's buffer ends at the payload of the two input blocks over the zero block. -/
theorem out0_A_eq (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : cond0 i) (x0 : Vec F S256x4096 .f32) (x1 : Vec F S40960x128 .bf16) :
    out0_A c i arg2 harg2 arg3 harg3 arg4 harg4 hc0 x0 x1 = k0_pay2 i x0 (srcRows0 i x1) k0_pay1 := by
  unfold out0_A
  rw [View.read_writes_eq_canon _ _ _ (cover0_A c i arg2 harg2 arg3 harg3 arg4 harg4 hc0 x0 x1)]
  unfold kernelRun0_A
  dsimp only
  sl_unfold_words
  have hz : (![0, 0] : Fin 2 → Nat) = fun _ => 0 := funext fun a => by fin_cases a <;> rfl
  simp only [View.readAt_eq_ld, harg2.read_unread, harg3.read_unread]
  refine (View.canon_cons_unit_zero (S := S256x128) hz _ _ _).trans ?_
  rw [View.readCov_unit_zero (S := S256x128) _ hz, View.ld_unit_zero (S := S256x4096) hz]
  rfl

/-- When k > 0 it ends at the payload of the two input blocks over what it held. -/
theorem out0_B_eq (c : Dev nD) (i : grid0.Coords) (arg2 : Memref sig .tc .vmem S256x4096 .f32) (harg2 : arg2.IsWhole)
    (arg3 : Memref sig .tc .vmem S40960x128 .bf16) (harg3 : arg3.IsWhole) (arg4 : Memref sig .tc .vmem S256x128 .f32) (harg4 : arg4.IsWhole)
    (hc0 : ¬cond0 i) (x0 : Vec F S256x4096 .f32) (x1 : Vec F S40960x128 .bf16) (xo : Vec F S256x128 .f32) :
    out0_B c i arg2 harg2 arg3 harg3 arg4 harg4 hc0 x0 x1 xo = k0_pay2 i x0 (srcRows0 i x1) xo := by
  unfold out0_B
  rw [View.read_writes_eq_canon _ _ _ (cover0_B c i arg2 harg2 arg3 harg3 arg4 harg4 hc0 x0 x1 xo)]
  unfold kernelRun0_B
  dsimp only
  sl_unfold_words
  have hz : (![0, 0] : Fin 2 → Nat) = fun _ => 0 := funext fun a => by fin_cases a <;> rfl
  simp only [View.readAt_eq_ld, harg2.read_unread, harg3.read_unread, harg4.read_unread]
  refine (View.canon_unit_zero (S := S256x128) hz _ _).trans ?_
  rw [View.ld_unit_zero (S := S256x4096) hz, View.ld_unit_zero (S := S256x128) hz]
  rfl

end Region0

end Cert.KernelIdeal.Hand

end
-- ==== Proof.PayloadMask.lean ====
/-
  The first kernel region's body multiplies a [256, 4096] block of the left matrix, whose columns are the 4096
  columns i1·4096 … of a [4096, 40000] array, by 4096 rows of the right matrix. Ten blocks of 4096 columns cover
  40960 > 40000 columns, so in the last block (i1 = 9) the columns j with 9·4096 + j ≥ 40000 lie outside the array:
  the fetch moves nothing into them, and they hold whatever words were there before. The body replaces exactly those
  columns by zero before the product: it selects, by the mask  i1·4096 + j <ₛ 40000  (a signed comparison of 32-bit
  words), between the block and the zero block.

  Here: the mask word at a column is 1 exactly when the column lies inside the array (all the numbers involved are
  below 2³¹, so the wrapping product and sum and the signed comparison are those of the naturals); a column the mask
  keeps is one the fetch moved; hence two blocks that agree on the part the fetch moved give the same stored value.
  For any interpretation of the floating-point operations.
-/
import proofs.«107894_j60490319397131_2_alg».proof.Proof.Gen.KernelIdeal.Skeleton
import Idealize.ShloMosaic.Lib.Pipeline.Value

noncomputable section

namespace Cert.KernelIdeal.Hand

open Cert.KernelIdeal Cert.KernelIdeal.Gen Idealize.ShloMosaic

variable {F : FTy → Type} [FloatOps F]

/-! ## The mask word -/

/-- The one-bit word of a Boolean is 1 exactly when the Boolean is true. -/
theorem ofBool_eq_one_iff (b : Bool) : BitVec.ofBool b = 1#1 ↔ b = true := by cases b <;> decide

/-- Two naturals below 2³¹, as 32-bit words, compare as signed integers the way they compare as naturals: neither
    word has its sign bit set, so each word's signed value is the natural itself. -/
theorem slt_ofNat_iff (n m : Nat) (hn : n < 2147483648) (hm : m < 2147483648) :
    (BitVec.ofNat 32 n).slt (BitVec.ofNat 32 m) = true ↔ n < m := by
  rw [BitVec.slt, decide_eq_true_iff, BitVec.toInt_eq_toNat_cond, BitVec.toInt_eq_toNat_cond,
    BitVec.toNat_ofNat, BitVec.toNat_ofNat]
  have h1 : n % 2 ^ 32 = n := Nat.mod_eq_of_lt (by omega)
  have h2 : m % 2 ^ 32 = m := Nat.mod_eq_of_lt (by omega)
  rw [h1, h2, if_pos (by omega), if_pos (by omega)]
  omega

/-- The mask word  a·4096 + b <ₛ thr  computed on 32-bit words, for a block index a < 10, a column b < 4096 and a
    threshold below 2³¹, is 1 exactly when a·4096 + b < thr as naturals: a·4096 + b < 40960 < 2³², so the product
    and the sum do not wrap, and both sides of the comparison are below 2³¹. -/
theorem mask_word_iff (a b thr : Nat) (ha : a < 10) (hb : b < 4096) (ht : thr < 2147483648) :
    IntOp.cmpi .slt (IntOp.addi (Scalar.muli (BitVec.ofNat 32 a) 4096#32) (BitVec.ofNat 32 b)) (BitVec.ofNat 32 thr) = 1#1
      ↔ a * 4096 + b < thr := by
  have hx : IntOp.addi (Scalar.muli (BitVec.ofNat 32 a) 4096#32) (BitVec.ofNat 32 b) = BitVec.ofNat 32 (a * 4096 + b) := by
    unfold IntOp.addi Scalar.muli IntOp.muli
    apply BitVec.eq_of_toNat_eq
    simp only [BitVec.toNat_add, BitVec.toNat_mul, BitVec.toNat_ofNat]
    omega
  rw [hx]
  unfold IntOp.cmpi
  show BitVec.ofBool ((BitVec.ofNat 32 (a * 4096 + b)).slt (BitVec.ofNat 32 thr)) = 1#1 ↔ _
  rw [ofBool_eq_one_iff, slt_ofNat_iff _ _ (by omega) ht]

/-! ## A column the mask keeps is a column the fetch moved -/

/-- The left operand's block index at grid point i is i itself on both axes (the grid's coordinates, below 16 and
    below 10, are unchanged by the passage through 32-bit words). -/
theorem transform0_val (i : grid0.Coords) (a : Fin 2) : cc0_transform_0 i a = (i a).val := by
  have h1 : (i 1).val < 10 := (i 1).isLt
  have h0 : (i 0).val < 16 := (i 0).isLt
  match a with
  | ⟨0, _⟩ =>
    show (BitVec.ofNat 32 (i 0).val).toNat = _
    rw [BitVec.toNat_ofNat]; exact Nat.mod_eq_of_lt (by omega)
  | ⟨1, _⟩ =>
    show (BitVec.ofNat 32 (i 1).val).toNat = _
    rw [BitVec.toNat_ofNat]; exact Nat.mod_eq_of_lt (by omega)

/-- A column of the block that lies inside the array, i1·4096 + j1 < 40000, is one the fetch at i moves: on the rows
    every block lies inside the array ((i0 + 1)·256 ≤ 4096), and on the columns the block is either whole inside the
    array or cut to its first 40000 − i1·4096 columns, among which j1 is. -/
theorem moved_of_lt (i : grid0.Coords) (j : S256x4096.Idx) (h : (i 1).val * 4096 + (j 1).val < 40000) : win0_0.moved i j = true := by
  have h1 : (i 1).val < 10 := (i 1).isLt
  have h0 : (i 0).val < 16 := (i 0).isLt
  have hj1 : (j 1).val < 4096 := (j 1).isLt
  have hj0 : (j 0).val < 256 := (j 0).isLt
  rw [Pipeline.Window.moved_iff]
  intro a
  match a with
  | ⟨0, _⟩ =>
    show (j 0).val < (Pipeline.Clip.of (cc0_transform_0 i 0) 256 4096).extent 256
    rw [transform0_val]; unfold Pipeline.Clip.of; split
    · exact hj0
    · omega
  | ⟨1, _⟩ =>
    show (j 1).val < (Pipeline.Clip.of (cc0_transform_0 i 1) 4096 40000).extent 4096
    rw [transform0_val]; unfold Pipeline.Clip.of; split
    · exact hj1
    · show (j 1).val < 40000 - (i 1).val * 4096
      omega

/-- If the mask word at (i, j) is 1, that is i1·4096 + j1 < 40000, the fetch at i moves the block's element j. -/
theorem moved_of_mask (i : grid0.Coords) (j : S256x4096.Idx)
    (h : IntOp.cmpi .slt (IntOp.addi (Scalar.muli (BitVec.ofNat 32 (i 1).val) 4096#32) (BitVec.ofNat 32 (j 1).val)) 40000#32 = 1#1) :
    win0_0.moved i j = true :=
  moved_of_lt i j ((mask_word_iff _ _ 40000 (i 1).isLt (j 1).isLt (by omega)).mp h)

/-! ## The stored value reads the block only where the fetch moved it -/

/-- The payload reads its left operand only where the fetch moved it: two blocks that agree on the part of the
    block inside the array give the same payload. The two payloads differ only in the masked left operand, and the
    masked blocks are equal element by element: where the mask word is 1 the element was moved, so the blocks
    agree there; where it is not, both masked blocks hold the zero. -/
theorem k0_pay2_congr (i : grid0.Coords) (x x' : Vec F S256x4096 .f32) (v16 : Vec F S4096x128 .bf16) (v18 : Vec F S256x128 .f32)
    (hx : ∀ j : S256x4096.Idx, win0_0.moved i j = true → x j = x' j) : k0_pay2 i x v16 v18 = k0_pay2 i x' v16 v18 := by
  unfold k0_pay2
  dsimp only
  refine congrArg (fun z => addf _ (matmul dot_S256x4096_S4096x128_S256x128_1_0_0_1_n_n none (truncf FTy.bf16 z bitsLt_bf16_f32) _ _)) ?_
  funext j
  show Scalar.select (IntOp.cmpi .slt (IntOp.addi (Scalar.muli (BitVec.ofNat 32 (i 1).val) 4096#32)
      (iota Kind.tc S256x4096 32 [1] iota_S256x4096_d1_w32 j)) 40000#32) (x j) _
    = Scalar.select (IntOp.cmpi .slt (IntOp.addi (Scalar.muli (BitVec.ofNat 32 (i 1).val) 4096#32)
      (iota Kind.tc S256x4096 32 [1] iota_S256x4096_d1_w32 j)) 40000#32) (x' j) _
  rw [iota_single_apply]
  unfold Scalar.select
  split
  · next h => exact hx j (moved_of_mask i j h)
  · rfl

end Cert.KernelIdeal.Hand

end
-- ==== Proof.Region0.lean ====
/-
  The first matrix product's kernel region: what each window's staging buffer holds point by point, and the body's
  obligation at every point. The first window's last block of columns overhangs the array; past the array's end its
  buffer holds words nothing names, and the obligation hands that buffer back stated on the part inside the array
  only. The result window's buffer carries the running sum across the ten blocks of columns of a sweep.
-/
import proofs.«107894_j60490319397131_2_alg».proof.Proof.Region0Pieces
import proofs.«107894_j60490319397131_2_alg».proof.Proof.PayloadMask

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the core's buffers when the region is entered
variable (V : (c : Dev nD) → (b : Ref sig .tc) → Buf (Elt F) ((c : Thread nD τ).loc b))

/-! ## The proof data: what each window's staging buffer holds, point by point -/

/-- A filler for the part of the first window's buffer past the array's end, which nothing reads. -/
def zfill : S256x4096.Idx → Elt F .f32 := fun _ => Scalar.ofBits .f32 0#32

/-- The first window's buffer at point t as the proof names it: its block inside the array, the filler outside. -/
def x0At (c : Dev nD) (t : Fin cfg0.N) : Vec F S256x4096 .f32 :=
  win0_0.fill (grid0.coords t) zfill (iblk0 V c 0 t)

/-- THE ACCUMULATION. What the result window's buffer holds after the body at position n: at the first point of a
    sweep over the columns the payload over the zero block, at a later one the payload over what the point before
    left. -/
def outsAt0 (c : Dev nD) : (n : ℕ) → n < cfg0.N → Vec F S256x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0 ⟨0, hn⟩).mpr (Nat.zero_mod _)) (x0At V c ⟨0, hn⟩) (iblk0 V c 1 ⟨0, hn⟩)
  | n + 1, hn =>
    if h0 : (n + 1) % 10 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hcond0 ⟨n + 1, hn⟩).mpr h0) (x0At V c ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0 ⟨n + 1, hn⟩).mp h)) (x0At V c ⟨n + 1, hn⟩) (iblk0 V c 1 ⟨n + 1, hn⟩) (outsAt0 c n (Nat.lt_of_succ_lt hn))

theorem outsAt0_A (c : Dev nD) (t : Fin cfg0.N) (h0 : t.val % 10 = 0) :
    outsAt0 V c t.val t.isLt = out0_A c (grid0.coords t) (ms0_0 t) (hs0_0 t) (ms0_1 t) (hs0_1 t) (ms0_2 t) (hs0_2 t) ((hcond0 t).mpr h0) (x0At V c t) (iblk0 V c 1 t) := by
  obtain ⟨n, hn⟩ := t
  cases n with
  | zero => exact rfl
  | succ n => exact (dif_pos h0).trans rfl

theorem outsAt0_B (c : Dev nD) (t : Fin cfg0.N) (h0 : ¬t.val % 10 = 0) :
    outsAt0 V c t.val t.isLt = out0_B c (grid0.coords t) (ms0_0 t) (hs0_0 t) (ms0_1 t) (hs0_1 t) (ms0_2 t) (hs0_2 t) (fun h => h0 ((hcond0 t).mp h)) (x0At V c t) (iblk0 V c 1 t)
      (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body at point t the first
    window's buffer at its block filled out, the second's at its block, the result's at the accumulation; no invariant
    beyond the scoped rest; nothing owed. -/
def dat0 (c : Dev nD) : Dat τ (Elt F) Unit ℕ (UR sig nD τ) ℕ cfg0 c where
  A w := V c (Pipeline.arrRef spec0 w)
  after w t := match w with
    | ⟨0, _⟩ => x0At V c t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = x0At V c t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

/-- The first window is fetched at every point: its buffer holds the block inside the array and, past the array's
    end, contents d nothing names. -/
theorem before0_0 (c : Dev nD) (t : Fin cfg0.N) (d) :
    (dat0 V c).before 0 t d = win0_0.fill (grid0.coords t) d (iblk0 V c 0 t) := by
  unfold Dat.before; rw [if_pos (fetch0_0 t)]; rfl

/-- The second window, fetched once, holds its block (the whole padded operand) at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Inside a sweep the result window's buffer holds what the body left at the point before: it is written back only
    after the sweep's last point. -/
theorem before0_2_B (c : Dev nD) (t : Fin cfg0.N) (h0 : ¬t.val % 10 = 0) (d) :
    (dat0 V c).before 2 t d = outsAt0 V c (t.val - 1) (Nat.lt_of_le_of_lt (Nat.sub_le _ _) t.isLt) := by
  have hN : t.val < 160 := lt_of_lt_of_eq t.isLt (show cfg0.N = 160 from N_0)
  rw [Dat.before_out_kept _ 2 rfl t (by omega) (Bool.eq_false_iff.mpr fun h => by have := (flush0_2 _).mp h; dsimp only at this; omega)
    (fun _ => rfl) (fun _ _ => rfl)]
  dsimp only [dat0]

/-- Two fillings of the first window's block agree where the fetch moved it. -/
theorem fill_agree (i : grid0.Coords) (d d' : S256x4096.Idx → Elt F .f32) (g : (win0_0.xblock i).Idx → Elt F .f32)
    (j : S256x4096.Idx) (hj : win0_0.moved i j = true) : win0_0.fill i d g j = win0_0.fill i d' g j := by
  unfold Window.fill; rw [dif_pos hj, dif_pos hj]

/-! ## The body's obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns: the first window's buffer stated on the part inside the array only. -/
def bodyPost0 (c : Dev nD) (t : Fin cfg0.N) : sProp 𝕄 :=
  iprop((dat0 V c).Φ t.succ ∗ (dat0 V c).owesAt () t.succ
    ∗ (∃ d, owns (c : Thread nD τ) (ms0_0 t) fullShare (win0_0.fill (grid0.coords t) d (win0_0.cut (grid0.coords t) ((dat0 V c).after 0 t))))
    ∗ owns (c : Thread nD τ) (ms0_1 t) fullShare ((dat0 V c).after 1 t)
    ∗ owns (c : Thread nD τ) (ms0_2 t) fullShare ((dat0 V c).after 2 t))

set_option maxHeartbeats 1600000 in
/-- The body at any point. The first window's buffer holds its block and, past the array's end, anything; the body
    masks those columns before it multiplies, so what it leaves in the result's buffer does not depend on them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2,
    show win0_0.cut (grid0.coords t) (x0At V c t) = iblk0 V c 0 t from win0_0.cut_fill _ _ _]
  have hN : t.val < 160 := lt_of_lt_of_eq t.isLt (show cfg0.N = 160 from N_0)
  by_cases h0 : t.val % 10 = 0
  · rw [outsAt0_A V c t h0]
    iintro ⟨HΦ, Ho, ⟨%d0, H0⟩, ⟨%d1, H1⟩, ⟨%d2, H2⟩⟩
    rw [show out0_A c (grid0.coords t) (ms0_0 t) (hs0_0 t) (ms0_1 t) (hs0_1 t) (ms0_2 t) (hs0_2 t) ((hcond0 t).mpr h0) (x0At V c t) (iblk0 V c 1 t)
        = out0_A c (grid0.coords t) (ms0_0 t) (hs0_0 t) (ms0_1 t) (hs0_1 t) (ms0_2 t) (hs0_2 t) ((hcond0 t).mpr h0)
            (win0_0.fill (grid0.coords t) d0 (iblk0 V c 0 t)) (iblk0 V c 1 t) from by
      rw [out0_A_eq, out0_A_eq]
      exact k0_pay2_congr _ _ _ _ _ (fill_agree _ _ _ _)]
    unfold out0_A
    iapply ((kernelRun0_A c (grid0.coords t) _ _ _ _ _ _ ((hcond0 t).mpr h0) (win0_0.fill (grid0.coords t) d0 (iblk0 V c 0 t)) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexists d0; iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    iintro ⟨HΦ, Ho, ⟨%d0, H0⟩, ⟨%d1, H1⟩, ⟨%d2, H2⟩⟩
    rw [show out0_B c (grid0.coords t) (ms0_0 t) (hs0_0 t) (ms0_1 t) (hs0_1 t) (ms0_2 t) (hs0_2 t) (fun h => h0 ((hcond0 t).mp h)) (x0At V c t) (iblk0 V c 1 t)
          (outsAt0 V c (t.val - 1) (Nat.lt_of_le_of_lt (Nat.sub_le _ _) t.isLt))
        = out0_B c (grid0.coords t) (ms0_0 t) (hs0_0 t) (ms0_1 t) (hs0_1 t) (ms0_2 t) (hs0_2 t) (fun h => h0 ((hcond0 t).mp h))
            (win0_0.fill (grid0.coords t) d0 (iblk0 V c 0 t)) (iblk0 V c 1 t)
            (outsAt0 V c (t.val - 1) (Nat.lt_of_le_of_lt (Nat.sub_le _ _) t.isLt)) from by
      rw [out0_B_eq, out0_B_eq]
      exact k0_pay2_congr _ _ _ _ _ (fill_agree _ _ _ _)]
    unfold out0_B
    iapply ((kernelRun0_B c (grid0.coords t) _ _ _ _ _ _ (fun h => h0 ((hcond0 t).mp h)) (win0_0.fill (grid0.coords t) d0 (iblk0 V c 0 t)) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexists d0; iexact H0
    isplitl [H1]; · iexact H1
    unfold owns; iexists _; isplitr
    swap; · iexact H2
    ipureintro; exact View.read_writes_of_cover _ _ _ _ _ (cover0_B c _ _ _ _ _ _ _ _ _ _ _)

/-- The body's obligation at every point, the first window's buffer handed back stated on the part inside the array. -/
theorem body_obligation0 (c : Dev nD) : Pipeline.BodyObligationLoose (dat0 (F := F) V c) (defs₀ (F := F)) Variants.none () Set.univ := fun t => by
  rw [bigSep_W0, bigSep_W0]
  exact sound_body0 V c t

end Region0

end Cert.KernelIdeal.Hand

end
-- ==== Proof.Region1.lean ====
/-
  The second matrix product of the program, dif_mat_2 · src_2 with dif_mat_2 : [1024, 4096] and src_2 : [4096, 128],
  as one kernel region on a grid of 4 × 1 points: point (i, 0) takes the 256 rows i·256 … of dif_mat_2 and the whole
  of src_2, and stores their product into the 256 rows i·256 … of the result. The grid's second coordinate is always 0,
  so every point first sets its result block to zero and then adds the product to it.

  Here: what each window's staging buffer holds when the body runs and after it, the body's run on any three whole
  buffers, and the body's obligation at every point, for any interpretation of the floating-point operations.
-/
import proofs.«107894_j60490319397131_2_alg».proof.Proof.Gen.KernelIdeal.Launch
import proofs.«107894_j60490319397131_2_alg».proof.Proof.Gen.KernelIdeal.Skeleton
import proofs.«107894_j60490319397131_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the contents of the core's buffers when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether it was fetched there or not, when the
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: is the second grid coordinate zero? -/
abbrev cond1 (i : grid1.Coords) : Prop := (Scalar.cmpi .ne (Scalar.extui (Scalar.cmpi .eq (BitVec.ofNat 32 (i 1).val) 0#32)) 0#32) = 1#1
/-- It is, at every point of this grid. -/
theorem hcond1 : ∀ t : Fin cfg1.N, cond1 (grid1.coords t) :=
  (by decide +kernel : ∀ t : Fin grid1.N, cond1 (grid1.coords t))

/-- One staging buffer of the result window, through which its contents are stated. -/
abbrev VO1 : View sig .tc .vmem S256x128 .f32 := (Memref.whole cc1_stg2_0 : Memref sig .tc .vmem S256x128 .f32).view
/-- Each window's current staging buffer at point t, as the pipeline passes it to the body. -/
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)

set_option maxHeartbeats 4000000 in
/-- The body on any three whole buffers, the two inputs' at contents x0 and x1 and the result's at anything, when the
    branch is taken: it runs to the end, leaves the inputs' buffers as they were and the result's with the pieces
    L written — the zero block, then the sum of what the buffer then holds and the product. -/
noncomputable def kernelRun1 (c : Dev nD) (i : grid1.Coords) (arg2 : Memref sig .tc .vmem S256x4096 .f32) (harg2 : arg2.IsWhole)
    (arg3 : Memref sig .tc .vmem S4096x128 .bf16) (harg3 : arg3.IsWhole) (arg4 : Memref sig .tc .vmem S256x128 .f32) (harg4 : arg4.IsWhole)
    (hc0 : cond1 i) (x0 : Vec F S256x4096 .f32) (x1 : Vec F S4096x128 .bf16) :
    { L : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__diffusion_matmul_kernel i arg2 harg2 arg3 harg3 arg4 harg4) K } := by
  refine ⟨?_, fun E K => ?run⟩
  case run =>
    simp only [cc1__diffusion_matmul_kernel_eq_skeleton]; unfold cc1__diffusion_matmul_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- The pieces tile the result block, so they cover it. -/
theorem cover1 (c : Dev nD) (i : grid1.Coords) (arg2 : Memref sig .tc .vmem S256x4096 .f32) (harg2 : arg2.IsWhole)
    (arg3 : Memref sig .tc .vmem S4096x128 .bf16) (harg3 : arg3.IsWhole) (arg4 : Memref sig .tc .vmem S256x128 .f32) (harg4 : arg4.IsWhole)
    (hc0 : cond1 i) (x0 : Vec F S256x4096 .f32) (x1 : Vec F S4096x128 .bf16) (y : S256x128.Idx) :
    ∃ pc ∈ (kernelRun1 c i arg2 harg2 arg3 harg3 arg4 harg4 hc0 x0 x1).1, y ∈ pc.1.set :=
  View.cover_of_tiledL (kernelRun1 c i arg2 harg2 arg3 harg3 arg4 harg4 hc0 x0 x1).1 S256x128.size (by sl_kernel_rfl) y

/-- What the body leaves in the result window's buffer: its pieces read back. -/
def out1 (c : Dev nD) (i : grid1.Coords) (arg2 : Memref sig .tc .vmem S256x4096 .f32) (harg2 : arg2.IsWhole)
    (arg3 : Memref sig .tc .vmem S4096x128 .bf16) (harg3 : arg3.IsWhole) (arg4 : Memref sig .tc .vmem S256x128 .f32) (harg4 : arg4.IsWhole)
    (hc0 : cond1 i) (x0 : Vec F S256x4096 .f32) (x1 : Vec F S4096x128 .bf16) : Vec F S256x128 .f32 :=
  VO1.read (Elt F) (VO1.writes (Elt F) VO1.junk (kernelRun1 c i arg2 harg2 arg3 harg3 arg4 harg4 hc0 x0 x1).1)

/-- What the result window's buffer holds after the body at point t. -/
def outAt1 (c : Dev nD) (t : Fin cfg1.N) : Vec F S256x128 .f32 :=
  out1 c (grid1.coords t) (ms1_0 t) (hs1_0 t) (ms1_1 t) (hs1_1 t) (ms1_2 t) (hs1_2 t) (hcond1 t) (iblk1 V c 0 t) (iblk1 V c 1 t)

/-- The region's proof data on core c: the arrays as the region finds them; after the body at point t the inputs'
    buffers at their blocks and the result's at outAt1; no invariant beyond the scoped rest; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the inputs' buffers hold their blocks, the run applies, the invariant passes through
    unread, the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1 out1
  iintro ⟨HΦ, Ho, ⟨%d0, H0⟩, ⟨%d1, H1⟩, ⟨%d2, H2⟩⟩
  iapply ((kernelRun1 c (grid1.coords t) _ _ _ _ _ _ (hcond1 t) (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _ _)

/-- The body's obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The whole program's run. @main is thirteen items: host operations, the first matrix product's kernel region, host
  operations, the second product's region, host operations. Between two items each core holds every buffer whole at
  contents named by a fold from the launch memory: a stretch of host operations applies them; a region changes only
  its result array, to what its write-backs leave. Each region is entered from that state and left at the next one;
  so every weakly fair execution terminates, the result buffer ends at the last fold read at it, and every argument
  ends as launched (no item writes one).
-/
import proofs.«107894_j60490319397131_2_alg».proof.Proof.Gen.KernelIdeal.Regions
import proofs.«107894_j60490319397131_2_alg».proof.Proof.Region0
import proofs.«107894_j60490319397131_2_alg».proof.Proof.Region1
import Idealize.ShloMosaic.Lib.Pipeline.Kit
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the two regions leave -/

/-- The buffers when the first region is entered, read at the core's references. -/
abbrev VR3 : (c : Dev nD) → (b : Ref sig .tc) → Buf (Elt F) ((c : Thread nD τ).loc b) := fun c b => V3 m c b
/-- What the first region leaves in its result array: its write-backs folded over the array. -/
def o4 (c : Dev nD) : Buf (Elt F) ((c : Thread nD τ).loc main_v23) := (dat0 (VR3 m) c).arrAt 2 cfg0.N
/-- The regions' outputs as far as the second region's entry needs them. -/
def outsA : Outs (F := F) := fun _ r c => if h : r = main_v23 then h ▸ o4 m c else V3 m c r
/-- The buffers when the second region is entered. -/
abbrev VR9 : (c : Dev nD) → (b : Ref sig .tc) → Buf (Elt F) ((c : Thread nD τ).loc b) := fun c b => V9 m (outsA m) c b
/-- What the second region leaves in its result array. -/
def o10 (c : Dev nD) : Buf (Elt F) ((c : Thread nD τ).loc main_v43) := (dat1 (VR9 m) c).arrAt 2 cfg1.N
/-- What the regions leave, array by array. -/
def outs : Outs (F := F) := fun _ r c =>
  if h : r = main_v23 then h ▸ o4 m c else if h' : r = main_v43 then h' ▸ o10 m c else V3 m c r

theorem outsA_4 (c : Dev nD) : outsA m 4 main_v23 c = o4 m c := by unfold outsA; rw [dif_pos rfl]
theorem outs_4 (c : Dev nD) : outs m 4 main_v23 c = o4 m c := by unfold outs; rw [dif_pos rfl]
theorem outs_10 (c : Dev nD) : outs m 10 main_v43 c = o10 m c := by
  unfold outs; rw [dif_neg (by decide), dif_pos rfl]
/-- The second region is entered from the same buffers whichever of the two families names the first's output. -/
theorem V9_outs (c : Dev nD) : V9 m (outs m) c = V9 m (outsA m) c := by
  show StableHlo.after hostOps1_4 (StableHlo.after hostOps1_3 (StableHlo.after hostOps1_2 (StableHlo.after hostOps1_1 (StableHlo.after hostOps1
      (Function.update (V3 m c) main_v23 (outs m 4 main_v23 c)))))) = StableHlo.after hostOps1_4 (StableHlo.after hostOps1_3 (StableHlo.after hostOps1_2
      (StableHlo.after hostOps1_1 (StableHlo.after hostOps1 (Function.update (V3 m c) main_v23 (outsA m 4 main_v23 c))))))
  rw [outs_4, outsA_4]

/-! ## The regions' exits against the folds -/

theorem hF0 (c : Dev nD) (w : Fin cfg0.W) : (dat0 (VR3 m) c).arrAt w cfg0.N = V4 m (outs m) c (Pipeline.arrRef spec0 w) :=
  match w with
  | ⟨0, _⟩ => ((dat0 (VR3 m) c).arrAt_in 0 rfl _).trans ((A_eq0 (VR3 m) c 0).trans (V4_of m (outs m) c main_arg3 (by decide)).symm)
  | ⟨1, _⟩ => ((dat0 (VR3 m) c).arrAt_in 1 rfl _).trans ((A_eq0 (VR3 m) c 1).trans (V4_of m (outs m) c main_v22 (by decide)).symm)
  | ⟨2, _⟩ => by
    rw [show V4 m (outs m) c (Pipeline.arrRef spec0 2) = outs m 4 main_v23 c from Function.update_self _ _ _, outs_4]; rfl
theorem hrest0 (c : Dev nD) : ∀ b, b ∉ Finset.univ.image (Pipeline.arrRef spec0) → V4 m (outs m) c b = VR3 m c b :=
  fun b hb => V4_of m (outs m) c b fun h => hb (Finset.mem_image.mpr ⟨2, Finset.mem_univ _, (List.mem_singleton.mp h).symm⟩)

theorem hF1 (c : Dev nD) (w : Fin cfg1.W) : (dat1 (VR9 m) c).arrAt w cfg1.N = V10 m (outs m) c (Pipeline.arrRef spec1 w) :=
  match w with
  | ⟨0, _⟩ => ((dat1 (VR9 m) c).arrAt_in 0 rfl _).trans ((A_eq1 (VR9 m) c 0).trans
      ((congrFun (V9_outs m c) _).symm.trans (V10_of m (outs m) c main_arg6 (by decide)).symm))
  | ⟨1, _⟩ => ((dat1 (VR9 m) c).arrAt_in 1 rfl _).trans ((A_eq1 (VR9 m) c 1).trans
      ((congrFun (V9_outs m c) _).symm.trans (V10_of m (outs m) c main_v42 (by decide)).symm))
  | ⟨2, _⟩ => by
    rw [show V10 m (outs m) c (Pipeline.arrRef spec1 2) = outs m 10 main_v43 c from Function.update_self _ _ _, outs_10]; rfl
theorem hrest1 (c : Dev nD) : ∀ b, b ∉ Finset.univ.image (Pipeline.arrRef spec1) → V10 m (outs m) c b = VR9 m c b :=
  fun b hb => (V10_of m (outs m) c b fun h => hb (Finset.mem_image.mpr ⟨2, Finset.mem_univ _, (List.mem_singleton.mp h).symm⟩)).trans
    (congrFun (V9_outs m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VR3 m) c
  | ⟨1, _⟩ => fun c => dat1 (VR9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)
def E : Fin 3 → Dev nD → sProp 𝕄 := fun _ c => R c

-- a library lemma stated over the pinned configuration unifies with the printed one only when unification may unfold
-- plain definitions in a metavariable's type
set_option backward.isDefEq.respectTransparency.types false in
/-- The first region over the thread state: entered from every buffer at the fold before it, left at the fold after
    it. Its arrays are split out of the buffers and put back at the exit contents; the generator register goes into
    the region's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (VR3 m) c
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VR3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR3 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region likewise. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR9 m) c).loose
  hwaits := Pipeline.hwaits_of_owed_zero _ _ _ _ L lv 1 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VR9 m c)
  hentry c := by
    rw [Pipeline.ownSems0_none, V9_outs m c]
    have hsplit := Pipeline.arrays_of_unscopedBufs (p := 1) (pcfgs (F := F)) adm (pdats m) launch1.win launch1.arr_whole c
      ((pdats m 1 c).share_full fun _ => rfl) (VR9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR9 m c) (fun b => V10 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting; the
    result buffer ends at the last fold read at it and every argument as launched. -/
theorem run_all : θ_run defs (onTc (τ := τ) (main (F := F))) ⟨m, fun _ => 0, ρ⟩ (fun r => ∀ c : Dev nD,
      r.2.mem ((c.tc : Thread nD τ).loc main_v58) = V13 m (outs m) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl,
      sep_mono .rfl (by unfold E; iintro ⟨-, HO⟩; iexact HO)⟩)
    (hinit := ?_) (QY := fun c s => s.mem ((c.tc : Thread nD τ).loc main_v58) = V13 m (outs m) c main_v58
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the buffers are held at the launch contents; the rest makes the thread state's rider on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts L lv)
        ⊢ (|={Set.univ}=> bigSep Finset.univ (E (F := F) 0) : sProp 𝕄) :=
      Pipeline.initEach L lv fun c => by
        unfold E
        iintro ⟨⟨-, HO, -, Hp, -⟩, -⟩
        imodintro
        isplitl [Hp]; · iexists _; iexact Hp
        iexists ∅; iexact HO
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last fold
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v58) (mem_uc main_v58 (by decide)),
        (h (Proc.devRef .tc main_arg0) (mem_uc main_arg0 (by decide))).trans (V13_main_arg0 m (outs m) c),
        (h (Proc.devRef .tc main_arg1) (mem_uc main_arg1 (by decide))).trans (V13_main_arg1 m (outs m) c),
        (h (Proc.devRef .tc main_arg2) (mem_uc main_arg2 (by decide))).trans (V13_main_arg2 m (outs m) c),
        (h (Proc.devRef .tc main_arg3) (mem_uc main_arg3 (by decide))).trans (V13_main_arg3 m (outs m) c),
        (h (Proc.devRef .tc main_arg4) (mem_uc main_arg4 (by decide))).trans (V13_main_arg4 m (outs m) c),
        (h (Proc.devRef .tc main_arg5) (mem_uc main_arg5 (by decide))).trans (V13_main_arg5 m (outs m) c),
        (h (Proc.devRef .tc main_arg6) (mem_uc main_arg6 (by decide))).trans (V13_main_arg6 m (outs m) c),
        (h (Proc.devRef .tc main_arg7) (mem_uc main_arg7 (by decide))).trans (V13_main_arg7 m (outs m) c),
        (h (Proc.devRef .tc main_arg8) (mem_uc main_arg8 (by decide))).trans (V13_main_arg8 m (outs m) c),
        (h (Proc.devRef .tc main_arg9) (mem_uc main_arg9 (by decide))).trans (V13_main_arg9 m (outs m) c),
        (h (Proc.devRef .tc main_arg10) (mem_uc main_arg10 (by decide))).trans (V13_main_arg10 m (outs m) c)⟩
    · iexact HSI

end Cert.KernelIdeal.Hand

end
-- ==== Proof.PayloadIdeal.lean ====
/-
  The two kernel regions' stored values, read at one element, on the extended reals.

  At grid point i = (i0, i1) the first region's body holds a [256, 4096] block x of the left matrix (columns
  i1·4096 … of a [4096, 40000] array; for i1 = 9 the columns past 40000 − 9·4096 are outside the array), 4096 rows
  v16 of the right matrix, and the [256, 128] block v18 the result held. It stores

      v18 + (x masked) · v16,      (x masked)[p, j] = x[p, j] if i1·4096 + j < 40000, else 0,

  the product accumulated into the zero block. On the extended reals the narrowing of the left operand's format is the
  identity and the matrix product is the plain sum over the contracted index, so element (p, q) of the stored value is

      v18[p, q] + ∑ j < 4096, (if i1·4096 + j < 40000 then x[p, j] else 0) · v16[j, q].

  The mask is computed on 32-bit words, i1·4096 + j <ₛ 40000 as a signed comparison; every number involved is below
  2³¹, so it is the comparison of the naturals. In the second region the threshold is 4096 and i1 is always 0 (the
  grid is 4 × 1), so the mask keeps every column and the stored element is v18[p, q] + ∑ j, x[p, j] · v16[j, q].
  On its first visit of a result block (i1 = 0) each body first stores the zero block.
-/
import proofs.«107894_j60490319397131_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-! ## The mask word -/

/-- The one-bit word of a Boolean is 1 exactly when the Boolean is true. -/
theorem ideal_ofBool_eq_one_iff (b : Bool) : BitVec.ofBool b = 1#1 ↔ b = true := by cases b <;> decide

/-- Two naturals below 2³¹, as 32-bit words, compare as signed integers the way they compare as naturals: neither
    word has its sign bit set, so each word's signed value is the natural itself. -/
theorem ideal_slt_ofNat_iff (n m : Nat) (hn : n < 2147483648) (hm : m < 2147483648) :
    (BitVec.ofNat 32 n).slt (BitVec.ofNat 32 m) = true ↔ n < m := by
  rw [BitVec.slt, decide_eq_true_iff, BitVec.toInt_eq_toNat_cond, BitVec.toInt_eq_toNat_cond,
    BitVec.toNat_ofNat, BitVec.toNat_ofNat]
  have h1 : n % 2 ^ 32 = n := Nat.mod_eq_of_lt (by omega)
  have h2 : m % 2 ^ 32 = m := Nat.mod_eq_of_lt (by omega)
  rw [h1, h2, if_pos (by omega), if_pos (by omega)]
  omega

/-- The mask word  a·4096 + b <ₛ thr  computed on 32-bit words, for a block index a < 10, a column b < 4096 and a
    threshold below 2³¹, is 1 exactly when a·4096 + b < thr as naturals: a·4096 + b < 40960 < 2³², so the product
    and the sum do not wrap, and both sides of the comparison are below 2³¹. -/
theorem ideal_mask_word_iff (a b thr : Nat) (ha : a < 10) (hb : b < 4096) (ht : thr < 2147483648) :
    IntOp.cmpi .slt (IntOp.addi (Scalar.muli (BitVec.ofNat 32 a) 4096#32) (BitVec.ofNat 32 b)) (BitVec.ofNat 32 thr) = 1#1
      ↔ a * 4096 + b < thr := by
  have hx : IntOp.addi (Scalar.muli (BitVec.ofNat 32 a) 4096#32) (BitVec.ofNat 32 b) = BitVec.ofNat 32 (a * 4096 + b) := by
    unfold IntOp.addi Scalar.muli IntOp.muli
    apply BitVec.eq_of_toNat_eq
    simp only [BitVec.toNat_add, BitVec.toNat_mul, BitVec.toNat_ofNat]
    omega
  rw [hx]
  unfold IntOp.cmpi
  show BitVec.ofBool ((BitVec.ofNat 32 (a * 4096 + b)).slt (BitVec.ofNat 32 thr)) = 1#1 ↔ _
  rw [ideal_ofBool_eq_one_iff, ideal_slt_ofNat_iff _ _ (by omega) ht]

/-! ## The [256, 4096] × [4096, 128] product into the zero block, at an element

The contraction index of the product ranges over a one-axis shape of extent 4096; it is re-indexed to the naturals
below 4096, and at output element (p, q) and contraction index k the product reads the left operand at (p, k) and the
right operand at (k, q). -/

/-- The left operand's index at output element (p, q) and contraction index k is (p, k). -/
theorem dot_lhsIdx_eq (p : Fin 256) (q : Fin 128) (k : Fin 4096) :
    dot_S256x4096_S4096x128_S256x128_1_0_0_1_n_n.lhsIdx (ix2 p q)
      ((contrEquiv1 dot_S256x4096_S4096x128_S256x128_1_0_0_1_n_n 4096 rfl rfl).symm k) = ix2 p k := by
  have hk := contrEquiv1_symm_val dot_S256x4096_S4096x128_S256x128_1_0_0_1_n_n 4096 rfl rfl k
  funext a
  apply Fin.ext
  match a with
  | ⟨0, _⟩ =>
    show (dot_S256x4096_S4096x128_S256x128_1_0_0_1_n_n.lhsIdx (ix2 p q) _ 0).val = p.val
    unfold DotDims.lhsIdx
    rw [dif_neg (show ¬(0 : Fin S256x4096.rank) ∈ dot_S256x4096_S4096x128_S256x128_1_0_0_1_n_n.lhsBatch by decide),
      dif_pos (show (0 : Fin S256x4096.rank) ∈ dot_S256x4096_S4096x128_S256x128_1_0_0_1_n_n.lhsNonContracting by decide)]
    rfl
  | ⟨1, _⟩ => exact (dot_S256x4096_S4096x128_S256x128_1_0_0_1_n_n.lhsIdx_val_of_single rfl _ _).trans hk

/-- The right operand's index at output element (p, q) and contraction index k is (k, q). -/
theorem dot_rhsIdx_eq (p : Fin 256) (q : Fin 128) (k : Fin 4096) :
    dot_S256x4096_S4096x128_S256x128_1_0_0_1_n_n.rhsIdx (ix2 p q)
      ((contrEquiv1 dot_S256x4096_S4096x128_S256x128_1_0_0_1_n_n 4096 rfl rfl).symm k) = ix2 k q := by
  have hk := contrEquiv1_symm_val dot_S256x4096_S4096x128_S256x128_1_0_0_1_n_n 4096 rfl rfl k
  funext a
  apply Fin.ext
  match a with
  | ⟨0, _⟩ => exact (dot_S256x4096_S4096x128_S256x128_1_0_0_1_n_n.rhsIdx_val_of_single rfl _ _).trans hk
  | ⟨1, _⟩ =>
    show (dot_S256x4096_S4096x128_S256x128_1_0_0_1_n_n.rhsIdx (ix2 p q) _ 1).val = q.val
    unfold DotDims.rhsIdx
    rw [dif_neg (show ¬(1 : Fin S4096x128.rank) ∈ dot_S256x4096_S4096x128_S256x128_1_0_0_1_n_n.rhsBatch by decide),
      dif_pos (show (1 : Fin S4096x128.rank) ∈ dot_S256x4096_S4096x128_S256x128_1_0_0_1_n_n.rhsNonContracting by decide)]
    rfl

/-- Element (p, q) of the product accumulated into the zero block is ∑ k < 4096, lhs[p, k] · rhs[k, q] on the
    extended reals. -/
theorem dot_zero_apply (lhs : FVec Ideal S256x4096 .bf16) (rhs : FVec Ideal S4096x128 .bf16) (p : Fin 256) (q : Fin 128) :
    matmul dot_S256x4096_S4096x128_S256x128_1_0_0_1_n_n none lhs rhs (constant (F := Ideal) S256x128 .f32 0x00000000#32) (ix2 p q)
      = ∑ k : Fin 4096, lhs (ix2 p k) * rhs (ix2 k q) := by
  simp only [matmul]
  rw [Ideal.matmul_constant_zero_apply, ← Equiv.sum_comp (contrEquiv1 dot_S256x4096_S4096x128_S256x128_1_0_0_1_n_n 4096 rfl rfl).symm]
  refine Finset.sum_congr rfl fun k _ => ?_
  rw [dot_lhsIdx_eq, dot_rhsIdx_eq]

/-! ## The stored values at an element -/

/-- The block the first region's body stores on its first visit of a result block is zero everywhere. -/
theorem k0_pay1_apply (p : Fin 256) (q : Fin 128) : k0_pay1 (F := Ideal) (ix2 p q) = 0 := by
  unfold k0_pay1
  exact Ideal.ofBits_zero_f32

/-- The block the second region's body stores on its first visit of a result block is zero everywhere. -/
theorem k1_pay1_apply (p : Fin 256) (q : Fin 128) : k1_pay1 (F := Ideal) (ix2 p q) = 0 := by
  unfold k1_pay1
  exact Ideal.ofBits_zero_f32

/-- Element (p, q) of what the first region's body stores at grid point i: what the result block held there plus the
    sum over the block's columns j of the left block's element (p, j), replaced by zero where column i1·4096 + j is
    outside the array, times the right block's element (j, q). -/
theorem k0_pay2_apply (i : grid0.Coords) (x : Vec Ideal S256x4096 .f32) (v16 : Vec Ideal S4096x128 .bf16) (v18 : Vec Ideal S256x128 .f32) (p : Fin 256) (q : Fin 128) :
    k0_pay2 (F := Ideal) i x v16 v18 (ix2 p q)
      = v18 (ix2 p q) + ∑ j : Fin 4096, (if (i 1).val * 4096 + j.val < 40000 then x (ix2 p j) else 0) * v16 (ix2 j q) := by
  have h1 : (i 1).val < 10 := (i 1).isLt
  unfold k0_pay2
  dsimp only
  refine (addf_apply _ _ _).trans ?_
  rw [shapeCast_self, shapeCast_self]
  refine congrArg (v18 (ix2 p q) + ·) ?_
  refine (dot_zero_apply _ _ p q).trans ?_
  refine Finset.sum_congr rfl fun k _ => ?_
  refine congrArg (· * v16 (ix2 k q)) ?_
  show Scalar.select (IntOp.cmpi .slt (IntOp.addi (Scalar.muli (BitVec.ofNat 32 (i 1).val) 4096#32)
      (iota Kind.tc S256x4096 32 [1] iota_S256x4096_d1_w32 (ix2 p k))) 40000#32) (x (ix2 p k)) (Ideal.ofBits .f32 0x00000000#32) = _
  rw [iota_single_apply, Ideal.ofBits_zero_f32]
  unfold Scalar.select
  exact if_congr (ideal_mask_word_iff _ _ 40000 h1 k.isLt (by omega)) rfl rfl

/-- Element (p, q) of what the second region's body stores at grid point i: what the result block held there plus
    the plain product's element — the grid's second coordinate is 0 and every column j < 4096 is below the threshold
    4096, so the mask keeps the whole left block. -/
theorem k1_pay2_apply (i : grid1.Coords) (x : Vec Ideal S256x4096 .f32) (v16 : Vec Ideal S4096x128 .bf16) (v18 : Vec Ideal S256x128 .f32) (p : Fin 256) (q : Fin 128) :
    k1_pay2 (F := Ideal) i x v16 v18 (ix2 p q) = v18 (ix2 p q) + ∑ j : Fin 4096, x (ix2 p j) * v16 (ix2 j q) := by
  have h1 : (i 1).val < 1 := (i 1).isLt
  unfold k1_pay2
  dsimp only
  refine (addf_apply _ _ _).trans ?_
  rw [shapeCast_self, shapeCast_self]
  refine congrArg (v18 (ix2 p q) + ·) ?_
  refine (dot_zero_apply _ _ p q).trans ?_
  refine Finset.sum_congr rfl fun k _ => ?_
  refine congrArg (· * v16 (ix2 k q)) ?_
  have hk : k.val < 4096 := k.isLt
  show Scalar.select (IntOp.cmpi .slt (IntOp.addi (Scalar.muli (BitVec.ofNat 32 (i 1).val) 4096#32)
      (iota Kind.tc S256x4096 32 [1] iota_S256x4096_d1_w32 (ix2 p k))) 4096#32) (x (ix2 p k)) (Ideal.ofBits .f32 0x00000000#32) = _
  rw [iota_single_apply]
  unfold Scalar.select
  exact if_pos ((ideal_mask_word_iff _ _ 4096 (by omega) hk (by omega)).mpr (by omega))

end Cert.KernelIdeal.Hand

end
-- ==== Proof.LibBlockedSum.lean ====
import Mathlib.Data.EReal.Inv
import Mathlib.Data.Fintype.BigOperators
import Mathlib.Algebra.BigOperators.Group.Finset.Basic

/-!
# A sum accumulated block by block equals the plain sum

A sum over `k < K` is computed by sweeping blocks of `T` consecutive indices and adding each
block's partial sum to an accumulator.  The last block may reach beyond `K`; the entries of the
left factor beyond `K` are replaced by `0` before multiplying.  Over the extended reals this
equals the plain sum: only commutativity and associativity of `+` and `0 * x = 0` (which holds
for every extended real `x`, the infinities included) are used, so no finiteness is assumed.
-/

namespace Cert.Lib.BlockedSum

/-- The accumulator after block n: block 0 stores 0 + S 0, block n+1 adds S (n+1) to what block n left. -/
noncomputable def acc (S : ℕ → EReal) : ℕ → EReal
  | 0 => 0 + S 0
  | n + 1 => acc S n + S (n + 1)

/-- acc S n is the sum of S over the first n+1 blocks. -/
theorem acc_eq_sum (S : ℕ → EReal) (n : ℕ) : acc S n = ∑ kb ∈ Finset.range (n + 1), S kb := by
  induction n with
  | zero => simp [acc]
  | succ n ih => rw [acc, ih, Finset.sum_range_succ _ (n + 1)]

/-- Summing `f` over `n` consecutive blocks of length `T` is summing `f` over the first `n * T`
indices: the map `(kb, j) ↦ kb * T + j` enumerates `{0, …, n * T - 1}` block after block. -/
theorem sum_blocks {M : Type*} [AddCommMonoid M] (f : ℕ → M) (T n : ℕ) :
    ∑ kb ∈ Finset.range n, ∑ j ∈ Finset.range T, f (kb * T + j)
      = ∑ i ∈ Finset.range (n * T), f i := by
  induction n with
  | zero => simp
  | succ n ih => rw [Finset.sum_range_succ, ih, add_one_mul, Finset.sum_range_add]

/-- Replacing `a i` by `0` for `i ≥ K` makes every term beyond `K` vanish (`0 * x = 0` for every
extended real `x`), so a sum over `N ≥ K` indices collapses to the sum over the first `K`. -/
theorem sum_truncate (a b : ℕ → EReal) (K N : ℕ) (hK : K ≤ N) :
    ∑ i ∈ Finset.range N, (if i < K then a i else 0) * b i
      = ∑ i ∈ Finset.range K, a i * b i := by
  obtain ⟨m, rfl⟩ := Nat.exists_eq_add_of_le hK
  rw [Finset.sum_range_add]
  have htail : ∑ x ∈ Finset.range m,
      (if K + x < K then a (K + x) else 0) * b (K + x) = 0 := by
    apply Finset.sum_eq_zero
    intro x _
    rw [if_neg (by omega), zero_mul]
  rw [htail, add_zero]
  apply Finset.sum_congr rfl
  intro i hi
  rw [if_pos (Finset.mem_range.mp hi)]

/-- THE LEMMA. The accumulator after the last of `NB` blocks of width `T` covering `K ≤ NB * T`
indices, each block summing the products with the left factor zeroed beyond `K`, is the plain
sum of the products over `k < K`. -/
theorem acc_blocked (K T NB : ℕ) (hNB : 0 < NB) (hK : K ≤ NB * T) (a b : ℕ → EReal) (S : ℕ → EReal)
    (hS : ∀ kb, kb < NB → S kb = ∑ j : Fin T,
      (if kb * T + j.val < K then a (kb * T + j.val) else 0) * b (kb * T + j.val)) :
    acc S (NB - 1) = ∑ k : Fin K, a k.val * b k.val := by
  rw [acc_eq_sum, Nat.sub_add_cancel hNB]
  have hblocks : ∑ kb ∈ Finset.range NB, S kb
      = ∑ kb ∈ Finset.range NB, ∑ j ∈ Finset.range T,
          (fun i => (if i < K then a i else 0) * b i) (kb * T + j) := by
    apply Finset.sum_congr rfl
    intro kb hkb
    rw [hS kb (Finset.mem_range.mp hkb)]
    exact Fin.sum_univ_eq_sum_range
      (fun j => (if kb * T + j < K then a (kb * T + j) else 0) * b (kb * T + j)) T
  rw [hblocks, sum_blocks (fun i => (if i < K then a i else 0) * b i) T NB]
  rw [sum_truncate a b K (NB * T) hK]
  exact (Fin.sum_univ_eq_sum_range (fun i => a i * b i) K).symm

end Cert.Lib.BlockedSum
-- ==== Proof.Value0.lean ====
/-
  The first kernel region's result at the extended reals. Within a sweep over the ten blocks of 4096 columns the result
  block carries a running total: the first block stores 0 + S 0, each later block adds its S k, where S k is the sum over
  the block's 4096 columns j of (the left operand's entry at column k·4096 + j, or 0 when that column is 40000 or more)
  times the padded right operand's entry at row k·4096 + j. The total after the tenth block is the plain sum over the
  40000 columns; the sixteen sweeps' blocks tile the result [4096, 128]. So the region leaves the plain product.
-/
import proofs.«107894_j60490319397131_2_alg».proof.Proof.Region0
import proofs.«107894_j60490319397131_2_alg».proof.Proof.PayloadIdeal
import proofs.«107894_j60490319397131_2_alg».proof.Proof.LibBlockedSum
import Idealize.ShloMosaic.Lib.Pipeline.Value
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Value0

open Idealize.ShloMosaic.ValueIdx Cert.Lib.BlockedSum

variable (V : (c : Dev nD) → (b : Ref sig .tc) → Buf (Elt Ideal) ((c : Thread nD τ).loc b)) (c : Dev nD)

/-- Point t of the grid is block-row t / 10 and block-column t % 10. -/
theorem coords0 : ∀ t : Fin cfg0.N, (grid0.coords t 0).val = t.val / 10 ∧ (grid0.coords t 1).val = t.val % 10 :=
  (by decide +kernel : ∀ t : Fin grid0.N, (grid0.coords t 0).val = t.val / 10 ∧ (grid0.coords t 1).val = t.val % 10)
/-- The windows' block indices and the body's row offset at point t. -/
theorem idx0 : ∀ t : Fin cfg0.N, win0_0.index t (0 : Fin 2) = t.val / 10 ∧ win0_0.index t (1 : Fin 2) = t.val % 10
    ∧ win0_1.index t (0 : Fin 2) = 0 ∧ win0_1.index t (1 : Fin 2) = 0
    ∧ win0_2.index t (0 : Fin 2) = t.val / 10 ∧ win0_2.index t (1 : Fin 2) = 0
    ∧ k0_off1 (grid0.coords t) (0 : Fin 2) = t.val % 10 * 4096 ∧ k0_off1 (grid0.coords t) (1 : Fin 2) = 0 :=
  (by decide +kernel : ∀ t : Fin grid0.N, win0_0.index t (0 : Fin 2) = t.val / 10 ∧ win0_0.index t (1 : Fin 2) = t.val % 10
    ∧ win0_1.index t (0 : Fin 2) = 0 ∧ win0_1.index t (1 : Fin 2) = 0
    ∧ win0_2.index t (0 : Fin 2) = t.val / 10 ∧ win0_2.index t (1 : Fin 2) = 0
    ∧ k0_off1 (grid0.coords t) (0 : Fin 2) = t.val % 10 * 4096 ∧ k0_off1 (grid0.coords t) (1 : Fin 2) = 0)

/-- The two operands as the region finds them, as arrays of extended reals. -/
def A0 : S4096x40000.Idx → EReal := V c main_arg3
def B0 : S40960x128.Idx → EReal := V c main_v22

/-- Row P of the left operand as the region finds it, as a function of the column (zero off the array). -/
def aRow (P n : ℕ) : EReal :=
  if h : P < 4096 ∧ n < 40000 then A0 V c (ix2 (⟨P, h.1⟩ : Fin 4096) (⟨n, h.2⟩ : Fin 40000)) else 0
/-- Column q of the padded right operand as the region finds it, as a function of the row. -/
def bCol (q : Fin 128) (n : ℕ) : EReal :=
  if h : n < 40960 then B0 V c (ix2 (⟨n, h⟩ : Fin 40960) q) else 0

/-- The first window's buffer at a column inside the array is the left operand's entry. -/
theorem x0At_apply (t : Fin cfg0.N) (p : Fin 256) (j : Fin 4096) (h : t.val % 10 * 4096 + j.val < 40000) :
    x0At V c t (ix2 p j) = aRow V c (t.val / 10 * 256 + p.val) (t.val % 10 * 4096 + j.val) := by
  have hN : t.val < 160 := lt_of_lt_of_eq t.isLt (show cfg0.N = 160 from N_0)
  obtain ⟨c0, c1⟩ := coords0 t
  obtain ⟨e0, e1, -⟩ := idx0 t
  have hm : win0_0.moved (grid0.coords t) (ix2 p j) = true := moved_of_lt _ _ (by rw [c1]; exact h)
  have hP : t.val / 10 * 256 + p.val < 4096 := by have := p.isLt; omega
  unfold x0At Window.fill
  rw [dif_pos hm]
  unfold aRow
  rw [dif_pos ⟨hP, h⟩]
  unfold iblk0 A0
  rw [View.read_apply]
  refine congrArg (V c main_arg3) (funext fun a => Fin.ext ?_)
  match a with
  | ⟨0, _⟩ => show win0_0.index t (0 : Fin 2) * 256 + 1 * p.val = t.val / 10 * 256 + p.val; omega
  | ⟨1, _⟩ => show win0_0.index t (1 : Fin 2) * 4096 + 1 * j.val = t.val % 10 * 4096 + j.val; omega

/-- The rows of the right operand the body loads at point t are rows (t % 10)·4096 … of the padded operand. -/
theorem srcRows_apply (t : Fin cfg0.N) (j : Fin 4096) (q : Fin 128) :
    srcRows0 (grid0.coords t) (iblk0 V c 1 t) (ix2 j q) = bCol V c q (t.val % 10 * 4096 + j.val) := by
  have hN : t.val < 160 := lt_of_lt_of_eq t.isLt (show cfg0.N = 160 from N_0)
  obtain ⟨-, -, e2, e3, -, -, e6, e7⟩ := idx0 t
  have hn : t.val % 10 * 4096 + j.val < 40960 := by have := j.isLt; omega
  unfold bCol
  rw [dif_pos hn]
  unfold iblk0 B0
  show (View.read (Elt Ideal) ((cfg0.win 1).blk t).view (V c (Pipeline.arrRef spec0 1))) ((Rect.unit (s := S40960x128) (k0_off1 (grid0.coords t)) S4096x128.size (k0_off1_inb (grid0.coords t))).idx (ix2 j q)) = _
  rw [View.read_apply]
  refine congrArg (V c main_v22) (funext fun a => Fin.ext ?_)
  match a with
  | ⟨0, _⟩ => show win0_1.index t (0 : Fin 2) * 40960 + 1 * (k0_off1 (grid0.coords t) (0 : Fin 2) + 1 * j.val) = t.val % 10 * 4096 + j.val; omega
  | ⟨1, _⟩ => show win0_1.index t (1 : Fin 2) * 128 + 1 * (k0_off1 (grid0.coords t) (1 : Fin 2) + 1 * q.val) = q.val; omega

/-- The block sum of block-column kb, for row P of the left operand and column q of the right. -/
def S0 (P : ℕ) (q : Fin 128) (kb : ℕ) : EReal :=
  ∑ j : Fin 4096, (if kb * 4096 + j.val < 40000 then aRow V c P (kb * 4096 + j.val) else 0) * bCol V c q (kb * 4096 + j.val)

/-- The sum the body adds at point t is the block sum of its block-column. -/
theorem term_sum (t : Fin cfg0.N) (p : Fin 256) (q : Fin 128) :
    (∑ j : Fin 4096, (if (grid0.coords t 1).val * 4096 + j.val < 40000 then x0At V c t (ix2 p j) else 0)
        * srcRows0 (grid0.coords t) (iblk0 V c 1 t) (ix2 j q))
      = S0 V c (t.val / 10 * 256 + p.val) q (t.val % 10) := by
  unfold S0
  refine Finset.sum_congr rfl fun j _ => ?_
  rw [(coords0 t).2, srcRows_apply]
  by_cases h : t.val % 10 * 4096 + j.val < 40000
  · rw [if_pos h, if_pos h, x0At_apply V c t p j h]
  · rw [if_neg h, if_neg h]

/-- THE RUNNING TOTAL. After point n the result window's buffer holds, at (p, q), the total of the block sums of the
    block-columns 0 … n % 10 of block-row n / 10. -/
theorem outsAt0_acc : ∀ (n : ℕ) (hn : n < cfg0.N) (p : Fin 256) (q : Fin 128),
    outsAt0 V c n hn (ix2 p q) = acc (S0 V c (n / 10 * 256 + p.val) q) (n % 10) := by
  intro n
  induction n with
  | zero =>
    intro hn p q
    have e := outsAt0_A V c ⟨0, hn⟩ (Nat.zero_mod _)
    refine (congrFun e _).trans ?_
    rw [out0_A_eq, k0_pay2_apply, k0_pay1_apply, term_sum]
    rfl
  | succ n ih =>
    intro hn p q
    by_cases h0 : (n + 1) % 10 = 0
    · have e := outsAt0_A V c ⟨n + 1, hn⟩ h0
      refine (congrFun e _).trans ?_
      rw [out0_A_eq, k0_pay2_apply, k0_pay1_apply, term_sum]
      show 0 + S0 V c ((n + 1) / 10 * 256 + p.val) q ((n + 1) % 10) = acc (S0 V c ((n + 1) / 10 * 256 + p.val) q) ((n + 1) % 10)
      rw [h0]; rfl
    · have e := outsAt0_B V c ⟨n + 1, hn⟩ h0
      refine (congrFun e _).trans ?_
      rw [out0_B_eq, k0_pay2_apply, term_sum]
      have hd : (n + 1) / 10 = n / 10 := by omega
      have hm : (n + 1) % 10 = n % 10 + 1 := by omega
      show outsAt0 V c n _ (ix2 p q) + S0 V c ((n + 1) / 10 * 256 + p.val) q ((n + 1) % 10) = acc (S0 V c ((n + 1) / 10 * 256 + p.val) q) ((n + 1) % 10)
      rw [ih (Nat.lt_of_succ_lt hn) p q, hd, hm]
      rfl

/-- The plain product of the two operands as the region finds them: entry (P, q) is the sum over the 40000 columns. -/
def G0 : S4096x128.Idx → EReal := fun i =>
  ∑ k : Fin 40000, A0 V c (ix2 (⟨(i 0).val, (i 0).isLt⟩ : Fin 4096) k)
    * B0 V c (ix2 (⟨k.val, by have := k.isLt; omega⟩ : Fin 40960) (⟨(i 1).val, (i 1).isLt⟩ : Fin 128))

/-- The plain product at an index whose coordinates are P and q. -/
theorem G0_apply (i : S4096x128.Idx) (P : ℕ) (hP : P < 4096) (q : Fin 128) (h0 : (i 0).val = P) (h1 : (i 1).val = q.val) :
    G0 V c i = ∑ k : Fin 40000, A0 V c (ix2 (⟨P, hP⟩ : Fin 4096) k)
      * B0 V c (ix2 (⟨k.val, by have := k.isLt; omega⟩ : Fin 40960) q) := by
  unfold G0
  refine Finset.sum_congr rfl fun k _ => ?_
  have e0 : (⟨(i 0).val, (i 0).isLt⟩ : Fin 4096) = ⟨P, hP⟩ := Fin.ext h0
  have e1 : (⟨(i 1).val, (i 1).isLt⟩ : Fin 128) = q := Fin.ext h1
  rw [e0, e1]

/-- The total over all ten block-columns is the plain sum over the 40000 columns. -/
theorem total0 (P : ℕ) (hP : P < 4096) (q : Fin 128) :
    acc (S0 V c P q) 9 = ∑ k : Fin 40000, A0 V c (ix2 (⟨P, hP⟩ : Fin 4096) k)
      * B0 V c (ix2 (⟨k.val, by have := k.isLt; omega⟩ : Fin 40960) q) := by
  have h := acc_blocked 40000 4096 10 (by decide) (by decide) (aRow V c P) (bCol V c q) (S0 V c P q) (fun kb _ => rfl)
  refine h.trans (Finset.sum_congr rfl fun k _ => ?_)
  unfold aRow bCol
  rw [dif_pos ⟨hP, k.isLt⟩, dif_pos (by have := k.isLt; omega)]

set_option maxRecDepth 200000 in
/-- WHAT POINT t WRITES BACK, at the last block-column of a sweep: block t of the plain product. -/
theorem flushed0_eq (t : Fin cfg0.N) (hf : (cfg0.win 2).flush t = true) :
    (dat0 V c).flushed 2 t = ((cfg0.win 2).blk t).view.read (Elt Ideal) (G0 V c) := by
  have hN : t.val < 160 := lt_of_lt_of_eq t.isLt (show cfg0.N = 160 from N_0)
  have h9 : t.val % 10 = 9 := (flush0_2 t).mp hf
  obtain ⟨-, -, -, -, e4, e5, -⟩ := idx0 t
  show (cfg0.win 2).cut (grid0.coords t) ((dat0 V c).after 2 t) = _
  rw [after0_2]
  funext y
  rw [View.read_apply]
  obtain ⟨p, q, rfl⟩ : ∃ (p : Fin 256) (q : Fin 128), y = ix2 p q := ⟨y 0, y 1, eq_ix2 y⟩
  have hx : (cfg0.win 2).xinj (grid0.coords t) (ix2 p q) = ix2 p q :=
    funext fun a => Fin.ext (by match a with | ⟨0, _⟩ => rfl | ⟨1, _⟩ => rfl)
  refine (congrArg (outsAt0 V c t.val t.isLt) hx).trans ?_
  obtain ⟨i, hi⟩ : ∃ i : S4096x128.Idx, i = ((cfg0.win 2).blk t).view.emb (ix2 p q) := ⟨_, rfl⟩
  have hi0 : (i (0 : Fin 2)).val = t.val / 10 * 256 + p.val := by
    rw [hi]; show win0_2.index t (0 : Fin 2) * 256 + 1 * p.val = _; omega
  have hi1 : (i (1 : Fin 2)).val = q.val := by
    rw [hi]; show win0_2.index t (1 : Fin 2) * 128 + 1 * q.val = _; omega
  have hP : t.val / 10 * 256 + p.val < 4096 := by have := p.isLt; omega
  have htot := total0 V c (t.val / 10 * 256 + p.val) hP q
  rw [← hi, G0_apply V c i _ hP q hi0 hi1, outsAt0_acc, h9]
  exact htot

/-- An index of the result array is in point t's block iff each coordinate is in the block's range on its axis. -/
theorem mem_blk0 (t : Fin cfg0.N) (i : S4096x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v23).slice (win0_2.rect t)).set ↔ _
  rw [View.set_slice_whole, Rect.mem_set_unit]
  exact Iff.rfl

/-- Every index of the result array is in the block some sweep's last point writes back: row r is in block-row r / 256. -/
theorem cover0 (i : S4096x128.Idx) : ∃ t : Fin cfg0.N, (cfg0.win 2).flush t = true ∧ i ∈ ((cfg0.win 2).blk t).view.set := by
  have hi0 : (i 0).val < 4096 := (i 0).isLt
  have hi1 : (i 1).val < 128 := (i 1).isLt
  have hlt : (i 0).val / 256 * 10 + 9 < cfg0.N := by rw [show cfg0.N = 160 from N_0]; omega
  obtain ⟨-, -, -, -, e4, e5, -⟩ := idx0 ⟨(i 0).val / 256 * 10 + 9, hlt⟩
  refine ⟨⟨(i 0).val / 256 * 10 + 9, hlt⟩, (flush0_2 _).mpr (by show ((i 0).val / 256 * 10 + 9) % 10 = 9; omega), ?_⟩
  rw [mem_blk0]
  have e4' : win0_2.index ⟨(i 0).val / 256 * 10 + 9, hlt⟩ (0 : Fin 2) = (i 0).val / 256 := by rw [e4]; show ((i 0).val / 256 * 10 + 9) / 10 = _; omega
  intro a
  match a with
  | ⟨0, _⟩ => show win0_2.index ⟨(i 0).val / 256 * 10 + 9, hlt⟩ (0 : Fin 2) * 256 ≤ (i 0).val ∧ (i 0).val < win0_2.index ⟨(i 0).val / 256 * 10 + 9, hlt⟩ (0 : Fin 2) * 256 + 256; omega
  | ⟨1, _⟩ => show win0_2.index ⟨(i 0).val / 256 * 10 + 9, hlt⟩ (1 : Fin 2) * 128 ≤ (i 1).val ∧ (i 1).val < win0_2.index ⟨(i 0).val / 256 * 10 + 9, hlt⟩ (1 : Fin 2) * 128 + 128; omega

/-- THE ARRAY the first region leaves: the plain product of its two operands. -/
theorem final0 : (dat0 V c).arrAt 2 cfg0.N = G0 V c :=
  (dat0 V c).arrAt_eq_of_cover 2 (G0 V c) (fun t hf => flushed0_eq V c t hf) (cover0)

end Value0

end Cert.KernelIdeal.Hand

end
-- ==== Proof.Value1.lean ====
/-
  The second kernel region's result at the extended reals. Every point (i, 0) of its 4 × 1 grid stores, over the zero
  block, the product of the 256 rows i·256 … of the left operand [1024, 4096] with the whole right operand [4096, 128],
  and writes the block back; the four blocks tile the result [1024, 128]. So the region leaves the plain product:
  entry (P, q) is the sum over the 4096 columns k of left[P, k] · right[k, q].
-/
import proofs.«107894_j60490319397131_2_alg».proof.Proof.Region1
import proofs.«107894_j60490319397131_2_alg».proof.Proof.PayloadIdeal
import Idealize.ShloMosaic.Lib.Pipeline.Value
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Pieces1

/-- The rows of the right operand the body loads at point i: all 4096, from row 0. -/
abbrev srcRows1 (i : grid1.Coords) (x1 : Vec F S4096x128 .bf16) : Vec F S4096x128 .bf16 :=
  View.ld x1 (Rect.unit (s := S4096x128) (k1_off1 i) S4096x128.size (k1_off1_inb i))

/-- The result's buffer ends at the payload of the two input blocks over the zero block. -/
theorem out1_eq (c : Dev nD) (i : grid1.Coords) (arg2 : Memref sig .tc .vmem S256x4096 .f32) (harg2 : arg2.IsWhole)
    (arg3 : Memref sig .tc .vmem S4096x128 .bf16) (harg3 : arg3.IsWhole) (arg4 : Memref sig .tc .vmem S256x128 .f32) (harg4 : arg4.IsWhole)
    (hc0 : cond1 i) (x0 : Vec F S256x4096 .f32) (x1 : Vec F S4096x128 .bf16) :
    out1 c i arg2 harg2 arg3 harg3 arg4 harg4 hc0 x0 x1 = k1_pay2 i x0 (srcRows1 i x1) k1_pay1 := by
  unfold out1
  rw [View.read_writes_eq_canon _ _ _ (cover1 c i arg2 harg2 arg3 harg3 arg4 harg4 hc0 x0 x1)]
  unfold kernelRun1
  dsimp only
  sl_unfold_words
  have hz : (![0, 0] : Fin 2 → Nat) = fun _ => 0 := funext fun a => by fin_cases a <;> rfl
  simp only [View.readAt_eq_ld, harg2.read_unread, harg3.read_unread]
  refine (View.canon_cons_unit_zero (S := S256x128) hz _ _ _).trans ?_
  rw [View.readCov_unit_zero (S := S256x128) _ hz, View.ld_unit_zero (S := S256x4096) hz]
  rfl

end Pieces1

section Value1

variable (V : (c : Dev nD) → (b : Ref sig .tc) → Buf (Elt Ideal) ((c : Thread nD τ).loc b)) (c : Dev nD)

/-- The windows' block indices and the body's row offset at point t. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ k1_off1 (grid1.coords t) (0 : Fin 2) = 0 ∧ k1_off1 (grid1.coords t) (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ k1_off1 (grid1.coords t) (0 : Fin 2) = 0 ∧ k1_off1 (grid1.coords t) (1 : Fin 2) = 0)

/-- The two operands as the region finds them, as arrays of extended reals. -/
def A1 : S1024x4096.Idx → EReal := V c main_arg6
def B1 : S4096x128.Idx → EReal := V c main_v42

/-- The plain product of the two operands: entry (P, q) is the sum over the 4096 columns. -/
def G1 : S1024x128.Idx → EReal := fun i =>
  ∑ k : Fin 4096, A1 V c (ix2 (⟨(i 0).val, (i 0).isLt⟩ : Fin 1024) k) * B1 V c (ix2 k (⟨(i 1).val, (i 1).isLt⟩ : Fin 128))

theorem G1_apply (i : S1024x128.Idx) (P : ℕ) (hP : P < 1024) (q : Fin 128) (h0 : (i 0).val = P) (h1 : (i 1).val = q.val) :
    G1 V c i = ∑ k : Fin 4096, A1 V c (ix2 (⟨P, hP⟩ : Fin 1024) k) * B1 V c (ix2 k q) := by
  unfold G1
  refine Finset.sum_congr rfl fun k _ => ?_
  have e0 : (⟨(i 0).val, (i 0).isLt⟩ : Fin 1024) = ⟨P, hP⟩ := Fin.ext h0
  have e1 : (⟨(i 1).val, (i 1).isLt⟩ : Fin 128) = q := Fin.ext h1
  rw [e0, e1]

/-- The left window's block at point t is rows t·256 … of the left operand. -/
theorem iblk1_0_apply (t : Fin cfg1.N) (p : Fin 256) (j : Fin 4096) (hP : t.val * 256 + p.val < 1024) :
    iblk1 V c 0 t (ix2 p j) = A1 V c (ix2 (⟨t.val * 256 + p.val, hP⟩ : Fin 1024) j) := by
  obtain ⟨e0, e1, -⟩ := idx1 t
  unfold iblk1 A1
  rw [View.read_apply]
  refine congrArg (V c main_arg6) (funext fun a => Fin.ext ?_)
  match a with
  | ⟨0, _⟩ => show win1_0.index t (0 : Fin 2) * 256 + 1 * p.val = t.val * 256 + p.val; omega
  | ⟨1, _⟩ => show win1_0.index t (1 : Fin 2) * 4096 + 1 * j.val = j.val; omega

/-- The rows of the right operand the body loads are the right operand. -/
theorem srcRows1_apply (t : Fin cfg1.N) (j : Fin 4096) (q : Fin 128) :
    srcRows1 (grid1.coords t) (iblk1 V c 1 t) (ix2 j q) = B1 V c (ix2 j q) := by
  obtain ⟨-, -, e2, e3, -, -, e6, e7⟩ := idx1 t
  unfold iblk1 B1
  show (View.read (Elt Ideal) ((cfg1.win 1).blk t).view (V c (Pipeline.arrRef spec1 1))) ((Rect.unit (s := S4096x128) (k1_off1 (grid1.coords t)) S4096x128.size (k1_off1_inb (grid1.coords t))).idx (ix2 j q)) = _
  rw [View.read_apply]
  refine congrArg (V c main_v42) (funext fun a => Fin.ext ?_)
  match a with
  | ⟨0, _⟩ => show win1_1.index t (0 : Fin 2) * 4096 + 1 * (k1_off1 (grid1.coords t) (0 : Fin 2) + 1 * j.val) = j.val; omega
  | ⟨1, _⟩ => show win1_1.index t (1 : Fin 2) * 128 + 1 * (k1_off1 (grid1.coords t) (1 : Fin 2) + 1 * q.val) = q.val; omega

/-- After point t the result window's buffer holds, at (p, q), the plain sum for row t·256 + p. -/
theorem outAt1_apply (t : Fin cfg1.N) (p : Fin 256) (q : Fin 128) (hP : t.val * 256 + p.val < 1024) :
    outAt1 V c t (ix2 p q) = ∑ k : Fin 4096, A1 V c (ix2 (⟨t.val * 256 + p.val, hP⟩ : Fin 1024) k) * B1 V c (ix2 k q) := by
  unfold outAt1
  rw [out1_eq, k1_pay2_apply, k1_pay1_apply, zero_add]
  refine Finset.sum_congr rfl fun k _ => ?_
  rw [iblk1_0_apply V c t p k hP, srcRows1_apply]

/-- WHAT POINT t WRITES BACK: block t of the plain product. -/
theorem flushed1_eq (t : Fin cfg1.N) :
    (dat1 V c).flushed 2 t = ((cfg1.win 2).blk t).view.read (Elt Ideal) (G1 V c) := by
  have hN : t.val < 4 := lt_of_lt_of_eq t.isLt (show cfg1.N = 4 from N_1)
  obtain ⟨-, -, -, -, e4, e5, -⟩ := idx1 t
  show (cfg1.win 2).cut (grid1.coords t) ((dat1 V c).after 2 t) = _
  rw [after1_2]
  funext y
  rw [View.read_apply]
  obtain ⟨p, q, rfl⟩ : ∃ (p : Fin 256) (q : Fin 128), y = ix2 p q := ⟨y 0, y 1, eq_ix2 y⟩
  have hx : (cfg1.win 2).xinj (grid1.coords t) (ix2 p q) = ix2 p q :=
    funext fun a => Fin.ext (by match a with | ⟨0, _⟩ => rfl | ⟨1, _⟩ => rfl)
  refine (congrArg (outAt1 V c t) hx).trans ?_
  obtain ⟨i, hi⟩ : ∃ i : S1024x128.Idx, i = ((cfg1.win 2).blk t).view.emb (ix2 p q) := ⟨_, rfl⟩
  have hi0 : (i (0 : Fin 2)).val = t.val * 256 + p.val := by
    rw [hi]; show win1_2.index t (0 : Fin 2) * 256 + 1 * p.val = _; omega
  have hi1 : (i (1 : Fin 2)).val = q.val := by
    rw [hi]; show win1_2.index t (1 : Fin 2) * 128 + 1 * q.val = _; omega
  have hP : t.val * 256 + p.val < 1024 := by have := p.isLt; omega
  rw [← hi, outAt1_apply V c t p q hP]
  exact (G1_apply V c i _ hP q hi0 hi1).symm

theorem mem_blk1 (t : Fin cfg1.N) (i : S1024x128.Idx) :
    i ∈ ((cfg1.win 2).blk t).view.set ↔ ∀ a : Fin 2, win1_2.index t a * S256x128.size a ≤ (i a).val ∧ (i a).val < win1_2.index t a * S256x128.size a + S256x128.size a := by
  show i ∈ ((View.whole main_v43).slice (win1_2.rect t)).set ↔ _
  rw [View.set_slice_whole, Rect.mem_set_unit]
  exact Iff.rfl

/-- Every index of the result array is in some point's block: row r is in block r / 256. -/
theorem cover1v (i : S1024x128.Idx) : ∃ t : Fin cfg1.N, (cfg1.win 2).flush t = true ∧ i ∈ ((cfg1.win 2).blk t).view.set := by
  have hi0 : (i 0).val < 1024 := (i 0).isLt
  have hi1 : (i 1).val < 128 := (i 1).isLt
  have hlt : (i 0).val / 256 < cfg1.N := by rw [show cfg1.N = 4 from N_1]; omega
  obtain ⟨-, -, -, -, e4, e5, -⟩ := idx1 ⟨(i 0).val / 256, hlt⟩
  refine ⟨⟨(i 0).val / 256, hlt⟩, flush1_2 _, ?_⟩
  rw [mem_blk1]
  have e4' : win1_2.index ⟨(i 0).val / 256, hlt⟩ (0 : Fin 2) = (i 0).val / 256 := e4
  intro a
  match a with
  | ⟨0, _⟩ => show win1_2.index ⟨(i 0).val / 256, hlt⟩ (0 : Fin 2) * 256 ≤ (i 0).val ∧ (i 0).val < win1_2.index ⟨(i 0).val / 256, hlt⟩ (0 : Fin 2) * 256 + 256; omega
  | ⟨1, _⟩ => show win1_2.index ⟨(i 0).val / 256, hlt⟩ (1 : Fin 2) * 128 ≤ (i 1).val ∧ (i 1).val < win1_2.index ⟨(i 0).val / 256, hlt⟩ (1 : Fin 2) * 128 + 128; omega

/-- THE ARRAY the second region leaves: the plain product of its two operands. -/
theorem final1 : (dat1 V c).arrAt 2 cfg1.N = G1 V c :=
  (dat1 V c).arrAt_eq_of_cover 2 (G1 V c) (fun t _ => flushed1_eq V c t) (cover1v)

end Value1

end Cert.KernelIdeal.Hand

end
-- ==== Proof.Value.lean ====
/-
  What the two kernel regions leave, in the shape the host side of the argument takes: each region's result array,
  read at (p, q), is the plain sum over k of its left operand at (p, k) times its right operand at (k, q), the operands
  as the region finds them.
-/
import proofs.«107894_j60490319397131_2_alg».proof.Proof.Run
import proofs.«107894_j60490319397131_2_alg».proof.Proof.Value0
import proofs.«107894_j60490319397131_2_alg».proof.Proof.Value1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-- The first region's result array is the plain product of dif_mat_1 and the padded, gathered features. -/
theorem region0_product :
    ∀ (A : S4096x40000.Idx → EReal) (B : S40960x128.Idx → EReal) (O : S4096x128.Idx → EReal),
      A = V3 m c main_arg3 → B = V3 m c main_v22 → O = outs m 4 main_v23 c →
      ∀ (p : Fin 4096) (q : Fin 128), O (ix2 p q)
        = ∑ k : Fin 40000, A (ix2 p k) * B (ix2 (⟨k.val, by have := k.isLt; omega⟩ : Fin 40960) q) := by
  intro A B O hA hB hO p q
  subst hA hB hO
  have e : outs m 4 main_v23 c = G0 (VR3 m) c := (outs_4 m c).trans (final0 (VR3 m) c)
  refine (congrFun e (ix2 p q)).trans ((G0_apply (VR3 m) c (ix2 p q) p.val p.isLt q rfl rfl).trans ?_)
  unfold A0 B0
  rfl

/-- The second region's result array is the plain product of dif_mat_2 and the gathered first-layer output. -/
theorem region1_product :
    ∀ (A : S1024x4096.Idx → EReal) (B : S4096x128.Idx → EReal) (O : S1024x128.Idx → EReal),
      A = V9 m (outs m) c main_arg6 → B = V9 m (outs m) c main_v42 → O = outs m 10 main_v43 c →
      ∀ (p : Fin 1024) (q : Fin 128), O (ix2 p q) = ∑ k : Fin 4096, A (ix2 p k) * B (ix2 k q) := by
  intro A B O hA hB hO p q
  subst hA hB hO
  have e : outs m 10 main_v43 c = G1 (VR9 m) c := (outs_10 m c).trans (final1 (VR9 m) c)
  rw [V9_outs m c]
  refine (congrFun e (ix2 p q)).trans ((G1_apply (VR9 m) c (ix2 p q) p.val p.isLt q rfl rfl).trans ?_)
  unfold A1 B1
  rfl

end Cert.KernelIdeal.Hand

end
-- ==== Proof.HostGather.lean ====
import proofs.«107894_j60490319397131_2_alg».proof.Proof.Gen.KernelIdeal.Regions
import proofs.«107894_j60490319397131_2_alg».proof.Proof.Gen.ReferenceIdeal.Read

/-! The first host stretch of the kernel's program: the three row gathers. From ANY buffer contents `W`, what
    the stretch leaves in the gathered-source buffer and in the gathered-destination buffer is the reference
    program's own stage of the same three arguments (node ids, the two index vectors, the feature table): both
    programs print the same `x[src_nodes]`, `x[d2s]`, `x[d2d]`, index normalisation included. -/

noncomputable section

namespace Cert.KernelIdeal.HostValue

open Cert.KernelIdeal Cert.KernelIdeal.Gen Idealize.ShloMosaic Idealize.ShloMosaic.TcCoe

/-- The neighbour features `raw_features[src_nodes][d2s_1]` : [40000, 128]. -/
theorem gathered_src (W : Valuation τ sig (Elt Ideal)) :
    StableHlo.after (hostOps0 (F := Ideal)) W (Proc.devRef .tc main_v20)
      = Cert.ReferenceIdeal.Read.val_main_v20 (F := Ideal) (W (Proc.devRef .tc main_arg0)) (W (Proc.devRef .tc main_arg1))
          (W (Proc.devRef .tc main_arg7)) := by
  after_results_simp
  rfl

/-- The self features `raw_features[src_nodes][d2d_1]` : [4096, 128]. -/
theorem gathered_dst (W : Valuation τ sig (Elt Ideal)) :
    StableHlo.after (hostOps0 (F := Ideal)) W (Proc.devRef .tc main_v13)
      = Cert.ReferenceIdeal.Read.val_main_v13 (F := Ideal) (W (Proc.devRef .tc main_arg0)) (W (Proc.devRef .tc main_arg2))
          (W (Proc.devRef .tc main_arg7)) := by
  after_results_simp
  rfl

end Cert.KernelIdeal.HostValue

end
-- ==== Proof.HostOperands.lean ====
import proofs.«107894_j60490319397131_2_alg».proof.Proof.Gen.KernelIdeal.Regions
import Idealize.ShloMosaic.Lib.KernelVsHost
import Idealize.ShloMosaic.Lib.ValueIdx

/-! The two host stretches in front of each kernel region: a zero pad of the matmul's second operand up to a
    whole number of K-tiles, then a change of float format. At the ideal instance a change of format is the
    identity, a pad BELOW the rows moves no row, and a pad by nothing is the identity. So region 0 finds, in every
    row `k < 40000` of its second operand, the gathered neighbour features, and region 1 finds its second operand
    equal to the gathered array itself. -/

noncomputable section

namespace Cert.KernelIdeal.HostValue

open Cert.KernelIdeal Cert.KernelIdeal.Gen Idealize.ShloMosaic Idealize.ShloMosaic.TcCoe Idealize.ShloMosaic.ValueIdx

/-- Padding rows BELOW an array does not move the rows already there: row `k < 40000` of the padded
    [40960, 128] array is row `k` of the operand. -/
theorem pad_below_apply {α : Type} (x : (⟨2, ![40000, 128]⟩ : Shape).Idx → α) {u : Shape} (v : u.Idx → α)
    (h : (⟨2, ![40000, 128]⟩ : Shape).Pads (![0, 0] : Fin 2 → Nat) ![960, 0] ![0, 0] ⟨2, ![40960, 128]⟩)
    (hu : 0 < u.numel) (k : Fin 40000) (q : Fin 128) :
    pad ⟨2, ![40960, 128]⟩ ![0, 0] ![960, 0] ![0, 0] x v h hu (ix2 (⟨k.val, by omega⟩ : Fin 40960) q) = x (ix2 k q) :=
  pad_apply_of_inside _ _ _ x v h hu _ (ix2 k q) (fun a => by
    match a with
    | ⟨0, _⟩ => show k.val = 0 + k.val * (0 + 1); omega
    | ⟨1, _⟩ => show q.val = 0 + q.val * (0 + 1); omega)

/-- A pad that adds nothing on any side is the identity. -/
theorem pad_nothing {α : Type} (x : (⟨2, ![4096, 128]⟩ : Shape).Idx → α) {u : Shape} (v : u.Idx → α)
    (h : (⟨2, ![4096, 128]⟩ : Shape).Pads (![0, 0] : Fin 2 → Nat) ![0, 0] ![0, 0] ⟨2, ![4096, 128]⟩)
    (hu : 0 < u.numel) :
    pad ⟨2, ![4096, 128]⟩ ![0, 0] ![0, 0] ![0, 0] x v h hu = x := by
  funext j
  obtain ⟨p, q, rfl⟩ : ∃ (p : Fin 4096) (q : Fin 128), j = ix2 p q := ⟨j 0, j 1, eq_ix2 j⟩
  exact pad_apply_of_inside _ _ _ x v h hu _ (ix2 p q) (fun a => by
    match a with
    | ⟨0, _⟩ => show p.val = 0 + p.val * (0 + 1); omega
    | ⟨1, _⟩ => show q.val = 0 + q.val * (0 + 1); omega)

/-- Region 0's second operand, rows below 40000: from any contents `W`, after the pad and the format change the
    operand buffer holds at `(k, q)` what the gathered-source buffer held there. -/
theorem operand0_row (W : Valuation τ sig (Elt Ideal)) (k : Fin 40000) (q : Fin 128) :
    (StableHlo.after (hostOps0_2 (F := Ideal)) (StableHlo.after (hostOps0_1 (F := Ideal)) W) (Proc.devRef .tc main_v22)
        : S40960x128.Idx → EReal) (ix2 (⟨k.val, by omega⟩ : Fin 40960) q)
      = (W (Proc.devRef .tc main_v20) : S40000x128.Idx → EReal) (ix2 k q) := by
  after_results
  show pad S40960x128 ![0, 0] ![960, 0] ![0, 0] (W (Proc.devRef .tc main_v20)) _ pads_S40000x128_S40960x128_09600_000 h_S_
      (ix2 (⟨k.val, by omega⟩ : Fin 40960) q) = _
  exact pad_below_apply _ _ _ _ k q

/-- Region 1's second operand: from any contents `W`, after the pad by nothing and the format change the operand
    buffer holds what the gathered buffer held. -/
theorem operand1_eq (W : Valuation τ sig (Elt Ideal)) :
    (StableHlo.after (hostOps1_4 (F := Ideal)) (StableHlo.after (hostOps1_3 (F := Ideal)) W) (Proc.devRef .tc main_v42)
        : S4096x128.Idx → EReal)
      = (W (Proc.devRef .tc main_v40) : S4096x128.Idx → EReal) := by
  after_results
  show pad S4096x128 ![0, 0] ![0, 0] ![0, 0] (W (Proc.devRef .tc main_v40)) _ pads_S4096x128_S4096x128_000_000 h_S_ = _
  exact pad_nothing _ _ _ _

end Cert.KernelIdeal.HostValue

end
-- ==== Proof.HostDots.lean ====
import proofs.«107894_j60490319397131_2_alg».proof.Proof.Gen.ReferenceIdeal.Read
import Idealize.ShloMosaic.Lib.ValueIdx

/-! A matrix given entry by entry as the sums `∑ k, A[p, k] · B[k, q]` IS the reference's `dot_general` of `A` and
    `B`: at the ideal instance the host's `dot_general` with one contracted axis is that sum (the generated read of
    the reference's two diffusion products), and the sum's index functions are the coordinate pairs `(p, k)`, `(k, q)`. -/

noncomputable section

namespace Cert.KernelIdeal.HostValue

open Cert.ReferenceIdeal Cert.ReferenceIdeal.Gen Cert.ReferenceIdeal.Read Idealize.ShloMosaic Idealize.ShloMosaic.ValueIdx

/-- Layer 1: `dif_mat_1 @ src1`, [4096, 40000] by [40000, 128]. -/
theorem agg1_eq (a : (⟨S4096x128, .f32⟩ : BufTy).Contents (Elt Ideal))
    (x0 x1 : (⟨S40000, .i32⟩ : BufTy).Contents (Elt Ideal)) (x3 : (⟨S4096x40000, .f32⟩ : BufTy).Contents (Elt Ideal))
    (x7 : (⟨S100000x128, .f32⟩ : BufTy).Contents (Elt Ideal))
    (h : ∀ (p : Fin 4096) (q : Fin 128), a (ix2 p q)
      = ∑ k : Fin 40000, x3 (ix2 p k) * val_main_v20 (F := Ideal) x0 x1 x7 (ix2 k q)) :
    a = val_main_v21 (F := Ideal) x0 x1 x3 x7 := by
  funext i
  obtain ⟨p, q, rfl⟩ : ∃ (p : Fin 4096) (q : Fin 128), i = ix2 p q := ⟨i 0, i 1, eq_ix2 i⟩
  rw [h p q, val_main_v21_apply]
  refine Finset.sum_congr rfl fun k _ => ?_
  have el : lidx_main_v21 (ix2 p q) k = ix2 p k := funext fun b => by
    match b with
    | ⟨0, _⟩ => rfl
    | ⟨1, _⟩ => rfl
  have er : ridx_main_v21 (ix2 p q) k = ix2 k q := funext fun b => by
    match b with
    | ⟨0, _⟩ => rfl
    | ⟨1, _⟩ => rfl
  rw [el, er]

/-- Layer 2: `dif_mat_2 @ src2`, [1024, 4096] by [4096, 128]. -/
theorem agg2_eq (a : (⟨S1024x128, .f32⟩ : BufTy).Contents (Elt Ideal))
    (x0 x1 : (⟨S40000, .i32⟩ : BufTy).Contents (Elt Ideal)) (x2 : (⟨S4096, .i32⟩ : BufTy).Contents (Elt Ideal))
    (x3 : (⟨S4096x40000, .f32⟩ : BufTy).Contents (Elt Ideal)) (x4 : (⟨S4096, .i32⟩ : BufTy).Contents (Elt Ideal))
    (x6 : (⟨S1024x4096, .f32⟩ : BufTy).Contents (Elt Ideal)) (x7 : (⟨S100000x128, .f32⟩ : BufTy).Contents (Elt Ideal))
    (x8 : (⟨S256x128, .f32⟩ : BufTy).Contents (Elt Ideal))
    (h : ∀ (p : Fin 1024) (q : Fin 128), a (ix2 p q)
      = ∑ k : Fin 4096, x6 (ix2 p k) * val_main_v38 (F := Ideal) x0 x1 x2 x3 x4 x7 x8 (ix2 k q)) :
    a = val_main_v39 (F := Ideal) x0 x1 x2 x3 x4 x6 x7 x8 := by
  funext i
  obtain ⟨p, q, rfl⟩ : ∃ (p : Fin 1024) (q : Fin 128), i = ix2 p q := ⟨i 0, i 1, eq_ix2 i⟩
  rw [h p q, val_main_v39_apply]
  refine Finset.sum_congr rfl fun k _ => ?_
  have el : lidx_main_v39 (ix2 p q) k = ix2 p k := funext fun b => by
    match b with
    | ⟨0, _⟩ => rfl
    | ⟨1, _⟩ => rfl
  have er : ridx_main_v39 (ix2 p q) k = ix2 k q := funext fun b => by
    match b with
    | ⟨0, _⟩ => rfl
    | ⟨1, _⟩ => rfl
  rw [el, er]

end Cert.KernelIdeal.HostValue

end
-- ==== Proof.HostLayer1.lean ====
import proofs.«107894_j60490319397131_2_alg».proof.Proof.Gen.KernelIdeal.Regions
import proofs.«107894_j60490319397131_2_alg».proof.Proof.Gen.ReferenceIdeal.Read

/-! Between the two kernel regions both programs apply the SAME host operations to the first diffusion product
    `agg` and the gathered self features `dst`: join them along the feature axis, multiply by `w1`, clamp at zero,
    and gather the rows the second layer needs. The chain is carried as one function of `(agg, dst, w1, index
    vector)` written with the reference program's own operations; the kernel's program applies its own copies of
    the same operations (same shapes, same dimension numbers), which are the same functions. Nothing here opens a
    concatenate, a product or a gather. -/

noncomputable section

namespace Cert.KernelIdeal.HostValue

open Idealize.ShloMosaic Idealize.ShloMosaic.TcCoe

section Ref
open Cert.ReferenceIdeal Cert.ReferenceIdeal.Gen Cert.ReferenceIdeal.Read

/-- `relu(concat(agg, dst) · w1)` : [4096, 128]. -/
def upd1 (a d : FVec Ideal S4096x128 .f32) (x8 : FVec Ideal S256x128 .f32) : FVec Ideal S4096x128 .f32 :=
  maximumf (F := Ideal) (Host.dotGeneral (F := Ideal) dot_S4096x256_S256x128_S4096x128_1_0_0_1_n_n none
      (concatenate S4096x256 1 [⟨S4096x128, a⟩, ⟨S4096x128, d⟩] concatenates_S4096x128_S4096x128_S4096x256_d1) x8)
    (val_main_call0_v0 (F := Ideal))

/-- The second layer's neighbour features `x1[d2s_2]` : [4096, 128]. -/
def src2 (a d : FVec Ideal S4096x128 .f32) (x8 : FVec Ideal S256x128 .f32) (x4 : (⟨S4096, .i32⟩ : BufTy).Contents (Elt Ideal)) : FVec Ideal S4096x128 .f32 :=
  Host.gather gather_S4096x128_S4096x1_S4096x128_1_0_n_n_0_1_1128 (upd1 a d x8) (val_main_v37 (F := Ideal) x4)

/-- The second layer's self features `x1[d2d_2]` : [1024, 128]. -/
def dst2 (a d : FVec Ideal S4096x128 .f32) (x8 : FVec Ideal S256x128 .f32) (x5 : (⟨S1024, .i32⟩ : BufTy).Contents (Elt Ideal)) : FVec Ideal S1024x128 .f32 :=
  Host.gather gather_S4096x128_S1024x1_S1024x128_1_0_n_n_0_1_1128 (upd1 a d x8) (val_main_v30 (F := Ideal) x5)

/-- The reference's stage is that function of its own product and gather. -/
theorem ref_src2 (x0 x1 : (⟨S40000, .i32⟩ : BufTy).Contents (Elt Ideal)) (x2 : (⟨S4096, .i32⟩ : BufTy).Contents (Elt Ideal)) (x3 : (⟨S4096x40000, .f32⟩ : BufTy).Contents (Elt Ideal))
    (x4 : (⟨S4096, .i32⟩ : BufTy).Contents (Elt Ideal)) (x7 : (⟨S100000x128, .f32⟩ : BufTy).Contents (Elt Ideal)) (x8 : FVec Ideal S256x128 .f32) :
    val_main_v38 (F := Ideal) x0 x1 x2 x3 x4 x7 x8
      = src2 (val_main_v21 (F := Ideal) x0 x1 x3 x7) (val_main_v13 (F := Ideal) x0 x2 x7) x8 x4 := by
  unfold val_main_v38 val_main_v24 val_main_v23 val_main_v22 src2 upd1
  rfl

theorem ref_dst2 (x0 x1 : (⟨S40000, .i32⟩ : BufTy).Contents (Elt Ideal)) (x2 : (⟨S4096, .i32⟩ : BufTy).Contents (Elt Ideal)) (x3 : (⟨S4096x40000, .f32⟩ : BufTy).Contents (Elt Ideal))
    (x5 : (⟨S1024, .i32⟩ : BufTy).Contents (Elt Ideal)) (x7 : (⟨S100000x128, .f32⟩ : BufTy).Contents (Elt Ideal)) (x8 : FVec Ideal S256x128 .f32) :
    val_main_v31 (F := Ideal) x0 x1 x2 x3 x5 x7 x8
      = dst2 (val_main_v21 (F := Ideal) x0 x1 x3 x7) (val_main_v13 (F := Ideal) x0 x2 x7) x8 x5 := by
  unfold val_main_v31 val_main_v24 val_main_v23 val_main_v22 dst2 upd1
  rfl

end Ref

section Ker
open Cert.KernelIdeal Cert.KernelIdeal.Gen

/-- The kernel's program, from any contents `W`: the three stretches leave that function of what `W` holds in the
    product's buffer, the gathered self features' buffer, `w1` and the index vector. -/
theorem ker_src2 (W : Valuation τ sig (Elt Ideal)) :
    StableHlo.after (hostOps1_2 (F := Ideal)) (StableHlo.after (hostOps1_1 (F := Ideal)) (StableHlo.after (hostOps1 (F := Ideal)) W))
        (Proc.devRef .tc main_v40)
      = src2 (W (Proc.devRef .tc main_v23)) (W (Proc.devRef .tc main_v13)) (W (Proc.devRef .tc main_arg8))
          (W (Proc.devRef .tc main_arg4)) := by
  after_results_simp
  rfl

theorem ker_dst2 (W : Valuation τ sig (Elt Ideal)) :
    StableHlo.after (hostOps1_2 (F := Ideal)) (StableHlo.after (hostOps1_1 (F := Ideal)) (StableHlo.after (hostOps1 (F := Ideal)) W))
        (Proc.devRef .tc main_v33)
      = dst2 (W (Proc.devRef .tc main_v23)) (W (Proc.devRef .tc main_v13)) (W (Proc.devRef .tc main_arg8))
          (W (Proc.devRef .tc main_arg5)) := by
  after_results_simp
  rfl

end Ker

end Cert.KernelIdeal.HostValue

end
-- ==== Proof.HostLayer2.lean ====
import proofs.«107894_j60490319397131_2_alg».proof.Proof.Gen.KernelIdeal.Regions
import proofs.«107894_j60490319397131_2_alg».proof.Proof.Gen.ReferenceIdeal.Read

/-! After the second kernel region both programs apply the SAME host operations to the second diffusion product
    `agg` and the gathered self features `dst`: join, multiply by `w2`, clamp at zero, multiply by the
    classifier, and take the softmax over the two classes. The chain is carried as one function of
    `(agg, dst, w2, w_cls)` written with the reference program's own operations; the kernel's program applies its own
    copies of the same operations. Nothing here opens a product, a reduction or the exponential. -/

noncomputable section

namespace Cert.KernelIdeal.HostValue

open Idealize.ShloMosaic Idealize.ShloMosaic.TcCoe

section Ref
open Cert.ReferenceIdeal Cert.ReferenceIdeal.Gen Cert.ReferenceIdeal.Read

/-- `relu(concat(agg, dst) · w2)` : [1024, 128]. -/
def upd2 (a d : FVec Ideal S1024x128 .f32) (x9 : FVec Ideal S256x128 .f32) : FVec Ideal S1024x128 .f32 :=
  maximumf (F := Ideal) (Host.dotGeneral (F := Ideal) dot_S1024x256_S256x128_S1024x128_1_0_0_1_n_n none
      (concatenate S1024x256 1 [⟨S1024x128, a⟩, ⟨S1024x128, d⟩] concatenates_S1024x128_S1024x128_S1024x256_d1) x9)
    (val_main_call1_v0 (F := Ideal))

/-- The logits `z · w_cls` : [1024, 2]. -/
def logits (z : FVec Ideal S1024x128 .f32) (x10 : FVec Ideal S128x2 .f32) : FVec Ideal S1024x2 .f32 :=
  Host.dotGeneral (F := Ideal) dot_S1024x128_S128x2_S1024x2_1_0_0_1_n_n none z x10

/-- The shifted exponentials `exp(l - max_row l)` : [1024, 2]. -/
def expShifted (l : FVec Ideal S1024x2 .f32) : FVec Ideal S1024x2 .f32 :=
  Host.exp (F := Ideal) (subf (F := Ideal) l (broadcastInDim S1024x2 ![0, 1] bcast_S1024x1_S1024x2_0_1 (broadcastInDim S1024x1 ![0] bcast_S1024_S1024x1_0
    (maximumf (F := Ideal) (val_main_v45 (F := Ideal)) (Host.reduce (FloatOps.maximumf (F := Ideal)) l (val_main_cst (F := Ideal)) reducesTo_S1024x2_S1024_d1 h_S_)))))

/-- The softmax over the class axis: each shifted exponential over its row's sum. -/
def softmaxRows (l : FVec Ideal S1024x2 .f32) : FVec Ideal S1024x2 .f32 :=
  Host.divf (F := Ideal) (expShifted l) (broadcastInDim S1024x2 ![0, 1] bcast_S1024x1_S1024x2_0_1 (broadcastInDim S1024x1 ![0] bcast_S1024_S1024x1_0
    (Host.reduceAdd (F := Ideal) (expShifted l) (val_main_cst_10 (F := Ideal)) reducesTo_S1024x2_S1024_d1 h_S_)))

/-- The whole tail: `softmax(relu(concat(agg, dst) · w2) · w_cls)`. -/
def tail2 (a d : FVec Ideal S1024x128 .f32) (x9 : FVec Ideal S256x128 .f32) (x10 : FVec Ideal S128x2 .f32) : FVec Ideal S1024x2 .f32 :=
  softmaxRows (logits (upd2 a d x9) x10)

/-- The reference's result is that function of its own second product and gather. -/
theorem ref_tail2 (x0 x1 : (⟨S40000, .i32⟩ : BufTy).Contents (Elt Ideal)) (x2 : (⟨S4096, .i32⟩ : BufTy).Contents (Elt Ideal)) (x3 : (⟨S4096x40000, .f32⟩ : BufTy).Contents (Elt Ideal))
    (x4 : (⟨S4096, .i32⟩ : BufTy).Contents (Elt Ideal)) (x5 : (⟨S1024, .i32⟩ : BufTy).Contents (Elt Ideal)) (x6 : (⟨S1024x4096, .f32⟩ : BufTy).Contents (Elt Ideal)) (x7 : (⟨S100000x128, .f32⟩ : BufTy).Contents (Elt Ideal))
    (x8 x9 : FVec Ideal S256x128 .f32) (x10 : FVec Ideal S128x2 .f32) :
    val_main_v54 (F := Ideal) x0 x1 x2 x3 x4 x5 x6 x7 x8 x9 x10
      = tail2 (val_main_v39 (F := Ideal) x0 x1 x2 x3 x4 x6 x7 x8) (val_main_v31 (F := Ideal) x0 x1 x2 x3 x5 x7 x8) x9 x10 := by
  unfold val_main_v54 val_main_v53 val_main_v52 val_main_v51 val_main_v50 val_main_v49 val_main_v48 val_main_v47 val_main_v46
    val_main_v44 val_main_v43 val_main_v42 val_main_v41 val_main_v40 tail2 softmaxRows expShifted logits upd2
  rfl

end Ref

section Ker
open Cert.KernelIdeal Cert.KernelIdeal.Gen

/-- The kernel's program, from any contents `W`: the three stretches leave that function of what `W` holds in the
    second product's buffer, the gathered self features' buffer, `w2` and `w_cls`. -/
theorem ker_tail2 (W : Valuation τ sig (Elt Ideal)) :
    StableHlo.after (hostOps2_2 (F := Ideal)) (StableHlo.after (hostOps2_1 (F := Ideal)) (StableHlo.after (hostOps2 (F := Ideal)) W))
        (Proc.devRef .tc main_v58)
      = tail2 (W (Proc.devRef .tc main_v43)) (W (Proc.devRef .tc main_v33)) (W (Proc.devRef .tc main_arg9))
          (W (Proc.devRef .tc main_arg10)) := by
  after_results_simp
  rfl

end Ker

end Cert.KernelIdeal.HostValue

end
-- ==== Proof.HostValue.lean ====
import proofs.«107894_j60490319397131_2_alg».proof.Proof.Gen.KernelIdeal.Regions
import proofs.«107894_j60490319397131_2_alg».proof.Proof.Gen.ReferenceIdeal.Read
import proofs.«107894_j60490319397131_2_alg».proof.Proof.HostGather
import proofs.«107894_j60490319397131_2_alg».proof.Proof.HostOperands
import proofs.«107894_j60490319397131_2_alg».proof.Proof.HostDots
import proofs.«107894_j60490319397131_2_alg».proof.Proof.HostLayer1
import proofs.«107894_j60490319397131_2_alg».proof.Proof.HostLayer2

/-! THE HOST SIDE OF THE VALUE CLAIM. The kernel's program differs from the reference only in how the two diffusion
    products `dif_mat @ src` are computed: by a kernel region over a zero-padded copy of `src` instead of a
    `dot_general`. Given that each region leaves in its output array the plain matrix product of the two operand
    arrays it finds (`h4`, `h10`), the result buffer of the kernel's program is the reference's result term:

    * the first stretch gathers the same rows of the same table in both programs;
    * rows below 40000 of the padded operand are the gathered rows, so region 0's output is the reference's first
      product, entry by entry the same sum;
    * the stretches between the regions apply the same update and the same gathers to it, and the pad by nothing
      and the format change in front of region 1 change nothing, so region 1's output is the reference's second
      product;
    * the last stretches apply the same update, classifier and softmax.

    The arguments are read from the kernel program's launch memory; the reference's memory agrees on them. -/

noncomputable section

namespace Cert.KernelIdeal.HostValue

open Cert.KernelIdeal Cert.KernelIdeal.Gen Idealize.ShloMosaic Idealize.ShloMosaic.TcCoe Idealize.ShloMosaic.ValueIdx

theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (outs : Cert.KernelIdeal.Gen.Outs (F := Ideal)) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h4 : ∀ (A : S4096x40000.Idx → EReal) (B : S40960x128.Idx → EReal) (O : S4096x128.Idx → EReal),
            A = V3 m c main_arg3 → B = V3 m c main_v22 → O = outs 4 main_v23 c →
            ∀ (p : Fin 4096) (q : Fin 128), O (ix2 p q)
              = ∑ k : Fin 40000, A (ix2 p k) * B (ix2 (⟨k.val, by omega⟩ : Fin 40960) q))
    (h10 : ∀ (A : S1024x4096.Idx → EReal) (B : S4096x128.Idx → EReal) (O : S1024x128.Idx → EReal),
            A = V9 m outs c main_arg6 → B = V9 m outs c main_v42 → O = outs 10 main_v43 c →
            ∀ (p : Fin 1024) (q : Fin 128), O (ix2 p q) = ∑ k : Fin 4096, A (ix2 p k) * B (ix2 k q)) :
    V13 m outs c Cert.KernelIdeal.main_v58 = Cert.ReferenceIdeal.Value.res_main_v54 m' c := by
  obtain ⟨a0, a1, a2, a3, a4, a5, a6, a7, a8, a9, a10⟩ := hagree
  -- the rows both programs gather first: the neighbour features and the self features of layer 1
  have e20 : (V1 m c main_v20 : S40000x128.Idx → EReal) = Cert.ReferenceIdeal.Read.val_main_v20 (F := Ideal) (V0 m c main_arg0) (V0 m c main_arg1) (V0 m c main_arg7) :=
    gathered_src (V0 m c)
  have e13 : V1 m c main_v13 = Cert.ReferenceIdeal.Read.val_main_v13 (F := Ideal) (V0 m c main_arg0) (V0 m c main_arg2) (V0 m c main_arg7) := gathered_dst (V0 m c)
  -- region 0 finds the first argument matrix as launched, and the gathered rows in the rows below 40000 of its
  -- padded second operand
  have r3 : V3 m c main_arg3 = V0 m c main_arg3 := ((V3_of m c main_arg3 (by decide)).trans ((V2_of m c main_arg3 (by decide)).trans (V1_of m c main_arg3 (by decide))))
  have e22 : ∀ (k : Fin 40000) (q : Fin 128),
      (V3 m c main_v22 : S40960x128.Idx → EReal) (ix2 (⟨k.val, by omega⟩ : Fin 40960) q)
        = Cert.ReferenceIdeal.Read.val_main_v20 (F := Ideal) (V0 m c main_arg0) (V0 m c main_arg1) (V0 m c main_arg7) (ix2 k q) :=
    fun k q => (operand0_row (V1 m c) k q).trans (congrFun e20 (ix2 k q))
  -- so region 0's output is the reference's first diffusion product, entry by entry the same sum
  have e23 : outs 4 main_v23 c = Cert.ReferenceIdeal.Read.val_main_v21 (F := Ideal) (V0 m c main_arg0) (V0 m c main_arg1) (V0 m c main_arg3) (V0 m c main_arg7) :=
    agg1_eq _ _ _ _ _ (fun p q => (h4 _ _ _ r3.symm rfl rfl p q).trans
      (Finset.sum_congr rfl fun k _ => by rw [e22 k q]))
  -- between the regions: the same update and the same two gathers of it
  have h23 : V4 m outs c main_v23 = Cert.ReferenceIdeal.Read.val_main_v21 (F := Ideal) (V0 m c main_arg0) (V0 m c main_arg1) (V0 m c main_arg3) (V0 m c main_arg7) :=
    (Function.update_self _ _ _).trans e23
  have h13 : V4 m outs c main_v13 = Cert.ReferenceIdeal.Read.val_main_v13 (F := Ideal) (V0 m c main_arg0) (V0 m c main_arg2) (V0 m c main_arg7) :=
    ((V4_of m outs c main_v13 (by decide)).trans ((V3_of m c main_v13 (by decide)).trans (V2_of m c main_v13 (by decide)))).trans e13
  have h8 : V4 m outs c main_arg8 = V0 m c main_arg8 := ((V4_of m outs c main_arg8 (by decide)).trans ((V3_of m c main_arg8 (by decide)).trans ((V2_of m c main_arg8 (by decide)).trans (V1_of m c main_arg8 (by decide)))))
  have h4' : V4 m outs c main_arg4 = V0 m c main_arg4 := ((V4_of m outs c main_arg4 (by decide)).trans ((V3_of m c main_arg4 (by decide)).trans ((V2_of m c main_arg4 (by decide)).trans (V1_of m c main_arg4 (by decide)))))
  have h5 : V4 m outs c main_arg5 = V0 m c main_arg5 := ((V4_of m outs c main_arg5 (by decide)).trans ((V3_of m c main_arg5 (by decide)).trans ((V2_of m c main_arg5 (by decide)).trans (V1_of m c main_arg5 (by decide)))))
  have e40 : V7 m outs c main_v40 = Cert.ReferenceIdeal.Read.val_main_v38 (F := Ideal) (V0 m c main_arg0) (V0 m c main_arg1) (V0 m c main_arg2) (V0 m c main_arg3) (V0 m c main_arg4) (V0 m c main_arg7) (V0 m c main_arg8) := by
    refine (ker_src2 (V4 m outs c)).trans ?_
    rw [h23, h13, h8, h4']
    exact (ref_src2 (V0 m c main_arg0) (V0 m c main_arg1) (V0 m c main_arg2) (V0 m c main_arg3) (V0 m c main_arg4) (V0 m c main_arg7) (V0 m c main_arg8)).symm
  have e33 : V7 m outs c main_v33 = Cert.ReferenceIdeal.Read.val_main_v31 (F := Ideal) (V0 m c main_arg0) (V0 m c main_arg1) (V0 m c main_arg2) (V0 m c main_arg3) (V0 m c main_arg5) (V0 m c main_arg7) (V0 m c main_arg8) := by
    refine (ker_dst2 (V4 m outs c)).trans ?_
    rw [h23, h13, h8, h5]
    exact (ref_dst2 (V0 m c main_arg0) (V0 m c main_arg1) (V0 m c main_arg2) (V0 m c main_arg3) (V0 m c main_arg5) (V0 m c main_arg7) (V0 m c main_arg8)).symm
  -- region 1 finds the second argument matrix as launched and, the pad adding nothing, the gathered array itself
  have e42 : (V9 m outs c main_v42 : S4096x128.Idx → EReal) = Cert.ReferenceIdeal.Read.val_main_v38 (F := Ideal) (V0 m c main_arg0) (V0 m c main_arg1) (V0 m c main_arg2) (V0 m c main_arg3) (V0 m c main_arg4) (V0 m c main_arg7) (V0 m c main_arg8) :=
    (operand1_eq (V7 m outs c)).trans e40
  have r6 : V9 m outs c main_arg6 = V0 m c main_arg6 := ((V9_of m outs c main_arg6 (by decide)).trans ((V8_of m outs c main_arg6 (by decide)).trans ((V7_of m outs c main_arg6 (by decide)).trans ((V6_of m outs c main_arg6 (by decide)).trans ((V5_of m outs c main_arg6 (by decide)).trans ((V4_of m outs c main_arg6 (by decide)).trans ((V3_of m c main_arg6 (by decide)).trans ((V2_of m c main_arg6 (by decide)).trans (V1_of m c main_arg6 (by decide))))))))))
  -- so region 1's output is the reference's second diffusion product
  have e43 : outs 10 main_v43 c = Cert.ReferenceIdeal.Read.val_main_v39 (F := Ideal) (V0 m c main_arg0) (V0 m c main_arg1) (V0 m c main_arg2) (V0 m c main_arg3) (V0 m c main_arg4) (V0 m c main_arg6) (V0 m c main_arg7) (V0 m c main_arg8) :=
    agg2_eq _ _ _ _ _ _ _ _ _ (fun p q => h10 _ _ _ r6.symm e42.symm rfl p q)
  -- after the regions: the same update, classifier and softmax
  have h43 : V10 m outs c main_v43 = Cert.ReferenceIdeal.Read.val_main_v39 (F := Ideal) (V0 m c main_arg0) (V0 m c main_arg1) (V0 m c main_arg2) (V0 m c main_arg3) (V0 m c main_arg4) (V0 m c main_arg6) (V0 m c main_arg7) (V0 m c main_arg8) :=
    (Function.update_self _ _ _).trans e43
  have h33 : V10 m outs c main_v33 = Cert.ReferenceIdeal.Read.val_main_v31 (F := Ideal) (V0 m c main_arg0) (V0 m c main_arg1) (V0 m c main_arg2) (V0 m c main_arg3) (V0 m c main_arg5) (V0 m c main_arg7) (V0 m c main_arg8) :=
    ((V10_of m outs c main_v33 (by decide)).trans ((V9_of m outs c main_v33 (by decide)).trans (V8_of m outs c main_v33 (by decide)))).trans e33
  have h9 : V10 m outs c main_arg9 = V0 m c main_arg9 := ((V10_of m outs c main_arg9 (by decide)).trans ((V9_of m outs c main_arg9 (by decide)).trans ((V8_of m outs c main_arg9 (by decide)).trans ((V7_of m outs c main_arg9 (by decide)).trans ((V6_of m outs c main_arg9 (by decide)).trans ((V5_of m outs c main_arg9 (by decide)).trans ((V4_of m outs c main_arg9 (by decide)).trans ((V3_of m c main_arg9 (by decide)).trans ((V2_of m c main_arg9 (by decide)).trans (V1_of m c main_arg9 (by decide)))))))))))
  have h10' : V10 m outs c main_arg10 = V0 m c main_arg10 := ((V10_of m outs c main_arg10 (by decide)).trans ((V9_of m outs c main_arg10 (by decide)).trans ((V8_of m outs c main_arg10 (by decide)).trans ((V7_of m outs c main_arg10 (by decide)).trans ((V6_of m outs c main_arg10 (by decide)).trans ((V5_of m outs c main_arg10 (by decide)).trans ((V4_of m outs c main_arg10 (by decide)).trans ((V3_of m c main_arg10 (by decide)).trans ((V2_of m c main_arg10 (by decide)).trans (V1_of m c main_arg10 (by decide)))))))))))
  have e58 : V13 m outs c main_v58 = Cert.ReferenceIdeal.Read.val_main_v54 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) := by
    refine (ker_tail2 (V10 m outs c)).trans ?_
    rw [h43, h33, h9, h10']
    exact (ref_tail2 (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10)).symm
  -- the reference's memory agrees with the kernel program's on every argument
  have b0 : m' ((c.tc : Thread Cert.ReferenceIdeal.nD Cert.ReferenceIdeal.τ).loc Cert.ReferenceIdeal.main_arg0) = V0 m c main_arg0 := a0
  have b1 : m' ((c.tc : Thread Cert.ReferenceIdeal.nD Cert.ReferenceIdeal.τ).loc Cert.ReferenceIdeal.main_arg1) = V0 m c main_arg1 := a1
  have b2 : m' ((c.tc : Thread Cert.ReferenceIdeal.nD Cert.ReferenceIdeal.τ).loc Cert.ReferenceIdeal.main_arg2) = V0 m c main_arg2 := a2
  have b3 : m' ((c.tc : Thread Cert.ReferenceIdeal.nD Cert.ReferenceIdeal.τ).loc Cert.ReferenceIdeal.main_arg3) = V0 m c main_arg3 := a3
  have b4 : m' ((c.tc : Thread Cert.ReferenceIdeal.nD Cert.ReferenceIdeal.τ).loc Cert.ReferenceIdeal.main_arg4) = V0 m c main_arg4 := a4
  have b5 : m' ((c.tc : Thread Cert.ReferenceIdeal.nD Cert.ReferenceIdeal.τ).loc Cert.ReferenceIdeal.main_arg5) = V0 m c main_arg5 := a5
  have b6 : m' ((c.tc : Thread Cert.ReferenceIdeal.nD Cert.ReferenceIdeal.τ).loc Cert.ReferenceIdeal.main_arg6) = V0 m c main_arg6 := a6
  have b7 : m' ((c.tc : Thread Cert.ReferenceIdeal.nD Cert.ReferenceIdeal.τ).loc Cert.ReferenceIdeal.main_arg7) = V0 m c main_arg7 := a7
  have b8 : m' ((c.tc : Thread Cert.ReferenceIdeal.nD Cert.ReferenceIdeal.τ).loc Cert.ReferenceIdeal.main_arg8) = V0 m c main_arg8 := a8
  have b9 : m' ((c.tc : Thread Cert.ReferenceIdeal.nD Cert.ReferenceIdeal.τ).loc Cert.ReferenceIdeal.main_arg9) = V0 m c main_arg9 := a9
  have b10 : m' ((c.tc : Thread Cert.ReferenceIdeal.nD Cert.ReferenceIdeal.τ).loc Cert.ReferenceIdeal.main_arg10) = V0 m c main_arg10 := a10
  rw [e58, Cert.ReferenceIdeal.Read.val_main_v54_eq, b0, b1, b2, b3, b4, b5, b6, b7, b8, b9, b10]

end Cert.KernelIdeal.HostValue

end
-- ==== Proof.lean ====
/-
  The certificate of a two-layer graph network's forward pass whose two "diffusion" products dif_mat · src run as
  kernels. Each kernel sweeps the columns of dif_mat in blocks of 4096, zeroing the entries of the last block that
  lie past the array's end, and accumulates the blocks' products into its result block; the reference computes each
  product whole. On the extended reals a sum regrouped into blocks, with zero terms added, is the same sum — only
  associativity and commutativity of + and 0 · x = 0 are used, so the inputs' finiteness is never needed — and every
  other operation (the gathers, the concatenations, the dense layers, the relu, the softmax) is the same on both sides.

  The three frames are the programs' runs with the result dropped; nothing was rewritten by the idealization, so that
  conjunct is trivial; the algebraic conjunct puts the kernel program's run beside the reference's and identifies the
  two result terms.
-/
import proofs.«107894_j60490319397131_2_alg».proof.Defs
import proofs.«107894_j60490319397131_2_alg».proof.Proof.Gen.Kernel
import proofs.«107894_j60490319397131_2_alg».proof.Proof.Gen.Kernel.Skeleton
import proofs.«107894_j60490319397131_2_alg».proof.Proof.Gen.Kernel.Launch
import proofs.«107894_j60490319397131_2_alg».proof.Proof.Gen.Kernel.Regions
import proofs.«107894_j60490319397131_2_alg».proof.Proof.Gen.Kernel.Points
import proofs.«107894_j60490319397131_2_alg».proof.Proof.Gen.KernelIdeal
import proofs.«107894_j60490319397131_2_alg».proof.Proof.Gen.KernelIdeal.Skeleton
import proofs.«107894_j60490319397131_2_alg».proof.Proof.Gen.KernelIdeal.Launch
import proofs.«107894_j60490319397131_2_alg».proof.Proof.Gen.KernelIdeal.Regions
import proofs.«107894_j60490319397131_2_alg».proof.Proof.Gen.KernelIdeal.Points
import proofs.«107894_j60490319397131_2_alg».proof.Proof.Gen.ReferenceIdeal
import proofs.«107894_j60490319397131_2_alg».proof.Proof.Gen.Pre_finite_inputs
import proofs.«107894_j60490319397131_2_alg».proof.Proof.Gen.ReferenceIdeal.Run
import proofs.«107894_j60490319397131_2_alg».proof.Proof.Gen.ReferenceIdeal.Read
import proofs.«107894_j60490319397131_2_alg».proof.Proof.BitsRun
import proofs.«107894_j60490319397131_2_alg».proof.Proof.Run
import proofs.«107894_j60490319397131_2_alg».proof.Proof.Value
import proofs.«107894_j60490319397131_2_alg».proof.Proof.HostValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ =>
  (θ_run Cert.Kernel.defs _ _).mono (fun _ h c => (h c).2) (Cert.Kernel.Hand.run_all (F := Bits) m ρ)

/-- So does the idealized program. -/
theorem frame_ki : Cert.frame_KernelIdeal := fun m ρ _ =>
  (θ_run Cert.KernelIdeal.defs _ _).mono (fun _ h c => (h c).2) (Cert.KernelIdeal.Hand.run_all (F := Ideal) m ρ)

/-- And the reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with the same result: the kernel
    program's is the fold of its host operations over the two regions' plain products, which is the reference's term. -/
theorem algebraic : Cert.algebraic_KernelIdeal_ReferenceIdeal := by
  intro m ρ m' ρ' _ hagree
  refine ⟨fun c => Cert.KernelIdeal.Gen.V13 m (Cert.KernelIdeal.Hand.outs m) c Cert.KernelIdeal.main_v58,
    Cert.KernelIdeal.Hand.run_all (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.KernelIdeal.HostValue.result_eq m m' (Cert.KernelIdeal.Hand.outs m) c (hagree c)
    (Cert.KernelIdeal.Hand.region0_product m c) (Cert.KernelIdeal.Hand.region1_product m c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
